-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x2048 : Shape := ⟨3, ![4, 64, 2048]⟩
abbrev S8192x64 : Shape := ⟨2, ![8192, 64]⟩
abbrev S_ : Shape := ⟨0, ![]⟩

class Facts : Prop where
  bcast_S_S4x64x2048 : S_.BroadcastsInDim S4x64x2048 (![] : Fin 0 → Fin S4x64x2048.rank)
  reducesTo_S4x64x2048_S_d0_1_2 : S4x64x2048.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S4x64x2048 .f32) (main_arg1 : FVec F S8192x64 .f32) : IVec S_ 1 :=
  let main_v0 : FVec F S4x64x2048 .f32 := Host.absf main_arg0
  let main_cst : FVec F S_ .f32 := constant S_ .f32 0x7F800000#32
  let main_v1 : FVec F S4x64x2048 .f32 := broadcastInDim S4x64x2048 ![] bcast_S_S4x64x2048 main_cst
  let main_v2 : IVec S4x64x2048 1 := cmpf .olt main_v0 main_v1
  let main_c : IVec S_ 1 := constantI S_ 1 1#1
  let main_v3 : IVec S_ 1 := (fun x v => Host.reduce IntOp.andi x v reducesTo_S4x64x2048_S_d0_1_2 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S4x64x2048 : Shape := ⟨3, ![4, 64, 2048]⟩
abbrev S8192x64 : Shape := ⟨2, ![8192, 64]⟩
abbrev S4x2048x64 : Shape := ⟨3, ![4, 2048, 64]⟩
abbrev S1x1 : Shape := ⟨2, ![1, 1]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 20
  | .vmem => 18
  | .smem => 0
  | _ => 0

abbrev bufTy : (tb : Table) → Fin (tcTables nBuf tb) → BufTy
  | .hbm, ⟨0, _⟩ => ⟨S4x64x2048, .f32⟩
  | .hbm, ⟨1, _⟩ => ⟨S8192x64, .f32⟩
  | .hbm, ⟨2, _⟩ => ⟨S4x2048x64, .f32⟩
  | .hbm, ⟨3, _⟩ => ⟨S8192x64, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x1, .f32⟩
  | .local _ .vmem, ⟨5, _⟩ => ⟨S1x1, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1x1, .f32⟩
  | .local _ .vmem, ⟨11, _⟩ => ⟨S1x1, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1x1, .f32⟩
  | .local _ .vmem, ⟨17, _⟩ => ⟨S1x1, .f32⟩
  | _, _ => ⟨S4x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let arg1 : BitVec 32 := BitVec.ofNat 32 (i 1).val
  let c7_i32_16 : BitVec 32 := 7#32
  let v40 : BitVec 1 := Scalar.cmpi .eq arg1 c7_i32_16
  let v41 : BitVec 1 := Scalar.andi v39 v40
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_16 : BitVec 32 := 7#32
  let v38 : BitVec 1 := Scalar.cmpi .eq arg1 c7_i32_16
  let v39 : BitVec 1 := Scalar.andi v37 v38
  let v40 : BitVec 32 := Scalar.extui v39
  let c0_i32_17 : BitVec 32 := 0#32
  let v41 : BitVec 1 := Scalar.cmpi .ne v40 c0_i32_17
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![8, 8], ![false, false]⟩

def k2_cond2 (i : grid2.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_16 : BitVec 32 := 7#32
  let v39 : BitVec 1 := Scalar.cmpi .eq arg1 c7_i32_16
  let v40 : BitVec 1 := Scalar.andi v38 v39
  let v41 : BitVec 32 := Scalar.extui v40
  let c0_i32_17 : BitVec 32 := 0#32
  let v42 : BitVec 1 := Scalar.cmpi .ne v41 c0_i32_17
  v42

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  transposes_S4x64x2048_S4x2048x64_0_2_1 : S4x64x2048.Transposes [0, 2, 1] S4x2048x64
  shapeCasts_S4x2048x64_S8192x64 : S4x2048x64.ShapeCasts S8192x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v1) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x64x2048 : Shape := ⟨3, ![4, 64, 2048]⟩
abbrev S8192x64 : Shape := ⟨2, ![8192, 64]⟩
abbrev S4x2048x64 : Shape := ⟨3, ![4, 2048, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 86
  | .vmem => 0
  | .smem => 0
  | _ => 0

abbrev bufTy : (tb : Table) → Fin (tcTables nBuf tb) → BufTy
  | .hbm, ⟨0, _⟩ => ⟨S4x64x2048, .f32⟩
  | .hbm, ⟨1, _⟩ => ⟨S8192x64, .f32⟩
  | .hbm, ⟨2, _⟩ => ⟨S4x2048x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S64x8192, .f32⟩
  | .hbm, ⟨11, _⟩ => ⟨S8192x8192, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x64, .f32⟩
  | .hbm, ⟨34, _⟩ => ⟨S_, .f32⟩
  | .hbm, ⟨35, _⟩ => ⟨S8192, .f32⟩
  | .hbm, ⟨36, _⟩ => ⟨S64x8192, .f32⟩
  | .hbm, ⟨37, _⟩ => ⟨S8192x8192, .f32⟩
  | .hbm, ⟨38, _⟩ => ⟨S8192x1, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x64, .f32⟩
  | .hbm, ⟨57, _⟩ => ⟨S_, .f32⟩
  | .hbm, ⟨58, _⟩ => ⟨S8192, .f32⟩
  | .hbm, ⟨59, _⟩ => ⟨S8192x64, .f32⟩
  | .hbm, ⟨60, _⟩ => ⟨S_, .f32⟩
  | .hbm, ⟨61, _⟩ => ⟨S8192, .f32⟩
  | .hbm, ⟨62, _⟩ => ⟨S64x8192, .f32⟩
  | .hbm, ⟨63, _⟩ => ⟨S8192x8192, .f32⟩
  | .hbm, ⟨64, _⟩ => ⟨S8192x1, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_14 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_15 : Ref sig .tc := ⟨.hbm, 78, rfl⟩
abbrev main_v60 : Ref sig .tc := ⟨.hbm, 79, rfl⟩
abbrev main_cst_16 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  transposes_S4x64x2048_S4x2048x64_0_2_1 : S4x64x2048.Transposes [0, 2, 1] S4x2048x64
  shapeCasts_S4x2048x64_S8192x64 : S4x2048x64.ShapeCasts S8192x64
  reducesTo_S8192x64_S8192_d1 : S8192x64.ReducesTo [1] S8192
  h_S_ : 0 < S_.numel
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.PairSpec.lean ====
/-
  The mathematics both programs compute, stated once over the extended reals.

  For two arrays `a`, `b` of 8192 rows of 64 numbers, the PAIR VALUE of rows `n` of `a` and `m` of `b` is
  `exp (-(|a_n|² + |b_m|² - 2 ⟨a_n, b_m⟩) / 4096)`: the Gaussian of the squared distance of the two rows written
  through the polarisation identity, never expanded. The PAIR SUM is the sum of the pair values over all 8192 × 8192
  pairs of rows, and the discrepancy of `x` and `y` is
  `pairSum x x / 2²⁶ + pairSum y y / 2²⁶ - 2 · (pairSum x y / 2²⁶)`.
  The three float literals stay the patterns both programs print (2, 4096 and 2²⁶): the same word on both sides is
  never evaluated.
-/
import Idealize.ShloMosaic.PureOps.Ideal
import Idealize.ShloMosaic.Lib.ValueIdx

noncomputable section

namespace Cert.PairSpec

open Idealize.ShloMosaic Idealize.ShloMosaic.ValueIdx

/-- 8192 rows of 64 extended reals. -/
abbrev Rows : Type := (⟨2, ![8192, 64]⟩ : Shape).Idx → EReal

/-- The squared length of row `n`. -/
def rowSq (a : Rows) (n : Fin 8192) : EReal := ∑ k : Fin 64, a (ix2 n k) * a (ix2 n k)

/-- The inner product of row `n` of `a` and row `m` of `b`. -/
def rowDot (a b : Rows) (n m : Fin 8192) : EReal := ∑ k : Fin 64, a (ix2 n k) * b (ix2 m k)

/-- The literal 2. -/
def two : EReal := Ideal.ofBits .f32 0x40000000#32
/-- The literal 4096, the divisor under the exponential. -/
def width : EReal := Ideal.ofBits .f32 0x45800000#32
/-- The literal 2²⁶ = 8192 · 8192, the number of pairs. -/
def count : EReal := Ideal.ofBits .f32 0x4C800000#32

/-- The pair value of row `n` of `a` and row `m` of `b`. -/
def pairVal (a b : Rows) (n m : Fin 8192) : EReal :=
  Ideal.exp (Ideal.div (-((rowSq a n + rowSq b m) - two * rowDot a b n m)) width)

/-- The sum of the pair values over all pairs of rows. -/
def pairSum (a b : Rows) : EReal := ∑ n : Fin 8192, ∑ m : Fin 8192, pairVal a b n m

/-- The discrepancy of `x` and `y`: the two self sums and twice the cross sum, each divided by the number of pairs. -/
def mmd (x y : Rows) : EReal :=
  (Ideal.div (pairSum x x) count + Ideal.div (pairSum y y) count) - two * Ideal.div (pairSum x y) count

end Cert.PairSpec

end
-- ==== Proof.RefValue.lean ====
/-
  The reference program computes the discrepancy of the specification.

  The reference forms, for each of the three pairs of arrays (x, x), (y, y) and (x, y), the 8192 × 8192 table of
  pair values: row sums of squares broadcast along the two axes, minus twice the table of inner products, negated,
  divided by 4096, exponentiated. Each table is summed over all its entries and divided by 2²⁶, and the three
  quotients are combined as  xx + yy - 2 · xy. Reading each stage at an index turns this, entry by entry, into the
  pair value of the specification; the sum over the rank-two index set is the double sum over the two coordinates.
-/
import proofs.«104297_j12386685682169_1_alg».proof.Proof.Gen.ReferenceIdeal.Read
import proofs.«104297_j12386685682169_1_alg».proof.Proof.PairSpec

noncomputable section

namespace Cert.RefValue

open Cert.ReferenceIdeal Cert.ReferenceIdeal.Read Cert.PairSpec Idealize.ShloMosaic Idealize.ShloMosaic.ValueIdx

/-- The entry of a table of the reference, once every stage has been read at its index: the row sums start from
    the literal zero, and the literals 2 and 4096 are the specification's. -/
theorem pair_core (a b : Rows) (n m : Fin 8192) :
    Ideal.exp (Ideal.div (-(((Ideal.ofBits .f32 0x00000000#32 + ∑ k : Fin 64, a (ix2 n k) * a (ix2 n k))
        + (Ideal.ofBits .f32 0x00000000#32 + ∑ k : Fin 64, b (ix2 m k) * b (ix2 m k)))
        - Ideal.ofBits .f32 0x40000000#32 * ∑ k : Fin 64, a (ix2 n k) * b (ix2 m k)))
      (Ideal.ofBits .f32 0x45800000#32)) = pairVal a b n m := by
  unfold pairVal rowSq rowDot two width
  rw [Ideal.ofBits_zero_f32, zero_add, zero_add]

/-- An entry of the table of pair values of the first array with itself. -/
theorem xx_entry (a0 : (⟨S4x64x2048, .f32⟩ : BufTy).Contents (Elt Ideal)) (i : S8192x8192.Idx) :
    val_main_v19 (F := Ideal) a0 i = pairVal (val_main_v1 (F := Ideal) a0) (val_main_v1 (F := Ideal) a0) (i 0) (i 1) := by
  rw [val_main_v19_apply, val_main_v18_apply, val_main_v16_apply, val_main_v15_apply, val_main_v12_apply,
    val_main_v10_apply, val_main_v8_apply, val_main_v3_apply, val_main_v11_apply, val_main_v9_apply, val_main_v5_apply,
    val_main_v14_apply, val_main_v13_apply, val_main_cst_1_apply, val_main_v7_apply, val_main_v17_apply,
    val_main_cst_2_apply, val_main_cst_apply, val_main_cst_0_apply]
  simp only [val_main_v2_apply, val_main_v4_apply, val_main_v6_apply]
  have el : ∀ k : Fin 64, idx_main_v3 (idx_main_v8 (idx_main_v10 i)) k = ix2 (i 0) k := fun k =>
    funext fun a => Fin.ext (by match a with | ⟨0, _⟩ => rfl | ⟨1, _⟩ => rfl)
  have er : ∀ k : Fin 64, idx_main_v5 (idx_main_v9 (idx_main_v11 i)) k = ix2 (i 1) k := fun k =>
    funext fun a => Fin.ext (by match a with | ⟨0, _⟩ => rfl | ⟨1, _⟩ => rfl)
  have dl : ∀ k : Fin 64, lidx_main_v7 i k = ix2 (i 0) k := fun k =>
    funext fun a => Fin.ext (by match a with | ⟨0, _⟩ => rfl | ⟨1, _⟩ => rfl)
  have dr : ∀ k : Fin 64, idx_main_v6 (ridx_main_v7 i k) = ix2 (i 1) k := fun k =>
    funext fun a => Fin.ext (by match a with | ⟨0, _⟩ => rfl | ⟨1, _⟩ => rfl)
  simp only [el, er, dl, dr, Ideal.hostUnary_exp_def, Ideal.hostDivf_def, Ideal.hostNegf_def, Ideal.negf_def, Ideal.subf_def,
    Ideal.addf_def, Ideal.mulf_def, Ideal.ofBits_def]
  exact pair_core (val_main_v1 (F := Ideal) a0) (val_main_v1 (F := Ideal) a0) (i 0) (i 1)

/-- The table of the first array with itself summed over all its entries and divided by the number of pairs. -/
theorem xx_mean (a0 : (⟨S4x64x2048, .f32⟩ : BufTy).Contents (Elt Ideal)) (j : S_.Idx) :
    val_main_v21 (F := Ideal) a0 j = Ideal.div (pairSum (val_main_v1 (F := Ideal) a0) (val_main_v1 (F := Ideal) a0)) count := by
  rw [val_main_v21_apply, val_main_v20_apply, val_main_cst_3_apply, val_main_cst_4_apply]
  simp only [xx_entry, Ideal.hostDivf_def, Ideal.ofBits_def]
  rw [Ideal.ofBits_zero_f32, zero_add, sum_idx2]
  rfl

/-- An entry of the table of pair values of the second array with itself. -/
theorem yy_entry (a1 : (⟨S8192x64, .f32⟩ : BufTy).Contents (Elt Ideal)) (i : S8192x8192.Idx) :
    val_main_v39 (F := Ideal) a1 i = pairVal (a1) (a1) (i 0) (i 1) := by
  rw [val_main_v39_apply, val_main_v38_apply, val_main_v36_apply, val_main_v35_apply, val_main_v32_apply,
    val_main_v30_apply, val_main_v28_apply, val_main_v23_apply, val_main_v31_apply, val_main_v29_apply, val_main_v25_apply,
    val_main_v34_apply, val_main_v33_apply, val_main_cst_7_apply, val_main_v27_apply, val_main_v37_apply,
    val_main_cst_8_apply, val_main_cst_5_apply, val_main_cst_6_apply]
  simp only [val_main_v22_apply, val_main_v24_apply, val_main_v26_apply]
  have el : ∀ k : Fin 64, idx_main_v23 (idx_main_v28 (idx_main_v30 i)) k = ix2 (i 0) k := fun k =>
    funext fun a => Fin.ext (by match a with | ⟨0, _⟩ => rfl | ⟨1, _⟩ => rfl)
  have er : ∀ k : Fin 64, idx_main_v25 (idx_main_v29 (idx_main_v31 i)) k = ix2 (i 1) k := fun k =>
    funext fun a => Fin.ext (by match a with | ⟨0, _⟩ => rfl | ⟨1, _⟩ => rfl)
  have dl : ∀ k : Fin 64, lidx_main_v27 i k = ix2 (i 0) k := fun k =>
    funext fun a => Fin.ext (by match a with | ⟨0, _⟩ => rfl | ⟨1, _⟩ => rfl)
  have dr : ∀ k : Fin 64, idx_main_v26 (ridx_main_v27 i k) = ix2 (i 1) k := fun k =>
    funext fun a => Fin.ext (by match a with | ⟨0, _⟩ => rfl | ⟨1, _⟩ => rfl)
  simp only [el, er, dl, dr, Ideal.hostUnary_exp_def, Ideal.hostDivf_def, Ideal.hostNegf_def, Ideal.negf_def, Ideal.subf_def,
    Ideal.addf_def, Ideal.mulf_def, Ideal.ofBits_def]
  exact pair_core (a1) (a1) (i 0) (i 1)

/-- The table of the second array with itself summed over all its entries and divided by the number of pairs. -/
theorem yy_mean (a1 : (⟨S8192x64, .f32⟩ : BufTy).Contents (Elt Ideal)) (j : S_.Idx) :
    val_main_v41 (F := Ideal) a1 j = Ideal.div (pairSum (a1) (a1)) count := by
  rw [val_main_v41_apply, val_main_v40_apply, val_main_cst_9_apply, val_main_cst_10_apply]
  simp only [yy_entry, Ideal.hostDivf_def, Ideal.ofBits_def]
  rw [Ideal.ofBits_zero_f32, zero_add, sum_idx2]
  rfl

/-- An entry of the table of pair values of the first array with the second. -/
theorem xy_entry (a0 : (⟨S4x64x2048, .f32⟩ : BufTy).Contents (Elt Ideal)) (a1 : (⟨S8192x64, .f32⟩ : BufTy).Contents (Elt Ideal)) (i : S8192x8192.Idx) :
    val_main_v59 (F := Ideal) a0 a1 i = pairVal (val_main_v1 (F := Ideal) a0) (a1) (i 0) (i 1) := by
  rw [val_main_v59_apply, val_main_v58_apply, val_main_v56_apply, val_main_v55_apply, val_main_v52_apply,
    val_main_v50_apply, val_main_v48_apply, val_main_v43_apply, val_main_v51_apply, val_main_v49_apply, val_main_v45_apply,
    val_main_v54_apply, val_main_v53_apply, val_main_cst_13_apply, val_main_v47_apply, val_main_v57_apply,
    val_main_cst_14_apply, val_main_cst_11_apply, val_main_cst_12_apply]
  simp only [val_main_v42_apply, val_main_v44_apply, val_main_v46_apply]
  have el : ∀ k : Fin 64, idx_main_v43 (idx_main_v48 (idx_main_v50 i)) k = ix2 (i 0) k := fun k =>
    funext fun a => Fin.ext (by match a with | ⟨0, _⟩ => rfl | ⟨1, _⟩ => rfl)
  have er : ∀ k : Fin 64, idx_main_v45 (idx_main_v49 (idx_main_v51 i)) k = ix2 (i 1) k := fun k =>
    funext fun a => Fin.ext (by match a with | ⟨0, _⟩ => rfl | ⟨1, _⟩ => rfl)
  have dl : ∀ k : Fin 64, lidx_main_v47 i k = ix2 (i 0) k := fun k =>
    funext fun a => Fin.ext (by match a with | ⟨0, _⟩ => rfl | ⟨1, _⟩ => rfl)
  have dr : ∀ k : Fin 64, idx_main_v46 (ridx_main_v47 i k) = ix2 (i 1) k := fun k =>
    funext fun a => Fin.ext (by match a with | ⟨0, _⟩ => rfl | ⟨1, _⟩ => rfl)
  simp only [el, er, dl, dr, Ideal.hostUnary_exp_def, Ideal.hostDivf_def, Ideal.hostNegf_def, Ideal.negf_def, Ideal.subf_def,
    Ideal.addf_def, Ideal.mulf_def, Ideal.ofBits_def]
  exact pair_core (val_main_v1 (F := Ideal) a0) (a1) (i 0) (i 1)

/-- The table of the first array with the second summed over all its entries and divided by the number of pairs. -/
theorem xy_mean (a0 : (⟨S4x64x2048, .f32⟩ : BufTy).Contents (Elt Ideal)) (a1 : (⟨S8192x64, .f32⟩ : BufTy).Contents (Elt Ideal)) (j : S_.Idx) :
    val_main_v61 (F := Ideal) a0 a1 j = Ideal.div (pairSum (val_main_v1 (F := Ideal) a0) (a1)) count := by
  rw [val_main_v61_apply, val_main_v60_apply, val_main_cst_15_apply, val_main_cst_16_apply]
  simp only [xy_entry, Ideal.hostDivf_def, Ideal.ofBits_def]
  rw [Ideal.ofBits_zero_f32, zero_add, sum_idx2]
  rfl

/-- The reference's result is the discrepancy of the specification, of the transposed and reshaped first argument
    and the second argument. -/
theorem ref_value (a0 : (⟨S4x64x2048, .f32⟩ : BufTy).Contents (Elt Ideal)) (a1 : (⟨S8192x64, .f32⟩ : BufTy).Contents (Elt Ideal)) :
    val_main_v64 (F := Ideal) a0 a1 = fun _ => mmd (val_main_v1 (F := Ideal) a0) a1 := by
  funext j
  rw [val_main_v64_apply, val_main_v62_apply, val_main_v63_apply, val_main_cst_17_apply, xx_mean, yy_mean, xy_mean]
  simp only [Ideal.subf_def, Ideal.addf_def, Ideal.mulf_def, Ideal.ofBits_def]
  rfl

end Cert.RefValue

end
-- ==== Proof.IdealHostTail.lean ====
/-
  What @main's host operations compute around the three kernel regions.

  Before the regions the host transposes and reshapes the first argument into the array every region reads; the
  second argument is read as launched. After each region the host reshapes its one-entry result to a scalar, and
  after the last it combines the three scalars: each divided by 2²⁶, the first two added, twice the third subtracted.
  The run of @main then ends with that combination in the result buffer and both arguments as launched.
-/
import proofs.«104297_j12386685682169_1_alg».proof.Proof.Gen.KernelIdeal.Regions

noncomputable section

namespace Cert.KernelIdeal.HostTail

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-! ## Before the regions -/

/-- After the first host stretch `main_v1` holds the first argument transposed and reshaped to 8192 rows of 64. -/
theorem V1_main_v1 (c : Dev nD) :
    V1 m c main_v1 = shapeCast _ (transpose S4x2048x64 [0, 2, 1] (m ((c : Thread nD τ).loc main_arg0))
      transposes_S4x64x2048_S4x2048x64_0_2_1) shapeCasts_S4x2048x64_S8192x64 := by
  show StableHlo.after hostOps0 _ (Proc.devRef .tc main_v1) = _
  after_results
  rfl

/-- The first host stretch leaves the second argument as launched. -/
theorem V1_main_arg1 (c : Dev nD) : V1 m c main_arg1 = m ((c : Thread nD τ).loc main_arg1) :=
  (V1_of m c main_arg1 (by decide)).trans rfl

/-! ## Nothing later writes the two arrays the regions read -/

theorem V3_main_v1 (c : Dev nD) : V3 m outs c main_v1 = V1 m c main_v1 :=
  (V3_of m outs c main_v1 (by decide)).trans (V2_of m outs c main_v1 (by decide))
theorem V3_main_arg1 (c : Dev nD) : V3 m outs c main_arg1 = V1 m c main_arg1 :=
  (V3_of m outs c main_arg1 (by decide)).trans (V2_of m outs c main_arg1 (by decide))
theorem V5_main_v1 (c : Dev nD) : V5 m outs c main_v1 = V1 m c main_v1 :=
  (V5_of m outs c main_v1 (by decide)).trans <| (V4_of m outs c main_v1 (by decide)).trans (V3_main_v1 m outs c)
theorem V5_main_arg1 (c : Dev nD) : V5 m outs c main_arg1 = V1 m c main_arg1 :=
  (V5_of m outs c main_arg1 (by decide)).trans <| (V4_of m outs c main_arg1 (by decide)).trans (V3_main_arg1 m outs c)

/-! ## After the regions -/

/-- What a region leaves in its result buffer is the unknown the valuations are written over. -/
theorem V2_main_v2 (c : Dev nD) : V2 m outs c main_v2 = outs 2 main_v2 c := Function.update_self _ _ _
theorem V4_main_v4 (c : Dev nD) : V4 m outs c main_v4 = outs 4 main_v4 c := Function.update_self _ _ _
theorem V6_main_v6 (c : Dev nD) : V6 m outs c main_v6 = outs 6 main_v6 c := Function.update_self _ _ _

/-- The first region's result reshaped to a scalar. -/
theorem V3_main_v3 (c : Dev nD) : V3 m outs c main_v3 = shapeCast S_ (outs 2 main_v2 c) shapeCasts_S1x1_S_ := by
  show StableHlo.after hostOps1 _ (Proc.devRef .tc main_v3) = _
  after_results
  rw [V2_main_v2]
  rfl
/-- The second region's result reshaped to a scalar. -/
theorem V5_main_v5 (c : Dev nD) : V5 m outs c main_v5 = shapeCast S_ (outs 4 main_v4 c) shapeCasts_S1x1_S_ := by
  show StableHlo.after hostOps2 _ (Proc.devRef .tc main_v5) = _
  after_results
  rw [V4_main_v4]
  rfl

/-- Neither scalar is written again before the last host stretch. -/
theorem V6_main_v3 (c : Dev nD) : V6 m outs c main_v3 = shapeCast S_ (outs 2 main_v2 c) shapeCasts_S1x1_S_ :=
  (V6_of m outs c main_v3 (by decide)).trans <| (V5_of m outs c main_v3 (by decide)).trans <|
    (V4_of m outs c main_v3 (by decide)).trans (V3_main_v3 m outs c)
theorem V6_main_v5 (c : Dev nD) : V6 m outs c main_v5 = shapeCast S_ (outs 4 main_v4 c) shapeCasts_S1x1_S_ :=
  (V6_of m outs c main_v5 (by decide)).trans (V5_main_v5 m outs c)

/-- The result buffer at the end: the three regions' scalars, each divided by 2²⁶, the first two added and twice
    the third subtracted. -/
theorem V7_main_v13 (c : Dev nD) :
    V7 m outs c main_v13 =
      subf (addf (Host.divf (shapeCast S_ (outs 2 main_v2 c) shapeCasts_S1x1_S_) (constant (F := F) S_ .f32 0x4C800000#32))
          (Host.divf (shapeCast S_ (outs 4 main_v4 c) shapeCasts_S1x1_S_) (constant (F := F) S_ .f32 0x4C800000#32)))
        (mulf (constant (F := F) S_ .f32 0x40000000#32)
          (Host.divf (shapeCast S_ (outs 6 main_v6 c) shapeCasts_S1x1_S_) (constant (F := F) S_ .f32 0x4C800000#32))) := by
  show StableHlo.after hostOps3 _ (Proc.devRef .tc main_v13) = _
  after_results
  rw [V6_main_v3, V6_main_v5, V6_main_v6]
  rfl

/-! ## The run of @main, given the regions' records -/

set_option backward.isDefEq.respectTransparency.types false in
/-- The conditional run: given the three regions' segment records, every weakly fair execution of @main terminates,
    and every final memory holds in the result buffer the last valuation's value of it (`V7_main_v13` says what that
    is over the regions' unknowns) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v13) = V7 m outs c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v13) = V7 m outs c main_v13 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v13) (Finset.mem_filter.mpr ⟨StableHlo.devRef_mem_tcRefs main_v13, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c)⟩
    · iexact HSI

end Cert.KernelIdeal.HostTail

end
-- ==== Proof.IdealConds0.lean ====
/-
  The first of the program's three kernel launches (the rearranged first argument against itself): a grid of 8 × 8 points, each adding
  the sum of a 1024 × 1024 block of pair values to a one-element accumulator that lives across the points. The
  accumulator is reset at the first point (both coordinates zero) and copied into the one-element result block at the
  last point (both coordinates seven); the result block is written back to its array at the last point only.
  Here: those two conditions decided over the grid, where the result window is idle, and the names of the buffers a
  point's body is handed.
-/
import proofs.«104297_j12386685682169_1_alg».proof.Proof.Gen.KernelIdeal.Launch
import proofs.«104297_j12386685682169_1_alg».proof.Proof.Gen.KernelIdeal.Skeleton
import proofs.«104297_j12386685682169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first condition: both grid coordinates are zero (the accumulator is reset there). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The body's second condition: both grid coordinates are the last (the accumulator is copied out there). -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-- The input windows are never idle; the output window is idle exactly off the last point, and written back at the last point only. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The windows' current staging memrefs at a point, as the pipeline passes them, and the scratch accumulator. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0
abbrev VS0 : View sig .tc .vmem S1x1 .f32 := scM0.view
abbrev VO0 : View sig .tc .vmem S1x1 .f32 := (Memref.whole cc0_stg2_0 : Memref sig .tc .vmem S1x1 .f32).view

end Cert.KernelIdeal.Body0

end
-- ==== Proof.IdealRuns0.lean ====
/-
  The body of launch 0 run symbolically, once for each way its two conditions can fall on the grid: at the first point
  (reset, then accumulate), at the last point (accumulate, then copy out), and at every other point (accumulate).
  Each run leaves every buffer it stores into written with a list of pieces (a rectangle and the value stored there);
  on these one-element buffers every piece covers the buffer.
-/
import proofs.«104297_j12386685682169_1_alg».proof.Proof.IdealConds0

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once per case of its two conditions

Each run leaves the accumulator written with the pieces it finds; the two input blocks come back as found, and the
output block either comes back untouched (off the last point) or written with the pieces found (at the last point). -/

set_option maxHeartbeats 4000000 in
/-- The first point: the accumulator, found at anything, is reset and the point's block sum added. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S1024x64 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_sum_kernel i arg2 harg2 arg3 harg3 arg4 harg4 arg5 harg5) K } := by
  refine ⟨?_, fun xi2 E K => ?run⟩
  case run =>
    simp only [cc0__pairwise_sum_kernel_eq_skeleton]; unfold cc0__pairwise_sum_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A point that is neither the first nor the last: the point's block sum is added to the accumulator found at `xs0`. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S1024x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_sum_kernel i arg2 harg2 arg3 harg3 arg4 harg4 arg5 harg5) K } := by
  refine ⟨?_, fun xi2 E K => ?run⟩
  case run =>
    simp only [cc0__pairwise_sum_kernel_eq_skeleton]; unfold cc0__pairwise_sum_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The last point: the block sum is added to the accumulator found at `xs0`, and the accumulator copied into the output block. -/
noncomputable def kernelRun0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S1024x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_sum_kernel i arg2 harg2 arg3 harg3 arg4 harg4 arg5 harg5) K } := by
  refine ⟨?_, ?_, fun E K => ?run⟩
  case run =>
    simp only [cc0__pairwise_sum_kernel_eq_skeleton]; unfold cc0__pairwise_sum_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces cover the one-element buffers -/

theorem scover0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x64 .f32) (y : S1x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1.size (by sl_kernel_rfl) y
theorem scover0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xs0 : Vec F S1x1 .f32) (y : S1x1.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1x1.size (by sl_kernel_rfl) y
theorem scover0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1.size (by sl_kernel_rfl) y
theorem cover0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) (y : S1x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1.size (by sl_kernel_rfl) y

end Cert.KernelIdeal.Body0

end
-- ==== Proof.IdealVals0.lean ====
/-
  What the runs of launch 0 leave, as values: the accumulator ends at ONE STEP `step0 a b p` — the body's arithmetic
  applied to the point's two input blocks `a`, `b` and to what the accumulator held, `p` (the zero `zero0` at the
  first point) —, and at the last point the result block receives that same value.
-/
import proofs.«104297_j12386685682169_1_alg».proof.Proof.IdealRuns0
import Idealize.ShloMosaic.Lib.Pipeline.Value

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces read back as values

On a one-element buffer every store covers it, so what a run leaves is its last store's payload; the loads inside that
payload read whole buffers, so they are the contents the buffers were found at. -/

/-- One point's step of the accumulator: the body's payload of the point's two blocks and of what the accumulator held. -/
abbrev step0 (a b : Vec F S1024x64 .f32) (p : Vec F S1x1 .f32) : FVec F S1x1 .f32 := k0_pay1 (k0_pay3 a b p)
/-- The zero the accumulator is reset to at the first point. -/
abbrev zero0 : FVec F S1x1 .f32 := k0_pay2

theorem hz : (![0, 0] : Fin 2 → Nat) = fun _ => 0 := funext fun a => by fin_cases a <;> rfl

/-- Off the first point the accumulator ends at the payload of the two blocks and of what it held. -/
theorem sval0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xs0 : Vec F S1x1 .f32) :
    arg5.view.read (Elt F) (arg5.view.writes (Elt F) arg5.view.junk (kernelRun0_B c i arg2 harg2 arg3 harg3 arg4 harg4 arg5 harg5 hc0 hc1 x0 x1 xs0).1) = step0 x0 x1 xs0 := by
  rw [View.read_writes_eq_canon _ _ _ (scover0_B c i arg2 harg2 arg3 harg3 arg4 harg4 arg5 harg5 hc0 hc1 x0 x1 xs0)]
  unfold kernelRun0_B
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- At the first point the accumulator ends at the payload of the two blocks and of the zero it was reset to. -/
theorem sval0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x64 .f32) :
    arg5.view.read (Elt F) (arg5.view.writes (Elt F) arg5.view.junk (kernelRun0_A c i arg2 harg2 arg3 harg3 arg4 harg4 arg5 harg5 hc0 hc1 x0 x1).1) = step0 x0 x1 zero0 := by
  rw [View.read_writes_eq_canon _ _ _ (scover0_A c i arg2 harg2 arg3 harg3 arg4 harg4 arg5 harg5 hc0 hc1 x0 x1)]
  unfold kernelRun0_A
  dsimp only
  try sl_unfold_words
  try dsimp only
  rw [View.canon_cons_unit_zero (S := S1x1) hz, View.readCov_unit_zero (S := S1x1) _ hz]
  simp only [View.readAt_eq_ld, harg2.read_unread, harg3.read_unread, View.ld_unit_zero (S := S1024x64) hz, View.ld_unit_zero (S := S1x1) hz]

/-- At the last point the accumulator ends as off the first point, -/
theorem sval0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) :
    arg5.view.read (Elt F) (arg5.view.writes (Elt F) arg5.view.junk (kernelRun0_C c i arg2 harg2 arg3 harg3 arg4 harg4 arg5 harg5 hc0 hc1 x0 x1 xs0).2.1) = step0 x0 x1 xs0 := by
  rw [View.read_writes_eq_canon _ _ _ (scover0_C c i arg2 harg2 arg3 harg3 arg4 harg4 arg5 harg5 hc0 hc1 x0 x1 xs0)]
  unfold kernelRun0_C
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- and the output block receives the accumulator's new value. -/
theorem oval0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) :
    arg4.view.read (Elt F) (arg4.view.writes (Elt F) arg4.view.junk (kernelRun0_C c i arg2 harg2 arg3 harg3 arg4 harg4 arg5 harg5 hc0 hc1 x0 x1 xs0).1) = step0 x0 x1 xs0 := by
  rw [View.read_writes_eq_canon _ _ _ (cover0_C c i arg2 harg2 arg3 harg3 arg4 harg4 arg5 harg5 hc0 hc1 x0 x1 xs0)]
  unfold kernelRun0_C
  dsimp only
  try sl_unfold_words
  try dsimp only
  rw [View.canon_unit_zero hz, View.readCov_unit_zero (S := S1x1) _ hz]
  simp only [View.readAt_eq_ld, harg2.read_unread, harg3.read_unread, harg5.read_unread, View.ld_unit_zero (S := S1024x64) hz, View.ld_unit_zero (S := S1x1) hz]

end Cert.KernelIdeal.Body0

end
-- ==== Proof.IdealDat0.lean ====
/-
  Launch 0 over its whole grid. The accumulator after point `n` is the fold of the steps over the points `0 … n` in
  grid order, starting from zero; an input window's buffer holds the window's block of its array at every point; the
  result window's buffer is touched at the last point only, where it receives the accumulator. This is stated as the
  pipeline's proof data, with the invariant "the accumulator holds the fold so far", and the body's obligation at a
  generic point is discharged by cases on the point (first / last / neither) from the three runs.
-/
import proofs.«104297_j12386685682169_1_alg».proof.Proof.IdealVals0

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, at the contents `V` the region is entered with -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running accumulator -/

/-- What the accumulator holds after point `n`: the first point's payload over the zero it is reset to, then each
    point's payload over what the point before left. -/
def acc0 (c : Dev nD) : (n : ℕ) → n < cfg0.N → Vec F S1x1 .f32
  | 0, h => step0 (iblk0 V c 0 ⟨0, h⟩) (iblk0 V c 1 ⟨0, h⟩) zero0
  | n + 1, h => step0 (iblk0 V c 0 ⟨n + 1, h⟩) (iblk0 V c 1 ⟨n + 1, h⟩) (acc0 c n (Nat.lt_of_succ_lt h))

theorem acc0_zero (c : Dev nD) (t : Fin cfg0.N) (h : t.val = 0) :
    acc0 V c t.val t.isLt = step0 (iblk0 V c 0 t) (iblk0 V c 1 t) zero0 := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-! ## The region's invariant -/

/-- The scoped buffers that are neither a staging buffer of this call nor its accumulator: carried unopened. -/
abbrev others0 (c : Dev nD) : sProp 𝕄 :=
  Pipeline.scopedRestBut (Ix := Unit) (Name := ℕ) (U := UR sig nD τ) (Lvl := ℕ) (Val := Elt F) spec0 c [cc0_scratch0]

/-- The invariant before position `n`: before the first point every scoped buffer at anything; afterwards the
    accumulator at what the point before left, the other scoped buffers at anything, the generator at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-- The invariant the region is entered with, the accumulator split off. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list (win := spec0) (c := c) [cc0_scratch0] (by decide) (by decide)]
  simp only [scM0, owns_whole]
  rfl

/-! ## The proof data -/

/-- The proof data of this call on core `c`: the arrays as the region finds them; after the body each input's buffer
    at its block and the output's at the accumulator; the two input windows, which read one array, hold half of it
    each; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point is the first, the last or neither, and that
    case's run applies; the invariant hands the body the accumulator at what the point before left (at anything, at the
    first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 63 := by omega
    have hc1 : ¬cond0_1 (grid0.coords t) := fun h => h1 ((hcond0_1 t).mp h)
    rw [Dat.leavesExact_idle (dat0 V c) 2 t (idleAt0_2 t hc1) (noFlush0_2 t hc1)]
    rw [acc0_zero V c t h0]
    rw [PhiS0_castSucc V c t, PhiS0_zero V c _ _ h0, PhiA0_eq]
    iintro ⟨⟨⟨HS0, Hoth⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0 (Memref.isWhole_whole _) ((hcond0_0 t).mpr h0) hc1 (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover0_A c (grid0.coords t) (ms0_0 t) (hs0_0 t) (ms0_1 t) (hs0_1 t) (ms0_2 t) (hs0_2 t) scM0 (Memref.isWhole_whole _) _ _ _ _)).trans (sval0_A c (grid0.coords t) (ms0_0 t) (hs0_0 t) (ms0_1 t) (hs0_1 t) (ms0_2 t) (hs0_2 t) scM0 (Memref.isWhole_whole _) _ _ _ _)
        iexact Hoth
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    rw [acc0_pos V c t h0]
    rw [PhiS0_castSucc V c t, PhiS0_pos V c _ _ h0]
    by_cases h1 : t.val = 63
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, acc0_pos V c t h0]
      iintro ⟨⟨⟨HS0, Hoth⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover0_C c (grid0.coords t) (ms0_0 t) (hs0_0 t) (ms0_1 t) (hs0_1 t) (ms0_2 t) (hs0_2 t) scM0 (Memref.isWhole_whole _) _ _ _ _ _)).trans (sval0_C c (grid0.coords t) (ms0_0 t) (hs0_0 t) (ms0_1 t) (hs0_1 t) (ms0_2 t) (hs0_2 t) scM0 (Memref.isWhole_whole _) _ _ _ _ _)
          iexact Hoth
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_C c (grid0.coords t) (ms0_0 t) (hs0_0 t) (ms0_1 t) (hs0_1 t) (ms0_2 t) (hs0_2 t) scM0 (Memref.isWhole_whole _) _ _ _ _ _)).trans (oval0_C c (grid0.coords t) (ms0_0 t) (hs0_0 t) (ms0_1 t) (hs0_1 t) (ms0_2 t) (hs0_2 t) scM0 (Memref.isWhole_whole _) _ _ _ _ _)
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover0_B c (grid0.coords t) (ms0_0 t) (hs0_0 t) (ms0_1 t) (hs0_1 t) (ms0_2 t) (hs0_2 t) scM0 (Memref.isWhole_whole _) _ _ _ _ _)).trans (sval0_B c (grid0.coords t) (ms0_0 t) (hs0_0 t) (ms0_1 t) (hs0_1 t) (ms0_2 t) (hs0_2 t) scM0 (Memref.isWhole_whole _) _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body0

end
-- ==== Proof.IdealConds1.lean ====
/-
  The second of the program's three kernel launches (the second argument against itself): a grid of 8 × 8 points, each adding
  the sum of a 1024 × 1024 block of pair values to a one-element accumulator that lives across the points. The
  accumulator is reset at the first point (both coordinates zero) and copied into the one-element result block at the
  last point (both coordinates seven); the result block is written back to its array at the last point only.
  Here: those two conditions decided over the grid, where the result window is idle, and the names of the buffers a
  point's body is handed.
-/
import proofs.«104297_j12386685682169_1_alg».proof.Proof.Gen.KernelIdeal.Launch
import proofs.«104297_j12386685682169_1_alg».proof.Proof.Gen.KernelIdeal.Skeleton
import proofs.«104297_j12386685682169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first condition: both grid coordinates are zero (the accumulator is reset there). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The body's second condition: both grid coordinates are the last (the accumulator is copied out there). -/
abbrev cond1_1 (i : grid1.Coords) : Prop := k1_cond2 i = 1#1
/-- It holds at the last point only. -/
theorem hcond1_1 : ∀ t : Fin cfg1.N, cond1_1 (grid1.coords t) ↔ t.val = 63 :=
  (by decide +kernel : ∀ t : Fin grid1.N, cond1_1 (grid1.coords t) ↔ t.val = 63)

/-- The input windows are never idle; the output window is idle exactly off the last point, and written back at the last point only. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The windows' current staging memrefs at a point, as the pipeline passes them, and the scratch accumulator. -/
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0
abbrev VS1 : View sig .tc .vmem S1x1 .f32 := scM1.view
abbrev VO1 : View sig .tc .vmem S1x1 .f32 := (Memref.whole cc1_stg2_0 : Memref sig .tc .vmem S1x1 .f32).view

end Cert.KernelIdeal.Body1

end
-- ==== Proof.IdealRuns1.lean ====
/-
  The body of launch 1 run symbolically, once for each way its two conditions can fall on the grid: at the first point
  (reset, then accumulate), at the last point (accumulate, then copy out), and at every other point (accumulate).
  Each run leaves every buffer it stores into written with a list of pieces (a rectangle and the value stored there);
  on these one-element buffers every piece covers the buffer.
-/
import proofs.«104297_j12386685682169_1_alg».proof.Proof.IdealConds1

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once per case of its two conditions

Each run leaves the accumulator written with the pieces it finds; the two input blocks come back as found, and the
output block either comes back untouched (off the last point) or written with the pieces found (at the last point). -/

set_option maxHeartbeats 4000000 in
/-- The first point: the accumulator, found at anything, is reset and the point's block sum added. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 : Vec F S1024x64 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_sum_kernel i arg2 harg2 arg3 harg3 arg4 harg4 arg5 harg5) K } := by
  refine ⟨?_, fun xi2 E K => ?run⟩
  case run =>
    simp only [cc1__pairwise_sum_kernel_eq_skeleton]; unfold cc1__pairwise_sum_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A point that is neither the first nor the last: the point's block sum is added to the accumulator found at `xs0`. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 : Vec F S1024x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_sum_kernel i arg2 harg2 arg3 harg3 arg4 harg4 arg5 harg5) K } := by
  refine ⟨?_, fun xi2 E K => ?run⟩
  case run =>
    simp only [cc1__pairwise_sum_kernel_eq_skeleton]; unfold cc1__pairwise_sum_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The last point: the block sum is added to the accumulator found at `xs0`, and the accumulator copied into the output block. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 : Vec F S1024x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_sum_kernel i arg2 harg2 arg3 harg3 arg4 harg4 arg5 harg5) K } := by
  refine ⟨?_, ?_, fun E K => ?run⟩
  case run =>
    simp only [cc1__pairwise_sum_kernel_eq_skeleton]; unfold cc1__pairwise_sum_kernel_skel
    simp only [k1_part1_eq_skeleton]; unfold k1_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces cover the one-element buffers -/

theorem scover1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x64 .f32) (y : S1x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x1.size (by sl_kernel_rfl) y
theorem scover1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xs0 : Vec F S1x1 .f32) (y : S1x1.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1x1.size (by sl_kernel_rfl) y
theorem scover1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) (y : S1x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x1.size (by sl_kernel_rfl) y
theorem cover1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) (y : S1x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1.size (by sl_kernel_rfl) y

end Cert.KernelIdeal.Body1

end
-- ==== Proof.IdealVals1.lean ====
/-
  What the runs of launch 1 leave, as values: the accumulator ends at ONE STEP `step1 a b p` — the body's arithmetic
  applied to the point's two input blocks `a`, `b` and to what the accumulator held, `p` (the zero `zero1` at the
  first point) —, and at the last point the result block receives that same value.
-/
import proofs.«104297_j12386685682169_1_alg».proof.Proof.IdealRuns1
import Idealize.ShloMosaic.Lib.Pipeline.Value

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces read back as values

On a one-element buffer every store covers it, so what a run leaves is its last store's payload; the loads inside that
payload read whole buffers, so they are the contents the buffers were found at. -/

/-- One point's step of the accumulator: the body's payload of the point's two blocks and of what the accumulator held. -/
abbrev step1 (a b : Vec F S1024x64 .f32) (p : Vec F S1x1 .f32) : FVec F S1x1 .f32 := k1_pay2 a b p
/-- The zero the accumulator is reset to at the first point. -/
abbrev zero1 : FVec F S1x1 .f32 := k1_pay1

theorem hz : (![0, 0] : Fin 2 → Nat) = fun _ => 0 := funext fun a => by fin_cases a <;> rfl

/-- Off the first point the accumulator ends at the payload of the two blocks and of what it held. -/
theorem sval1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xs0 : Vec F S1x1 .f32) :
    arg5.view.read (Elt F) (arg5.view.writes (Elt F) arg5.view.junk (kernelRun1_B c i arg2 harg2 arg3 harg3 arg4 harg4 arg5 harg5 hc0 hc1 x0 x1 xs0).1) = step1 x0 x1 xs0 := by
  rw [View.read_writes_eq_canon _ _ _ (scover1_B c i arg2 harg2 arg3 harg3 arg4 harg4 arg5 harg5 hc0 hc1 x0 x1 xs0)]
  unfold kernelRun1_B
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- At the first point the accumulator ends at the payload of the two blocks and of the zero it was reset to. -/
theorem sval1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x64 .f32) :
    arg5.view.read (Elt F) (arg5.view.writes (Elt F) arg5.view.junk (kernelRun1_A c i arg2 harg2 arg3 harg3 arg4 harg4 arg5 harg5 hc0 hc1 x0 x1).1) = step1 x0 x1 zero1 := by
  rw [View.read_writes_eq_canon _ _ _ (scover1_A c i arg2 harg2 arg3 harg3 arg4 harg4 arg5 harg5 hc0 hc1 x0 x1)]
  unfold kernelRun1_A
  dsimp only
  try sl_unfold_words
  try dsimp only
  rw [View.canon_cons_unit_zero (S := S1x1) hz, View.readCov_unit_zero (S := S1x1) _ hz]
  simp only [View.readAt_eq_ld, harg2.read_unread, harg3.read_unread, View.ld_unit_zero (S := S1024x64) hz, View.ld_unit_zero (S := S1x1) hz]

/-- At the last point the accumulator ends as off the first point, -/
theorem sval1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) :
    arg5.view.read (Elt F) (arg5.view.writes (Elt F) arg5.view.junk (kernelRun1_C c i arg2 harg2 arg3 harg3 arg4 harg4 arg5 harg5 hc0 hc1 x0 x1 xs0).2.1) = step1 x0 x1 xs0 := by
  rw [View.read_writes_eq_canon _ _ _ (scover1_C c i arg2 harg2 arg3 harg3 arg4 harg4 arg5 harg5 hc0 hc1 x0 x1 xs0)]
  unfold kernelRun1_C
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- and the output block receives the accumulator's new value. -/
theorem oval1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) :
    arg4.view.read (Elt F) (arg4.view.writes (Elt F) arg4.view.junk (kernelRun1_C c i arg2 harg2 arg3 harg3 arg4 harg4 arg5 harg5 hc0 hc1 x0 x1 xs0).1) = step1 x0 x1 xs0 := by
  rw [View.read_writes_eq_canon _ _ _ (cover1_C c i arg2 harg2 arg3 harg3 arg4 harg4 arg5 harg5 hc0 hc1 x0 x1 xs0)]
  unfold kernelRun1_C
  dsimp only
  try sl_unfold_words
  try dsimp only
  rw [View.canon_unit_zero hz, View.readCov_unit_zero (S := S1x1) _ hz]
  simp only [View.readAt_eq_ld, harg2.read_unread, harg3.read_unread, harg5.read_unread, View.ld_unit_zero (S := S1024x64) hz, View.ld_unit_zero (S := S1x1) hz]

end Cert.KernelIdeal.Body1

end
-- ==== Proof.IdealDat1.lean ====
/-
  Launch 1 over its whole grid. The accumulator after point `n` is the fold of the steps over the points `0 … n` in
  grid order, starting from zero; an input window's buffer holds the window's block of its array at every point; the
  result window's buffer is touched at the last point only, where it receives the accumulator. This is stated as the
  pipeline's proof data, with the invariant "the accumulator holds the fold so far", and the body's obligation at a
  generic point is discharged by cases on the point (first / last / neither) from the three runs.
-/
import proofs.«104297_j12386685682169_1_alg».proof.Proof.IdealVals1

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, at the contents `V` the region is entered with -/

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running accumulator -/

/-- What the accumulator holds after point `n`: the first point's payload over the zero it is reset to, then each
    point's payload over what the point before left. -/
def acc1 (c : Dev nD) : (n : ℕ) → n < cfg1.N → Vec F S1x1 .f32
  | 0, h => step1 (iblk1 V c 0 ⟨0, h⟩) (iblk1 V c 1 ⟨0, h⟩) zero1
  | n + 1, h => step1 (iblk1 V c 0 ⟨n + 1, h⟩) (iblk1 V c 1 ⟨n + 1, h⟩) (acc1 c n (Nat.lt_of_succ_lt h))

theorem acc1_zero (c : Dev nD) (t : Fin cfg1.N) (h : t.val = 0) :
    acc1 V c t.val t.isLt = step1 (iblk1 V c 0 t) (iblk1 V c 1 t) zero1 := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = step1 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-! ## The region's invariant -/

/-- The scoped buffers that are neither a staging buffer of this call nor its accumulator: carried unopened. -/
abbrev others1 (c : Dev nD) : sProp 𝕄 :=
  Pipeline.scopedRestBut (Ix := Unit) (Name := ℕ) (U := UR sig nD τ) (Lvl := ℕ) (Val := Elt F) spec1 c [cc1_scratch0]

/-- The invariant before position `n`: before the first point every scoped buffer at anything; afterwards the
    accumulator at what the point before left, the other scoped buffers at anything, the generator at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-- The invariant the region is entered with, the accumulator split off. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list (win := spec1) (c := c) [cc1_scratch0] (by decide) (by decide)]
  simp only [scM1, owns_whole]
  rfl

/-! ## The proof data -/

/-- The proof data of this call on core `c`: the arrays as the region finds them; after the body each input's buffer
    at its block and the output's at the accumulator; the two input windows, which read one array, hold half of it
    each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point is the first, the last or neither, and that
    case's run applies; the invariant hands the body the accumulator at what the point before left (at anything, at the
    first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 63 := by omega
    have hc1 : ¬cond1_1 (grid1.coords t) := fun h => h1 ((hcond1_1 t).mp h)
    rw [Dat.leavesExact_idle (dat1 V c) 2 t (idleAt1_2 t hc1) (noFlush1_2 t hc1)]
    rw [acc1_zero V c t h0]
    rw [PhiS1_castSucc V c t, PhiS1_zero V c _ _ h0, PhiA1_eq]
    iintro ⟨⟨⟨HS0, Hoth⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1 (Memref.isWhole_whole _) ((hcond1_0 t).mpr h0) hc1 (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover1_A c (grid1.coords t) (ms1_0 t) (hs1_0 t) (ms1_1 t) (hs1_1 t) (ms1_2 t) (hs1_2 t) scM1 (Memref.isWhole_whole _) _ _ _ _)).trans (sval1_A c (grid1.coords t) (ms1_0 t) (hs1_0 t) (ms1_1 t) (hs1_1 t) (ms1_2 t) (hs1_2 t) scM1 (Memref.isWhole_whole _) _ _ _ _)
        iexact Hoth
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    rw [acc1_pos V c t h0]
    rw [PhiS1_castSucc V c t, PhiS1_pos V c _ _ h0]
    by_cases h1 : t.val = 63
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_pos V c t h0]
      iintro ⟨⟨⟨HS0, Hoth⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover1_C c (grid1.coords t) (ms1_0 t) (hs1_0 t) (ms1_1 t) (hs1_1 t) (ms1_2 t) (hs1_2 t) scM1 (Memref.isWhole_whole _) _ _ _ _ _)).trans (sval1_C c (grid1.coords t) (ms1_0 t) (hs1_0 t) (ms1_1 t) (hs1_1 t) (ms1_2 t) (hs1_2 t) scM1 (Memref.isWhole_whole _) _ _ _ _ _)
          iexact Hoth
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover1_C c (grid1.coords t) (ms1_0 t) (hs1_0 t) (ms1_1 t) (hs1_1 t) (ms1_2 t) (hs1_2 t) scM1 (Memref.isWhole_whole _) _ _ _ _ _)).trans (oval1_C c (grid1.coords t) (ms1_0 t) (hs1_0 t) (ms1_1 t) (hs1_1 t) (ms1_2 t) (hs1_2 t) scM1 (Memref.isWhole_whole _) _ _ _ _ _)
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hoth⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) hc0 hc1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover1_B c (grid1.coords t) (ms1_0 t) (hs1_0 t) (ms1_1 t) (hs1_1 t) (ms1_2 t) (hs1_2 t) scM1 (Memref.isWhole_whole _) _ _ _ _ _)).trans (sval1_B c (grid1.coords t) (ms1_0 t) (hs1_0 t) (ms1_1 t) (hs1_1 t) (ms1_2 t) (hs1_2 t) scM1 (Memref.isWhole_whole _) _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body1

end
-- ==== Proof.IdealConds2.lean ====
/-
  The third of the program's three kernel launches (the rearranged first argument against the second argument): a grid of 8 × 8 points, each adding
  the sum of a 1024 × 1024 block of pair values to a one-element accumulator that lives across the points. The
  accumulator is reset at the first point (both coordinates zero) and copied into the one-element result block at the
  last point (both coordinates seven); the result block is written back to its array at the last point only.
  Here: those two conditions decided over the grid, where the result window is idle, and the names of the buffers a
  point's body is handed.
-/
import proofs.«104297_j12386685682169_1_alg».proof.Proof.Gen.KernelIdeal.Launch
import proofs.«104297_j12386685682169_1_alg».proof.Proof.Gen.KernelIdeal.Skeleton
import proofs.«104297_j12386685682169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first condition: both grid coordinates are zero (the accumulator is reset there). -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The body's second condition: both grid coordinates are the last (the accumulator is copied out there). -/
abbrev cond2_1 (i : grid2.Coords) : Prop := k2_cond2 i = 1#1
/-- It holds at the last point only. -/
theorem hcond2_1 : ∀ t : Fin cfg2.N, cond2_1 (grid2.coords t) ↔ t.val = 63 :=
  (by decide +kernel : ∀ t : Fin grid2.N, cond2_1 (grid2.coords t) ↔ t.val = 63)

/-- The input windows are never idle; the output window is idle exactly off the last point, and written back at the last point only. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The windows' current staging memrefs at a point, as the pipeline passes them, and the scratch accumulator. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0
abbrev VS2 : View sig .tc .vmem S1x1 .f32 := scM2.view
abbrev VO2 : View sig .tc .vmem S1x1 .f32 := (Memref.whole cc2_stg2_0 : Memref sig .tc .vmem S1x1 .f32).view

end Cert.KernelIdeal.Body2

end
-- ==== Proof.IdealRuns2.lean ====
/-
  The body of launch 2 run symbolically, once for each way its two conditions can fall on the grid: at the first point
  (reset, then accumulate), at the last point (accumulate, then copy out), and at every other point (accumulate).
  Each run leaves every buffer it stores into written with a list of pieces (a rectangle and the value stored there);
  on these one-element buffers every piece covers the buffer.
-/
import proofs.«104297_j12386685682169_1_alg».proof.Proof.IdealConds2

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once per case of its two conditions

Each run leaves the accumulator written with the pieces it finds; the two input blocks come back as found, and the
output block either comes back untouched (off the last point) or written with the pieces found (at the last point). -/

set_option maxHeartbeats 4000000 in
/-- The first point: the accumulator, found at anything, is reset and the point's block sum added. -/
noncomputable def kernelRun2_A (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i)
    (x0 x1 : Vec F S1024x64 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__pairwise_sum_kernel i arg2 harg2 arg3 harg3 arg4 harg4 arg5 harg5) K } := by
  refine ⟨?_, fun xi2 E K => ?run⟩
  case run =>
    simp only [cc2__pairwise_sum_kernel_eq_skeleton]; unfold cc2__pairwise_sum_kernel_skel
    simp only [k2_part1_eq_skeleton]; unfold k2_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A point that is neither the first nor the last: the point's block sum is added to the accumulator found at `xs0`. -/
noncomputable def kernelRun2_B (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i)
    (x0 x1 : Vec F S1024x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__pairwise_sum_kernel i arg2 harg2 arg3 harg3 arg4 harg4 arg5 harg5) K } := by
  refine ⟨?_, fun xi2 E K => ?run⟩
  case run =>
    simp only [cc2__pairwise_sum_kernel_eq_skeleton]; unfold cc2__pairwise_sum_kernel_skel
    simp only [k2_part1_eq_skeleton]; unfold k2_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The last point: the block sum is added to the accumulator found at `xs0`, and the accumulator copied into the output block. -/
noncomputable def kernelRun2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i)
    (x0 x1 : Vec F S1024x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__pairwise_sum_kernel i arg2 harg2 arg3 harg3 arg4 harg4 arg5 harg5) K } := by
  refine ⟨?_, ?_, fun E K => ?run⟩
  case run =>
    simp only [cc2__pairwise_sum_kernel_eq_skeleton]; unfold cc2__pairwise_sum_kernel_skel
    simp only [k2_part1_eq_skeleton]; unfold k2_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces cover the one-element buffers -/

theorem scover2_A (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x64 .f32) (y : S1x1.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1x1.size (by sl_kernel_rfl) y
theorem scover2_B (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x64 .f32) (xs0 : Vec F S1x1 .f32) (y : S1x1.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1x1.size (by sl_kernel_rfl) y
theorem scover2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) (y : S1x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1.size (by sl_kernel_rfl) y
theorem cover2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) (y : S1x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x1.size (by sl_kernel_rfl) y

end Cert.KernelIdeal.Body2

end
-- ==== Proof.IdealVals2.lean ====
/-
  What the runs of launch 2 leave, as values: the accumulator ends at ONE STEP `step2 a b p` — the body's arithmetic
  applied to the point's two input blocks `a`, `b` and to what the accumulator held, `p` (the zero `zero2` at the
  first point) —, and at the last point the result block receives that same value.
-/
import proofs.«104297_j12386685682169_1_alg».proof.Proof.IdealRuns2
import Idealize.ShloMosaic.Lib.Pipeline.Value

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces read back as values

On a one-element buffer every store covers it, so what a run leaves is its last store's payload; the loads inside that
payload read whole buffers, so they are the contents the buffers were found at. -/

/-- One point's step of the accumulator: the body's payload of the point's two blocks and of what the accumulator held. -/
abbrev step2 (a b : Vec F S1024x64 .f32) (p : Vec F S1x1 .f32) : FVec F S1x1 .f32 := k2_pay2 a b p
/-- The zero the accumulator is reset to at the first point. -/
abbrev zero2 : FVec F S1x1 .f32 := k2_pay1

theorem hz : (![0, 0] : Fin 2 → Nat) = fun _ => 0 := funext fun a => by fin_cases a <;> rfl

/-- Off the first point the accumulator ends at the payload of the two blocks and of what it held. -/
theorem sval2_B (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x64 .f32) (xs0 : Vec F S1x1 .f32) :
    arg5.view.read (Elt F) (arg5.view.writes (Elt F) arg5.view.junk (kernelRun2_B c i arg2 harg2 arg3 harg3 arg4 harg4 arg5 harg5 hc0 hc1 x0 x1 xs0).1) = step2 x0 x1 xs0 := by
  rw [View.read_writes_eq_canon _ _ _ (scover2_B c i arg2 harg2 arg3 harg3 arg4 harg4 arg5 harg5 hc0 hc1 x0 x1 xs0)]
  unfold kernelRun2_B
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- At the first point the accumulator ends at the payload of the two blocks and of the zero it was reset to. -/
theorem sval2_A (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x64 .f32) :
    arg5.view.read (Elt F) (arg5.view.writes (Elt F) arg5.view.junk (kernelRun2_A c i arg2 harg2 arg3 harg3 arg4 harg4 arg5 harg5 hc0 hc1 x0 x1).1) = step2 x0 x1 zero2 := by
  rw [View.read_writes_eq_canon _ _ _ (scover2_A c i arg2 harg2 arg3 harg3 arg4 harg4 arg5 harg5 hc0 hc1 x0 x1)]
  unfold kernelRun2_A
  dsimp only
  try sl_unfold_words
  try dsimp only
  rw [View.canon_cons_unit_zero (S := S1x1) hz, View.readCov_unit_zero (S := S1x1) _ hz]
  simp only [View.readAt_eq_ld, harg2.read_unread, harg3.read_unread, View.ld_unit_zero (S := S1024x64) hz, View.ld_unit_zero (S := S1x1) hz]

/-- At the last point the accumulator ends as off the first point, -/
theorem sval2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) :
    arg5.view.read (Elt F) (arg5.view.writes (Elt F) arg5.view.junk (kernelRun2_C c i arg2 harg2 arg3 harg3 arg4 harg4 arg5 harg5 hc0 hc1 x0 x1 xs0).2.1) = step2 x0 x1 xs0 := by
  rw [View.read_writes_eq_canon _ _ _ (scover2_C c i arg2 harg2 arg3 harg3 arg4 harg4 arg5 harg5 hc0 hc1 x0 x1 xs0)]
  unfold kernelRun2_C
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- and the output block receives the accumulator's new value. -/
theorem oval2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) :
    arg4.view.read (Elt F) (arg4.view.writes (Elt F) arg4.view.junk (kernelRun2_C c i arg2 harg2 arg3 harg3 arg4 harg4 arg5 harg5 hc0 hc1 x0 x1 xs0).1) = step2 x0 x1 xs0 := by
  rw [View.read_writes_eq_canon _ _ _ (cover2_C c i arg2 harg2 arg3 harg3 arg4 harg4 arg5 harg5 hc0 hc1 x0 x1 xs0)]
  unfold kernelRun2_C
  dsimp only
  try sl_unfold_words
  try dsimp only
  rw [View.canon_unit_zero hz, View.readCov_unit_zero (S := S1x1) _ hz]
  simp only [View.readAt_eq_ld, harg2.read_unread, harg3.read_unread, harg5.read_unread, View.ld_unit_zero (S := S1024x64) hz, View.ld_unit_zero (S := S1x1) hz]

end Cert.KernelIdeal.Body2

end
-- ==== Proof.IdealDat2.lean ====
/-
  Launch 2 over its whole grid. The accumulator after point `n` is the fold of the steps over the points `0 … n` in
  grid order, starting from zero; an input window's buffer holds the window's block of its array at every point; the
  result window's buffer is touched at the last point only, where it receives the accumulator. This is stated as the
  pipeline's proof data, with the invariant "the accumulator holds the fold so far", and the body's obligation at a
  generic point is discharged by cases on the point (first / last / neither) from the three runs.
-/
import proofs.«104297_j12386685682169_1_alg».proof.Proof.IdealVals2

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, at the contents `V` the region is entered with -/

/-- Window `w`'s block at point `t`, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The running accumulator -/

/-- What the accumulator holds after point `n`: the first point's payload over the zero it is reset to, then each
    point's payload over what the point before left. -/
def acc2 (c : Dev nD) : (n : ℕ) → n < cfg2.N → Vec F S1x1 .f32
  | 0, h => step2 (iblk2 V c 0 ⟨0, h⟩) (iblk2 V c 1 ⟨0, h⟩) zero2
  | n + 1, h => step2 (iblk2 V c 0 ⟨n + 1, h⟩) (iblk2 V c 1 ⟨n + 1, h⟩) (acc2 c n (Nat.lt_of_succ_lt h))

theorem acc2_zero (c : Dev nD) (t : Fin cfg2.N) (h : t.val = 0) :
    acc2 V c t.val t.isLt = step2 (iblk2 V c 0 t) (iblk2 V c 1 t) zero2 := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = step2 (iblk2 V c 0 t) (iblk2 V c 1 t) (acc2 V c (t.val - 1) (Nat.lt_of_le_of_lt (Nat.sub_le _ _) t.isLt)) := by
  obtain ⟨n, hn⟩ := t
  cases n with
  | zero => exact absurd rfl h
  | succ n => rfl

/-! ## The region's invariant -/

/-- The scoped buffers that are neither a staging buffer of this call nor its accumulator: carried unopened. -/
abbrev others2 (c : Dev nD) : sProp 𝕄 :=
  Pipeline.scopedRestBut (Ix := Unit) (Name := ℕ) (U := UR sig nD τ) (Lvl := ℕ) (Val := Elt F) spec2 c [cc2_scratch0]

/-- The invariant before position `n`: before the first point every scoped buffer at anything; afterwards the
    accumulator at what the point before left, the other scoped buffers at anything, the generator at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ others2 c) ∗ (∃ r, prngReg c r)) := by
  cases n with
  | zero => exact absurd rfl hz
  | succ n => rfl

/-- The invariant the region is entered with, the accumulator split off. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list (win := spec2) (c := c) [cc2_scratch0] (by decide) (by decide)]
  simp only [scM2, owns_whole]
  rfl

/-! ## The proof data -/

/-- The proof data of this call on core `c`: the arrays as the region finds them; after the body each input's buffer
    at its block and the output's at the accumulator; every array held whole; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point is the first, the last or neither, and that
    case's run applies; the invariant hands the body the accumulator at what the point before left (at anything, at the
    first point) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val = 0
  · have h1 : ¬t.val = 63 := by omega
    have hc1 : ¬cond2_1 (grid2.coords t) := fun h => h1 ((hcond2_1 t).mp h)
    rw [Dat.leavesExact_idle (dat2 V c) 2 t (idleAt2_2 t hc1) (noFlush2_2 t hc1)]
    rw [acc2_zero V c t h0]
    rw [PhiS2_castSucc V c t, PhiS2_zero V c _ _ h0, PhiA2_eq]
    iintro ⟨⟨⟨HS0, Hoth⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2 (Memref.isWhole_whole _) ((hcond2_0 t).mpr h0) hc1 (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover2_A c (grid2.coords t) (ms2_0 t) (hs2_0 t) (ms2_1 t) (hs2_1 t) (ms2_2 t) (hs2_2 t) scM2 (Memref.isWhole_whole _) _ _ _ _)).trans (sval2_A c (grid2.coords t) (ms2_0 t) (hs2_0 t) (ms2_1 t) (hs2_1 t) (ms2_2 t) (hs2_2 t) scM2 (Memref.isWhole_whole _) _ _ _ _)
        iexact Hoth
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    rw [acc2_pos V c t h0]
    rw [PhiS2_castSucc V c t, PhiS2_pos V c _ _ h0]
    by_cases h1 : t.val = 63
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2, acc2_pos V c t h0]
      iintro ⟨⟨⟨HS0, Hoth⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2 (Memref.isWhole_whole _) hc0 hc1 (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover2_C c (grid2.coords t) (ms2_0 t) (hs2_0 t) (ms2_1 t) (hs2_1 t) (ms2_2 t) (hs2_2 t) scM2 (Memref.isWhole_whole _) _ _ _ _ _)).trans (sval2_C c (grid2.coords t) (ms2_0 t) (hs2_0 t) (ms2_1 t) (hs2_1 t) (ms2_2 t) (hs2_2 t) scM2 (Memref.isWhole_whole _) _ _ _ _ _)
          iexact Hoth
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover2_C c (grid2.coords t) (ms2_0 t) (hs2_0 t) (ms2_1 t) (hs2_1 t) (ms2_2 t) (hs2_2 t) scM2 (Memref.isWhole_whole _) _ _ _ _ _)).trans (oval2_C c (grid2.coords t) (ms2_0 t) (hs2_0 t) (ms2_1 t) (hs2_1 t) (ms2_2 t) (hs2_2 t) scM2 (Memref.isWhole_whole _) _ _ _ _ _)
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS0, Hoth⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) hc0 hc1 (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover2_B c (grid2.coords t) (ms2_0 t) (hs2_0 t) (ms2_1 t) (hs2_1 t) (ms2_2 t) (hs2_2 t) scM2 (Memref.isWhole_whole _) _ _ _ _ _)).trans (sval2_B c (grid2.coords t) (ms2_0 t) (hs2_0 t) (ms2_1 t) (hs2_1 t) (ms2_2 t) (hs2_2 t) scM2 (Memref.isWhole_whole _) _ _ _ _ _)
          iexact Hoth
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body2

end
-- ==== Proof.IdealSharedArrays.lean ====
/-
  Two windows on one array.

  The first region hands one array to both of its input windows, and so does the second. The core holds such an
  array whole at the full share; the pipeline holds it once per window, the first window's copy at the left half of
  the full share and the second window's at the right half. At a region's entry the full share splits into its two
  halves; at its exit both halves come back at the same contents and join into the full share again. The result
  window's array is a buffer of its own, held at the full share throughout.
-/
import proofs.«104297_j12386685682169_1_alg».proof.Proof.Gen.KernelIdeal.Launch
import Idealize.ShloMosaic.Lib.Pipeline.Regions
import Idealize.ShloMosaic.Lib.Pipeline.RegionsLoop

noncomputable section

namespace Cert.KernelIdeal.Shared

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.Pipeline (Dat Cfg Window)

variable {F : FTy → Type} [FloatOps F]

local notation "𝕄" => MT nD τ sig Unit (Elt F) ℕ (UR sig nD τ) ℕ

/-! ## Region 0: `main_v1` read through windows 0 and 1, `main_v2` written through window 2 -/

/-- The buffers behind region 0's windows. -/
theorem arrImage0 : Finset.univ.image (Pipeline.arrRef spec0) = {main_v1, main_v2} := by decide

/-- A core's unscoped buffers are those two, each whole at the full share, and the rest. -/
theorem split0 (c : Dev nD) (V : (b : Ref sig .tc) → Buf (Elt F) ((c : Thread nD τ).loc b)) :
    (unscopedBufs c V : sProp 𝕄)
      = iprop((((c : Thread nD τ).loc main_v1 ↦{fullShare} V main_v1) ∗ ((c : Thread nD τ).loc main_v2 ↦{fullShare} V main_v2))
          ∗ Pipeline.unscopedRest (Ix := Unit) (Name := ℕ) (U := UR sig nD τ) (Lvl := ℕ) spec0 c V) := by
  classical
  have hsub : Finset.univ.image (Pipeline.arrRef spec0) ⊆ Finset.univ.filter fun b : Ref sig .tc => ¬ b.isScoped := by decide
  unfold unscopedBufs Pipeline.unscopedRest
  rw [bigSep_sdiff_split hsub, arrImage0, bigSep_insert (by decide), bigSep_singleton]
  rfl

/-- The pipeline's arrays: the shared array once at each half of the full share, the result's at the full share. -/
theorem arrays0 {c : Dev nD} (dat : Dat τ (Elt F) Unit ℕ (UR sig nD τ) ℕ cfg0 c) (hq0 : dat.q 0 = fullShare.left) (hq1 : dat.q 1 = fullShare.right)
    (Fn : (w : Fin cfg0.W) → Buf (Elt F) ((cfg0.win w).arr.view.loc (c : Thread nD τ))) :
    (dat.arrays Fn : sProp 𝕄)
      = iprop(((c : Thread nD τ).loc main_v1 ↦{fullShare.left} Fn 0) ∗ ((c : Thread nD τ).loc main_v1 ↦{fullShare.right} Fn 1)
          ∗ ((c : Thread nD τ).loc main_v2 ↦{fullShare} Fn 2)) := by
  have s0 : dat.share 0 = fullShare.left := (show dat.share 0 = dat.q 0 from rfl).trans hq0
  have s1 : dat.share 1 = fullShare.right := (show dat.share 1 = dat.q 1 from rfl).trans hq1
  have s2 : dat.share 2 = fullShare := rfl
  unfold Dat.arrays
  rw [bigSep_W0, (arr_whole0 0).set_eq_univ, (arr_whole0 2).set_eq_univ, s0, s1, s2]

/-- ENTRY: the core's unscoped buffers at `V` are the pipeline's arrays at their entry contents, read off `V`,
    and the unscoped rest: the shared array's full share splits into its halves. -/
theorem entry_arrays0 {c : Dev nD} (dat : Dat τ (Elt F) Unit ℕ (UR sig nD τ) ℕ cfg0 c) (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄)
      ⊢ iprop(dat.arrays (dat.arrAt · 0) ∗ Pipeline.unscopedRest (Ix := Unit) (Name := ℕ) (U := UR sig nD τ) (Lvl := ℕ) spec0 c V) := by
  rw [split0 c V, arrays0 dat hq0 hq1, show dat.arrAt 0 0 = V main_v1 from hA 0, show dat.arrAt 1 0 = V main_v1 from hA 1,
    show dat.arrAt 2 0 = V main_v2 from hA 2]
  exact sep_mono ((sep_mono (pointsTo_share (PosShare.mem_left_op_right fullShare)).1 .rfl).trans sep_assoc.1) .rfl

/-- EXIT: the pipeline's arrays at `Fn` and the unscoped rest at `V` are the core's unscoped buffers at any `V'` that
    has the arrays at `Fn` and agrees with `V` off them: both halves of the shared array come back at one contents
    and join. -/
theorem exit_arrays0 {c : Dev nD} (dat : Dat τ (Elt F) Unit ℕ (UR sig nD τ) ℕ cfg0 c) (hq0 : dat.q 0 = fullShare.left) (hq1 : dat.q 1 = fullShare.right)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest (Ix := Unit) (Name := ℕ) (U := UR sig nD τ) (Lvl := ℕ) spec0 c V)
      ⊢ (unscopedBufs c V' : sProp 𝕄) := by
  rw [split0 c V', arrays0 dat hq0 hq1, show Fn 0 = V' main_v1 from hF 0, show Fn 1 = V' main_v1 from hF 1,
    show Fn 2 = V' main_v2 from hF 2]
  refine sep_mono ?_ (Entails.of_eq ?_)
  · exact sep_assoc.2.trans (sep_mono (pointsTo_share (PosShare.mem_left_op_right fullShare)).2 .rfl)
  · unfold Pipeline.unscopedRest
    exact bigSep_congr fun b hb => by rw [hrest b (Finset.mem_sdiff.mp hb).2]

/-! ## Region 1: `main_arg1` read through windows 0 and 1, `main_v4` written through window 2 -/

/-- The buffers behind region 1's windows. -/
theorem arrImage1 : Finset.univ.image (Pipeline.arrRef spec1) = {main_arg1, main_v4} := by decide

/-- A core's unscoped buffers are those two, each whole at the full share, and the rest. -/
theorem split1 (c : Dev nD) (V : (b : Ref sig .tc) → Buf (Elt F) ((c : Thread nD τ).loc b)) :
    (unscopedBufs c V : sProp 𝕄)
      = iprop((((c : Thread nD τ).loc main_arg1 ↦{fullShare} V main_arg1) ∗ ((c : Thread nD τ).loc main_v4 ↦{fullShare} V main_v4))
          ∗ Pipeline.unscopedRest (Ix := Unit) (Name := ℕ) (U := UR sig nD τ) (Lvl := ℕ) spec1 c V) := by
  classical
  have hsub : Finset.univ.image (Pipeline.arrRef spec1) ⊆ Finset.univ.filter fun b : Ref sig .tc => ¬ b.isScoped := by decide
  unfold unscopedBufs Pipeline.unscopedRest
  rw [bigSep_sdiff_split hsub, arrImage1, bigSep_insert (by decide), bigSep_singleton]
  rfl

/-- The pipeline's arrays: the shared array once at each half of the full share, the result's at the full share. -/
theorem arrays1 {c : Dev nD} (dat : Dat τ (Elt F) Unit ℕ (UR sig nD τ) ℕ cfg1 c) (hq0 : dat.q 0 = fullShare.left) (hq1 : dat.q 1 = fullShare.right)
    (Fn : (w : Fin cfg1.W) → Buf (Elt F) ((cfg1.win w).arr.view.loc (c : Thread nD τ))) :
    (dat.arrays Fn : sProp 𝕄)
      = iprop(((c : Thread nD τ).loc main_arg1 ↦{fullShare.left} Fn 0) ∗ ((c : Thread nD τ).loc main_arg1 ↦{fullShare.right} Fn 1)
          ∗ ((c : Thread nD τ).loc main_v4 ↦{fullShare} Fn 2)) := by
  have s0 : dat.share 0 = fullShare.left := (show dat.share 0 = dat.q 0 from rfl).trans hq0
  have s1 : dat.share 1 = fullShare.right := (show dat.share 1 = dat.q 1 from rfl).trans hq1
  have s2 : dat.share 2 = fullShare := rfl
  unfold Dat.arrays
  rw [bigSep_W1, (arr_whole1 0).set_eq_univ, (arr_whole1 2).set_eq_univ, s0, s1, s2]

/-- ENTRY: the core's unscoped buffers at `V` are the pipeline's arrays at their entry contents, read off `V`,
    and the unscoped rest: the shared array's full share splits into its halves. -/
theorem entry_arrays1 {c : Dev nD} (dat : Dat τ (Elt F) Unit ℕ (UR sig nD τ) ℕ cfg1 c) (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄)
      ⊢ iprop(dat.arrays (dat.arrAt · 0) ∗ Pipeline.unscopedRest (Ix := Unit) (Name := ℕ) (U := UR sig nD τ) (Lvl := ℕ) spec1 c V) := by
  rw [split1 c V, arrays1 dat hq0 hq1, show dat.arrAt 0 0 = V main_arg1 from hA 0, show dat.arrAt 1 0 = V main_arg1 from hA 1,
    show dat.arrAt 2 0 = V main_v4 from hA 2]
  exact sep_mono ((sep_mono (pointsTo_share (PosShare.mem_left_op_right fullShare)).1 .rfl).trans sep_assoc.1) .rfl

/-- EXIT: the pipeline's arrays at `Fn` and the unscoped rest at `V` are the core's unscoped buffers at any `V'` that
    has the arrays at `Fn` and agrees with `V` off them: both halves of the shared array come back at one contents
    and join. -/
theorem exit_arrays1 {c : Dev nD} (dat : Dat τ (Elt F) Unit ℕ (UR sig nD τ) ℕ cfg1 c) (hq0 : dat.q 0 = fullShare.left) (hq1 : dat.q 1 = fullShare.right)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest (Ix := Unit) (Name := ℕ) (U := UR sig nD τ) (Lvl := ℕ) spec1 c V)
      ⊢ (unscopedBufs c V' : sProp 𝕄) := by
  rw [split1 c V', arrays1 dat hq0 hq1, show Fn 0 = V' main_arg1 from hF 0, show Fn 1 = V' main_arg1 from hF 1,
    show Fn 2 = V' main_v4 from hF 2]
  refine sep_mono ?_ (Entails.of_eq ?_)
  · exact sep_assoc.2.trans (sep_mono (pointsTo_share (PosShare.mem_left_op_right fullShare)).2 .rfl)
  · unfold Pipeline.unscopedRest
    exact bigSep_congr fun b hb => by rw [hrest b (Finset.mem_sdiff.mp hb).2]

end Cert.KernelIdeal.Shared

end
-- ==== Proof.IdealWhole.lean ====
/-
  The whole program: three host stretches and three kernel launches in turn. Between two items every unscoped buffer
  holds a known value: the launch memory folded through the host operations so far, with each launch's one-element
  result array replaced by what that launch's write-back leaves. Each launch is entered from, and left at, such a
  state; its two input windows may read ONE array, whose ownership is then split in halves between them at entry and
  joined at exit. Composing the seven items gives the frame: every execution ends, nothing faults, and the two
  argument arrays end as launched (no item writes them).
-/
import proofs.«104297_j12386685682169_1_alg».proof.Proof.IdealDat0
import proofs.«104297_j12386685682169_1_alg».proof.Proof.IdealDat1
import proofs.«104297_j12386685682169_1_alg».proof.Proof.IdealDat2
import proofs.«104297_j12386685682169_1_alg».proof.Proof.IdealSharedArrays
import proofs.«104297_j12386685682169_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What rides beside the buffers, and the launch's parameters -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers every segment carries the core's generator register at some state and its `owes`, at nothing. -/
abbrev R (c : Dev nD) : sProp 𝕄 := iprop((∃ r, prngReg c r) ∗ ∃ W, owes (c : Thread nD τ) (0 : CellTallies nD τ sig Unit) W)

/-- After the last point the region's invariant gives back the scoped rest it was entered with: what the accumulator holds is forgotten. -/
theorem Phi_out0 (V : (c : Dev nD) → (b : Ref sig .tc) → Buf (Elt F) ((c : Thread nD τ).loc b)) (c : Dev nD) :
    (Body0.dat0 V c).Φ (Fin.last cfg0.N) ⊢ (Pipeline.ΦA spec0 c : sProp 𝕄) := by
  rw [show (Body0.dat0 V c).Φ (Fin.last cfg0.N) = Body0.PhiS0 V c (Fin.last cfg0.N).val (Nat.le_of_lt_succ (Fin.last cfg0.N).isLt) from rfl,
    Body0.PhiS0_pos V c _ _ (by rw [Fin.val_last]; have : cfg0.N = 64 := N_0; omega), Body0.PhiA0_eq]
  iintro ⟨⟨HS0, Hoth⟩, Hg⟩
  isplitl [HS0 Hoth]
  · isplitl [HS0]; · iexists _; iexact HS0
    iexact Hoth
  iexact Hg

/-- After the last point the region's invariant gives back the scoped rest it was entered with: what the accumulator holds is forgotten. -/
theorem Phi_out1 (V : (c : Dev nD) → (b : Ref sig .tc) → Buf (Elt F) ((c : Thread nD τ).loc b)) (c : Dev nD) :
    (Body1.dat1 V c).Φ (Fin.last cfg1.N) ⊢ (Pipeline.ΦA spec1 c : sProp 𝕄) := by
  rw [show (Body1.dat1 V c).Φ (Fin.last cfg1.N) = Body1.PhiS1 V c (Fin.last cfg1.N).val (Nat.le_of_lt_succ (Fin.last cfg1.N).isLt) from rfl,
    Body1.PhiS1_pos V c _ _ (by rw [Fin.val_last]; have : cfg1.N = 64 := N_1; omega), Body1.PhiA1_eq]
  iintro ⟨⟨HS0, Hoth⟩, Hg⟩
  isplitl [HS0 Hoth]
  · isplitl [HS0]; · iexists _; iexact HS0
    iexact Hoth
  iexact Hg

/-- After the last point the region's invariant gives back the scoped rest it was entered with: what the accumulator holds is forgotten. -/
theorem Phi_out2 (V : (c : Dev nD) → (b : Ref sig .tc) → Buf (Elt F) ((c : Thread nD τ).loc b)) (c : Dev nD) :
    (Body2.dat2 V c).Φ (Fin.last cfg2.N) ⊢ (Pipeline.ΦA spec2 c : sProp 𝕄) := by
  rw [show (Body2.dat2 V c).Φ (Fin.last cfg2.N) = Body2.PhiS2 V c (Fin.last cfg2.N).val (Nat.le_of_lt_succ (Fin.last cfg2.N).isLt) from rfl,
    Body2.PhiS2_pos V c _ _ (by rw [Fin.val_last]; have : cfg2.N = 64 := N_2; omega), Body2.PhiA2_eq]
  iintro ⟨⟨HS0, Hoth⟩, Hg⟩
  isplitl [HS0 Hoth]
  · isplitl [HS0]; · iexists _; iexact HS0
    iexact Hoth
  iexact Hg

/-! ## The buffers' contents between @main's items

After the first host stretch the contents are a fold of the launch memory; each region then changes its one result
array, to what its write-backs leave, and each later host stretch folds on. -/

abbrev W1 (c : Dev nD) : Valuation τ sig (Elt F) := V1 m c
/-- What region 0 leaves in its result array. -/
def o2 (c : Dev nD) : Buf (Elt F) ((c : Thread nD τ).loc main_v2) := (Body0.dat0 (fun c b => W1 m c b) c).arrAt 2 cfg0.N
def W2 (c : Dev nD) : Valuation τ sig (Elt F) := Function.update (W1 m c) main_v2 (o2 m c)
abbrev W3 (c : Dev nD) : Valuation τ sig (Elt F) := StableHlo.after hostOps1 (W2 m c)
/-- What region 1 leaves in its result array. -/
def o4 (c : Dev nD) : Buf (Elt F) ((c : Thread nD τ).loc main_v4) := (Body1.dat1 (fun c b => W3 m c b) c).arrAt 2 cfg1.N
def W4 (c : Dev nD) : Valuation τ sig (Elt F) := Function.update (W3 m c) main_v4 (o4 m c)
abbrev W5 (c : Dev nD) : Valuation τ sig (Elt F) := StableHlo.after hostOps2 (W4 m c)
/-- What region 2 leaves in its result array. -/
def o6 (c : Dev nD) : Buf (Elt F) ((c : Thread nD τ).loc main_v6) := (Body2.dat2 (fun c b => W5 m c b) c).arrAt 2 cfg2.N
def W6 (c : Dev nD) : Valuation τ sig (Elt F) := Function.update (W5 m c) main_v6 (o6 m c)

theorem W2_self (c : Dev nD) : W2 m c main_v2 = o2 m c := by unfold W2; exact Function.update_self ..
theorem W4_self (c : Dev nD) : W4 m c main_v4 = o4 m c := by unfold W4; exact Function.update_self ..
theorem W6_self (c : Dev nD) : W6 m c main_v6 = o6 m c := by unfold W6; exact Function.update_self ..
theorem W2_of (c : Dev nD) (r : Ref sig .tc) (h : r ≠ main_v2) : W2 m c r = W1 m c r := by
  unfold W2; exact Function.update_of_ne (StableHlo.devRef_ne_of_ne h : (Proc.devRef .tc r : DevRef τ sig) ≠ Proc.devRef .tc main_v2) _ _
theorem W4_of (c : Dev nD) (r : Ref sig .tc) (h : r ≠ main_v4) : W4 m c r = W3 m c r := by
  unfold W4; exact Function.update_of_ne (StableHlo.devRef_ne_of_ne h : (Proc.devRef .tc r : DevRef τ sig) ≠ Proc.devRef .tc main_v4) _ _
theorem W6_of (c : Dev nD) (r : Ref sig .tc) (h : r ≠ main_v6) : W6 m c r = W5 m c r := by
  unfold W6; exact Function.update_of_ne (StableHlo.devRef_ne_of_ne h : (Proc.devRef .tc r : DevRef τ sig) ≠ Proc.devRef .tc main_v6) _ _

/-- The contents the regions leave, as the conditional frame's unknowns. -/
def outs : Outs (F := F) := fun J r c => match J with
  | 2 => W2 m c r
  | 4 => W4 m c r
  | _ => W6 m c r

theorem V2_eq (c : Dev nD) : V2 m (outs m) c = W2 m c := by
  show Function.update (V1 m c) main_v2 (W2 m c main_v2) = W2 m c
  rw [W2_self]; rfl
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v4 (W4 m c main_v4) = W4 m c
  rw [V3_eq, W4_self]; rfl
theorem V5_eq (c : Dev nD) : V5 m (outs m) c = W5 m c := by
  show StableHlo.after hostOps2 (V4 m (outs m) c) = _
  rw [V4_eq]
theorem V6_eq (c : Dev nD) : V6 m (outs m) c = W6 m c := by
  show Function.update (V5 m (outs m) c) main_v6 (W6 m c main_v6) = W6 m c
  rw [V5_eq, W6_self]; rfl

/-! ## The proof data family -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Body0.dat0 (fun c b => W1 m c b) c
  | ⟨1, _⟩ => fun c => Body1.dat1 (fun c b => W3 m c b) c
  | ⟨2, _⟩ => fun c => Body2.dat2 (fun c b => W5 m c b) c

/-! ## Each region's arrays at its exit -/

theorem hF0 (c : Dev nD) : ∀ w, (pdats m 0 c).arrAt w cfg0.N = W2 m c (Pipeline.arrRef spec0 w)
  | ⟨0, _⟩ => ((Body0.dat0 (fun c b => W1 m c b) c).arrAt_in 0 rfl _).trans ((Body0.A_eq0 _ c 0).trans (W2_of m c main_v1 (by decide)).symm)
  | ⟨1, _⟩ => ((Body0.dat0 (fun c b => W1 m c b) c).arrAt_in 1 rfl _).trans ((Body0.A_eq0 _ c 1).trans (W2_of m c main_v1 (by decide)).symm)
  | ⟨2, _⟩ => (W2_self m c).symm
theorem hrest0 (c : Dev nD) : ∀ b, b ∉ Finset.univ.image (Pipeline.arrRef spec0) → W2 m c b = W1 m c b :=
  fun b hb => W2_of m c b fun e => hb (Finset.mem_image.mpr ⟨2, Finset.mem_univ _, e.symm⟩)
theorem hF1 (c : Dev nD) : ∀ w, (pdats m 1 c).arrAt w cfg1.N = W4 m c (Pipeline.arrRef spec1 w)
  | ⟨0, _⟩ => ((Body1.dat1 (fun c b => W3 m c b) c).arrAt_in 0 rfl _).trans ((Body1.A_eq1 _ c 0).trans (W4_of m c main_arg1 (by decide)).symm)
  | ⟨1, _⟩ => ((Body1.dat1 (fun c b => W3 m c b) c).arrAt_in 1 rfl _).trans ((Body1.A_eq1 _ c 1).trans (W4_of m c main_arg1 (by decide)).symm)
  | ⟨2, _⟩ => (W4_self m c).symm
theorem hrest1 (c : Dev nD) : ∀ b, b ∉ Finset.univ.image (Pipeline.arrRef spec1) → W4 m c b = W3 m c b :=
  fun b hb => W4_of m c b fun e => hb (Finset.mem_image.mpr ⟨2, Finset.mem_univ _, e.symm⟩)
theorem hF2 (c : Dev nD) : ∀ w, (pdats m 2 c).arrAt w cfg2.N = W6 m c (Pipeline.arrRef spec2 w)
  | ⟨0, _⟩ => ((Body2.dat2 (fun c b => W5 m c b) c).arrAt_in 0 rfl _).trans ((Body2.A_eq2 _ c 0).trans (W6_of m c main_v1 (by decide)).symm)
  | ⟨1, _⟩ => ((Body2.dat2 (fun c b => W5 m c b) c).arrAt_in 1 rfl _).trans ((Body2.A_eq2 _ c 1).trans (W6_of m c main_arg1 (by decide)).symm)
  | ⟨2, _⟩ => (W6_self m c).symm
theorem hrest2 (c : Dev nD) : ∀ b, b ∉ Finset.univ.image (Pipeline.arrRef spec2) → W6 m c b = W5 m c b :=
  fun b hb => W6_of m c b fun e => hb (Finset.mem_image.mpr ⟨2, Finset.mem_univ _, e.symm⟩)

/-! ## The regions as segments -/

set_option backward.isDefEq.respectTransparency.types false in
/-- Region 0 over the thread state: entered with every unscoped buffer at `W1`, left with them at `W2`. Its
    arrays are split out of the unscoped buffers and put back at the exit contents; the generator register and the
    scoped rest go into the region's invariant and come back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Body0.body_obligation0 (fun c b => W1 m c b) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit := Shared.entry_arrays0 (Body0.dat0 (fun c b => W1 m c b) c) rfl rfl (fun b => W1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (fun c b => W1 m c b) c).trans ?_
    unfold Pipeline.ΦA
    iintro ⟨Hr, Hp⟩
    isplitl [Hp]; · iexact Hp
    isplitr; · iempintro
    iexact Hr
  hexit c := by
    have hjoin := Shared.exit_arrays0 (Body0.dat0 (fun c b => W1 m c b) c) rfl rfl (fun b => W1 m c b) (fun b => W2 m c b)
      ((pdats m 0 c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the exit contents; the generator register and the
    scoped rest go into the region's invariant and come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Body1.body_obligation1 (fun c b => W3 m c b) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := by
    rw [Pipeline.ownSems0_none]
    have hsplit := Shared.entry_arrays1 (Body1.dat1 (fun c b => W3 m c b) c) rfl rfl (fun b => W3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (fun c b => W3 m c b) c).trans ?_
    unfold Pipeline.ΦA
    iintro ⟨Hr, Hp⟩
    isplitl [Hp]; · iexact Hp
    isplitr; · iempintro
    iexact Hr
  hexit c := by
    have hjoin := Shared.exit_arrays1 (Body1.dat1 (fun c b => W3 m c b) c) rfl rfl (fun b => W3 m c b) (fun b => W4 m c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at the exit contents; the generator register and the
    scoped rest go into the region's invariant and come back; nothing is owed; the kernel has no semaphore of its own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (Body2.body_obligation2 (fun c b => W5 m c b) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (fun b => W5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi_out2 (fun c b => W5 m c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => W5 m c b) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The whole run -/

/-- What the conditional run needs besides the regions' records: the launch element, the rest states, the chaining. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0_core (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp) : sProp 𝕄)
      ⊢ (R c : sProp 𝕄) := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  iintro ⟨H, -⟩
  imodintro
  iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) from bigSep_mono fun c _ => hE0_core ρ c)
  iexact H

set_option backward.isDefEq.respectTransparency.types false in
/-- THE FRAME at any float values: every weakly fair execution of @main terminates, nothing faults, and the two
    argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀
    (fun _ c => R c) (hE0 ρ) (fun c => by iintro ⟨-, HO⟩; iexact HO)
    (reg0 m) (fun c => by rw [show V1 m c = W1 m c from rfl]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

end Cert.KernelIdeal.Whole

end
-- ==== Proof.BlockSums.lean ====
/-
  The block algebra of the pair sum.

  The 8192 rows of an array split into 8 consecutive blocks of 1024 rows. The pair value of two rows depends only on
  the two rows, so the pair sum of two arrays is the sum, over the 8 × 8 pairs of blocks, of the sum of the pair
  values inside the two blocks; and a sum over an 8 × 8 grid visited in row-major order is the double sum. Only the
  commutativity and associativity of the sum are used: nothing is assumed finite.
-/
import proofs.«104297_j12386685682169_1_alg».proof.Proof.PairSpec
import Idealize.ShloMosaic.Lib.ValueIdx

noncomputable section

open scoped BigOperators

namespace Cert.PairSpec

open Idealize.ShloMosaic Idealize.ShloMosaic.ValueIdx

/-- 1024 rows of 64 extended reals. -/
abbrev Block : Type := (⟨2, ![1024, 64]⟩ : Shape).Idx → EReal

/-- The pair value of row `r` of block `a` and row `s` of block `b`. -/
def blockVal (a b : Block) (r s : Fin 1024) : EReal :=
  Ideal.exp (Ideal.div (-(((∑ k : Fin 64, a (ix2 r k) * a (ix2 r k)) + (∑ k : Fin 64, b (ix2 s k) * b (ix2 s k)))
    - two * (∑ k : Fin 64, a (ix2 r k) * b (ix2 s k)))) width)

/-- The sum of the pair values over the 1024 × 1024 pairs of rows of two blocks. -/
def blockSum (a b : Block) : EReal := ∑ r : Fin 1024, ∑ s : Fin 1024, blockVal a b r s

/-- Row `r` of block `i` is row `1024 i + r` of the array. -/
def blockRow (i : Fin 8) (r : Fin 1024) : Fin 8192 :=
  ⟨i.val * 1024 + r.val, by have := i.isLt; have := r.isLt; omega⟩

/-- Block `i` of an array: its rows `1024 i` to `1024 i + 1023`. -/
def rowsBlock (x : Rows) (i : Fin 8) : Block :=
  fun j => x (ix2 (blockRow i ⟨(j 0).val, idx2_lt0 j⟩) ⟨(j 1).val, idx2_lt1 j⟩)

/-- A block's entry is the array's entry at the block's row. -/
theorem rowsBlock_ix2 (x : Rows) (i : Fin 8) (r : Fin 1024) (k : Fin 64) :
    rowsBlock x i (ix2 r k) = x (ix2 (blockRow i r) k) := rfl

/-- The rows of an array are the pairs (block, row of the block). -/
def rowEquiv : Fin 8 × Fin 1024 ≃ Fin 8192 where
  toFun p := blockRow p.1 p.2
  invFun n := (⟨n.val / 1024, by have := n.isLt; omega⟩, ⟨n.val % 1024, by omega⟩)
  left_inv p := by
    rcases p with ⟨i, r⟩
    have hi := i.isLt
    have hr := r.isLt
    refine Prod.ext (Fin.ext ?_) (Fin.ext ?_)
    · show (i.val * 1024 + r.val) / 1024 = i.val
      omega
    · show (i.val * 1024 + r.val) % 1024 = r.val
      omega
  right_inv n := by
    refine Fin.ext ?_
    show n.val / 1024 * 1024 + n.val % 1024 = n.val
    omega

/-- A sum over the rows of an array is the sum over the blocks of the sums over the rows of each block. -/
theorem sum_rows {M : Type*} [AddCommMonoid M] (f : Fin 8192 → M) :
    ∑ n : Fin 8192, f n = ∑ i : Fin 8, ∑ r : Fin 1024, f (blockRow i r) := by
  rw [← Equiv.sum_comp rowEquiv f, Fintype.sum_prod_type]
  rfl

/-- The pair value inside two blocks is the arrays' pair value at the blocks' rows. -/
theorem blockVal_rows (x y : Rows) (i j : Fin 8) (r s : Fin 1024) :
    blockVal (rowsBlock x i) (rowsBlock y j) r s = pairVal x y (blockRow i r) (blockRow j s) := rfl

/-- The pair sum of two arrays is the sum of the block sums over the 8 × 8 pairs of blocks. -/
theorem blocks_sum (x y : Rows) :
    ∑ i : Fin 8, ∑ j : Fin 8, blockSum (rowsBlock x i) (rowsBlock y j) = pairSum x y := by
  calc ∑ i : Fin 8, ∑ j : Fin 8, blockSum (rowsBlock x i) (rowsBlock y j)
      = ∑ i : Fin 8, ∑ j : Fin 8, ∑ r : Fin 1024, ∑ s : Fin 1024,
          pairVal x y (blockRow i r) (blockRow j s) := by
        simp only [blockSum, blockVal_rows]
    _ = ∑ i : Fin 8, ∑ r : Fin 1024, ∑ j : Fin 8, ∑ s : Fin 1024,
          pairVal x y (blockRow i r) (blockRow j s) :=
        Finset.sum_congr rfl fun i _ => Finset.sum_comm
    _ = ∑ i : Fin 8, ∑ r : Fin 1024, ∑ m : Fin 8192, pairVal x y (blockRow i r) m :=
        Finset.sum_congr rfl fun i _ => Finset.sum_congr rfl fun r _ =>
          (sum_rows fun m => pairVal x y (blockRow i r) m).symm
    _ = pairSum x y := (sum_rows fun n => ∑ m : Fin 8192, pairVal x y n m).symm

/-- The cells of an 8 × 8 grid are the positions of its row-major order. -/
def gridEquiv : Fin 8 × Fin 8 ≃ Fin 64 where
  toFun p := ⟨p.1.val * 8 + p.2.val, by have := p.1.isLt; have := p.2.isLt; omega⟩
  invFun t := (⟨t.val / 8, by have := t.isLt; omega⟩, ⟨t.val % 8, by omega⟩)
  left_inv p := by
    rcases p with ⟨i, j⟩
    have hi := i.isLt
    have hj := j.isLt
    refine Prod.ext (Fin.ext ?_) (Fin.ext ?_)
    · show (i.val * 8 + j.val) / 8 = i.val
      omega
    · show (i.val * 8 + j.val) % 8 = j.val
      omega
  right_inv t := by
    refine Fin.ext ?_
    show t.val / 8 * 8 + t.val % 8 = t.val
    omega

/-- A sum over an 8 × 8 grid visited in row-major order is the double sum over its rows and columns. -/
theorem grid_sum {M : Type*} [AddCommMonoid M] (p : Fin 8 → Fin 8 → M) :
    ∑ t : Fin 64, p ⟨t.val / 8, by have := t.isLt; omega⟩ ⟨t.val % 8, by omega⟩ = ∑ i : Fin 8, ∑ j : Fin 8, p i j := by
  rw [← Fintype.sum_prod_type', ← Equiv.sum_comp gridEquiv.symm fun q : Fin 8 × Fin 8 => p q.1 q.2]
  rfl

end Cert.PairSpec

end
-- ==== Proof.IdealPayload.lean ====
/-
  The kernel's arithmetic at the ideal values.

  One grid point of each of the three kernels reads two blocks `a`, `b` of 1024 rows of 64 numbers and the running
  total, and adds to the total the sum over the 1024 × 1024 pairs of rows of
  `exp ((0 - ((|a_r|² + |b_s|²) - 2 ⟨a_r, b_s⟩)) / 4096)`: the squared lengths are lane sums of the squares, kept as a
  column and as a row and broadcast over the square; the inner products are one matrix product (whose rounding of the
  operands to a narrower format is the identity on the extended reals); the total is the lane sum followed by the sum
  down the column. Read index by index this is the block sum of the specification.
-/
import proofs.«104297_j12386685682169_1_alg».proof.Proof.Gen.KernelIdeal.Skeleton
import proofs.«104297_j12386685682169_1_alg».proof.Proof.BlockSums
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.PairSpec

/-! ## Layout operations on a column, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three lane sums, read at an index -/

/-- The sum along the 64 lanes of a block, at row `r`. -/
theorem sum_lanes64 (v : FVec Ideal S1024x64 .f32) (r : Fin 1024) :
    multiReduction .add [1] S1024 v 0x00000000#32 reduces_S1024x64_S1024 (.inl rfl) rfl (ix1 r)
      = ∑ k : Fin 64, v (ix2 r k) :=
  (Ideal.multiReduction_add_single v 0x00000000#32 reduces_S1024x64_S1024 (.inl rfl) rfl (ix1 r)).trans
    (Finset.sum_congr rfl fun k _ => congrArg v (funext fun c => Fin.ext (by
      match c with
      | ⟨0, _⟩ => rfl
      | ⟨1, _⟩ => rfl)))

/-- The sum along the 1024 columns of the square of pair values, at row `r`. -/
theorem sum_lanes1024 (v : FVec Ideal S1024x1024 .f32) (r : Fin 1024) :
    multiReduction .add [1] S1024 v 0x00000000#32 reduces_S1024x1024_S1024 (.inl rfl) rfl (ix1 r)
      = ∑ s : Fin 1024, v (ix2 r s) :=
  (Ideal.multiReduction_add_single v 0x00000000#32 reduces_S1024x1024_S1024 (.inl rfl) rfl (ix1 r)).trans
    (Finset.sum_congr rfl fun k _ => congrArg v (funext fun c => Fin.ext (by
      match c with
      | ⟨0, _⟩ => rfl
      | ⟨1, _⟩ => rfl)))

/-- The sum down a column of 1024 entries. -/
theorem sum_column (v : FVec Ideal S1024x1 .f32) (w : Fin 1) :
    multiReduction .add [0] S1 v 0x00000000#32 reduces_S1024x1_S1 (.inl rfl) rfl (ix1 w)
      = ∑ r : Fin 1024, v (ix2 r w) :=
  (Ideal.multiReduction_add_single v 0x00000000#32 reduces_S1024x1_S1 (.inl rfl) rfl (ix1 w)).trans
    (Finset.sum_congr rfl fun k _ => congrArg v (funext fun c => Fin.ext (by
      match c with
      | ⟨0, _⟩ => rfl
      | ⟨1, _⟩ => rfl)))

/-! ## The body's arithmetic in four stages -/

/-- The squared lengths of the rows of a block. -/
def rowSqs (a : FVec Ideal S1024x64 .f32) : FVec Ideal S1024 .f32 :=
  multiReduction .add [1] S1024 (mulf a a) 0x00000000#32 reduces_S1024x64_S1024 (.inl rfl) rfl

/-- The inner products of the rows of two blocks: the matrix product of one block with the other transposed. -/
def gram (a b : FVec Ideal S1024x64 .f32) : FVec Ideal S1024x1024 .f32 :=
  matmul dot_S1024x64_S1024x64_S1024x1024_1_1_0_0_n_n none (truncf .bf16 a bitsLt_bf16_f32) (truncf .bf16 b bitsLt_bf16_f32)
    (constant S1024x1024 .f32 0x00000000#32)

/-- The square of pair values of two blocks. -/
def vals (a b : FVec Ideal S1024x64 .f32) : FVec Ideal S1024x1024 .f32 :=
  exp (divf
    (subf (broadcast S1024x1024 (Scalar.ofBits .f32 0x00000000#32 : Ideal .f32))
      (subf
        (addf
          (broadcastTo S1024x1024 (shapeCast S1024x1 (rowSqs a) shapeCasts_S1024_S1024x1) broadcasts_S1024x1_S1024x1024)
          (broadcastTo S1024x1024
            (transpose S1x1024 [1, 0] (shapeCast S1024x1 (rowSqs b) shapeCasts_S1024_S1024x1) transposes_S1024x1_p1_0_S1x1024)
            broadcasts_S1x1024_S1024x1024))
        (mulf (broadcast S1024x1024 (Scalar.ofBits .f32 0x40000000#32 : Ideal .f32)) (gram a b))))
    (broadcast S1024x1024 (Scalar.ofBits .f32 0x45800000#32 : Ideal .f32)))

/-- The sum of the square of pair values: along the columns, then down the column of row sums. -/
def total (a b : FVec Ideal S1024x64 .f32) : FVec Ideal S1x1 .f32 :=
  shapeCast S1x1
    (multiReduction .add [0] S1
      (shapeCast S1024x1
        (multiReduction .add [1] S1024 (vals a b) 0x00000000#32 reduces_S1024x1024_S1024 (.inl rfl) rfl)
        shapeCasts_S1024_S1024x1)
      0x00000000#32 reduces_S1024x1_S1 (.inl rfl) rfl)
    shapeCasts_S1_S1x1

/-- The squared length of row `r`. -/
theorem rowSqs_apply (a : FVec Ideal S1024x64 .f32) (r : Fin 1024) :
    rowSqs a (ix1 r) = ∑ k : Fin 64, a (ix2 r k) * a (ix2 r k) := by
  unfold rowSqs
  rw [sum_lanes64]
  rfl

/-! ## The matrix product read at an index -/

theorem lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The inner product of row `r` of `a` and row `s` of `b`: the rounding of the operands is the identity here. -/
theorem gram_apply (a b : FVec Ideal S1024x64 .f32) (r s : Fin 1024) :
    gram a b (ix2 r s) = ∑ k : Fin 64, a (ix2 r k) * b (ix2 s k) := by
  unfold gram
  refine (Ideal.matmul_constant_zero_apply dot_S1024x64_S1024x64_S1024x1024_1_1_0_0_n_n none
    (truncf .bf16 a bitsLt_bf16_f32) (truncf .bf16 b bitsLt_bf16_f32) (ix2 r s)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r s) ((contrEquiv1 dot_S1024x64_S1024x64_S1024x1024_1_1_0_0_n_n 64 rfl rfl).symm k) = ix2 r k :=
    funext fun c => Fin.ext (by
      match c with
      | ⟨0, _⟩ => exact lhs_0 _ _
      | ⟨1, _⟩ => exact (lhs_1 _ _).trans hk)
  have er : dot_S1024x64_S1024x64_S1024x1024_1_1_0_0_n_n.rhsIdx (ix2 r s) ((contrEquiv1 dot_S1024x64_S1024x64_S1024x1024_1_1_0_0_n_n 64 rfl rfl).symm k) = ix2 s k :=
    funext fun c => Fin.ext (by
      match c with
      | ⟨0, _⟩ => exact rhs_0 _ _
      | ⟨1, _⟩ => exact (rhs_1 _ _).trans hk)
  rw [el, er]
  rfl

/-! ## The pair values and their sum -/

/-- The entry `(r, s)` of the square is the pair value of row `r` of `a` and row `s` of `b`. -/
theorem vals_apply (a b : FVec Ideal S1024x64 .f32) (r s : Fin 1024) : vals a b (ix2 r s) = blockVal a b r s := by
  unfold vals blockVal
  show Ideal.exp (Ideal.div (Ideal.ofBits .f32 0x00000000#32
      - ((broadcastTo S1024x1024 (shapeCast S1024x1 (rowSqs a) shapeCasts_S1024_S1024x1) broadcasts_S1024x1_S1024x1024 (ix2 r s)
          + broadcastTo S1024x1024
              (transpose S1x1024 [1, 0] (shapeCast S1024x1 (rowSqs b) shapeCasts_S1024_S1024x1) transposes_S1024x1_p1_0_S1x1024)
              broadcasts_S1x1024_S1024x1024 (ix2 r s))
        - Ideal.ofBits .f32 0x40000000#32 * gram a b (ix2 r s))) (Ideal.ofBits .f32 0x45800000#32)) = _
  rw [broadcastTo_a1_ab_apply, shapeCast_a_a1_apply, broadcastTo_1b_ab_apply, transpose_ix2_apply, shapeCast_a_a1_apply,
    rowSqs_apply, rowSqs_apply, gram_apply, Ideal.ofBits_zero_f32, zero_sub]
  rfl

/-- The total is the block sum, at the one index of the result. -/
theorem total_apply (a b : FVec Ideal S1024x64 .f32) (j : S1x1.Idx) : total a b j = blockSum a b := by
  obtain ⟨u, w, rfl⟩ : ∃ (u : Fin 1) (w : Fin 1), j = ix2 u w := ⟨j 0, j 1, eq_ix2 j⟩
  unfold total blockSum
  rw [shapeCast_a_1a_apply, sum_column]
  refine Finset.sum_congr rfl fun r _ => ?_
  rw [shapeCast_a_a1_apply, sum_lanes1024]
  exact Finset.sum_congr rfl fun s _ => vals_apply a b r s

/-! ## The payloads -/

/-- The first kernel's body: its two identity casts, then the total added to the running value. -/
theorem k0_eq (a b : Vec Ideal S1024x64 .f32) (prev : Vec Ideal S1x1 .f32) :
    k0_pay3 (F := Ideal) a b prev
      = addf (φ := .f32) prev (total (shapeCast S1024x64 a shapeCasts_S1024x64_S1024x64)
          (shapeCast S1024x64 b shapeCasts_S1024x64_S1024x64)) := rfl

/-- The second kernel's body: the total added to the running value, then an identity cast. -/
theorem k1_eq (a b : Vec Ideal S1024x64 .f32) (prev : Vec Ideal S1x1 .f32) :
    k1_pay2 (F := Ideal) a b prev = shapeCast S1x1 (addf (φ := .f32) prev (total a b)) shapeCasts_S1x1_S1x1 := rfl

/-- The third kernel's body: an identity cast of the first block, the total added, an identity cast. -/
theorem k2_eq (a b : Vec Ideal S1024x64 .f32) (prev : Vec Ideal S1x1 .f32) :
    k2_pay2 (F := Ideal) a b prev
      = shapeCast S1x1 (addf (φ := .f32) prev (total (shapeCast S1024x64 a shapeCasts_S1024x64_S1024x64) b))
          shapeCasts_S1x1_S1x1 := rfl

/-- The running value plus the total, at the one index of the result. -/
theorem add_total (a b : FVec Ideal S1024x64 .f32) (prev : FVec Ideal S1x1 .f32) :
    addf prev (total a b) = fun _ => prev (ix2 0 0) + blockSum a b := by
  funext j
  obtain ⟨u, w, rfl⟩ : ∃ (u : Fin 1) (w : Fin 1), j = ix2 u w := ⟨j 0, j 1, eq_ix2 j⟩
  obtain rfl : u = 0 := Subsingleton.elim _ _
  obtain rfl : w = 0 := Subsingleton.elim _ _
  rw [addf_apply, total_apply]

/-- THE FIRST KERNEL'S PAYLOAD: the running value plus the block sum of the two blocks it read. -/
theorem pay0 (a b : Vec Ideal S1024x64 .f32) (prev : Vec Ideal S1x1 .f32) :
    k0_pay3 (F := Ideal) a b prev = fun _ => prev (ix2 0 0) + blockSum a b := by
  rw [k0_eq, shapeCast_self, shapeCast_self]
  exact add_total a b prev

/-- THE SECOND KERNEL'S PAYLOAD. -/
theorem pay1 (a b : Vec Ideal S1024x64 .f32) (prev : Vec Ideal S1x1 .f32) :
    k1_pay2 (F := Ideal) a b prev = fun _ => prev (ix2 0 0) + blockSum a b := by
  rw [k1_eq, shapeCast_self]
  exact add_total a b prev

/-- THE THIRD KERNEL'S PAYLOAD. -/
theorem pay2 (a b : Vec Ideal S1024x64 .f32) (prev : Vec Ideal S1x1 .f32) :
    k2_pay2 (F := Ideal) a b prev = fun _ => prev (ix2 0 0) + blockSum a b := by
  rw [k2_eq, shapeCast_self, shapeCast_self]
  exact add_total a b prev

/-- The stored value is the running value itself. -/
theorem pay_id (v : FVec Ideal S1x1 .f32) : k0_pay1 (F := Ideal) v = v := by
  unfold k0_pay1
  exact shapeCast_self v _

/-- The zero vector a kernel's first grid point stores. -/
theorem zero_vec :
    shapeCast S1x1 (broadcast S1x1 (Scalar.ofBits .f32 0x00000000#32 : Ideal .f32)) shapeCasts_S1x1_S1x1
      = fun _ => (0 : EReal) := by
  rw [shapeCast_self]
  funext j
  exact Ideal.ofBits_zero_f32

theorem pay_zero0 : k0_pay2 (F := Ideal) = fun _ => (0 : EReal) := zero_vec
theorem pay_zero1 : k1_pay1 (F := Ideal) = fun _ => (0 : EReal) := zero_vec
theorem pay_zero2 : k2_pay1 (F := Ideal) = fun _ => (0 : EReal) := zero_vec

end Cert.KernelIdeal.Payload

end
-- ==== Proof.IdealAccumulate.lean ====
/-
  The accumulation over the grid.

  A kernel visits the 8 × 8 grid of pairs of blocks in row-major order: point `n` reads block `n / 8` of the first
  array and block `n % 8` of the second, and adds their block sum to the running value, which starts from zero. After
  point `n` the running value is therefore the sum of the block sums of the points `0 … n`, and after the last point
  it is the sum over the whole grid, which is the pair sum of the two arrays. Only the commutativity and associativity
  of the sum are used.
-/
import proofs.«104297_j12386685682169_1_alg».proof.Proof.IdealPayload
import proofs.«104297_j12386685682169_1_alg».proof.Proof.BlockSums

noncomputable section

open scoped BigOperators

namespace Cert.KernelIdeal.Accumulate

open Cert.KernelIdeal Cert.KernelIdeal.Gen Cert.KernelIdeal.Payload Idealize.ShloMosaic Idealize.ShloMosaic.ValueIdx
  Cert.PairSpec

/-- The block sum of grid point `t`: blocks `t / 8` of `X` and `t % 8` of `Y` (zero past the grid). -/
def cell (X Y : Rows) (t : ℕ) : EReal :=
  if h : t < 64 then blockSum (rowsBlock X ⟨t / 8, by omega⟩) (rowsBlock Y ⟨t % 8, by omega⟩) else 0

/-- Inside the grid the cell is the block sum of the point's two blocks. -/
theorem cell_of_lt (X Y : Rows) (t : ℕ) (h : t < 64) :
    cell X Y t = blockSum (rowsBlock X ⟨t / 8, by omega⟩) (rowsBlock Y ⟨t % 8, by omega⟩) := dif_pos h

/-- The cells of the whole grid sum to the pair sum. -/
theorem sum_cells (X Y : Rows) : ∑ t ∈ Finset.range 64, cell X Y t = pairSum X Y := by
  rw [← Fin.sum_univ_eq_sum_range (cell X Y) 64, ← blocks_sum,
    ← grid_sum fun i j => blockSum (rowsBlock X i) (rowsBlock Y j)]
  exact Finset.sum_congr rfl fun t _ => cell_of_lt X Y t.val t.isLt

/-- A running value that starts at the first cell and adds one cell per point is, after point `n`, the sum of the
    cells `0 … n`. -/
theorem running (X Y : Rows) (acc : (n : ℕ) → n < 64 → S1x1.Idx → EReal)
    (h0 : acc 0 (by decide) = fun _ => cell X Y 0)
    (hs : ∀ n (h : n + 1 < 64), acc (n + 1) h = fun _ => acc n (Nat.lt_of_succ_lt h) (ix2 0 0) + cell X Y (n + 1)) :
    ∀ n (h : n < 64), acc n h = fun _ => ∑ t ∈ Finset.range (n + 1), cell X Y t := by
  intro n
  induction n with
  | zero =>
    intro h
    rw [h0, Finset.sum_range_one]
  | succ n ih =>
    intro h
    rw [hs n h, ih (Nat.lt_of_succ_lt h), Finset.sum_range_succ _ (n + 1)]

/-- After the last point the running value is the pair sum. -/
theorem running_last (X Y : Rows) (acc : (n : ℕ) → n < 64 → S1x1.Idx → EReal)
    (h0 : acc 0 (by decide) = fun _ => cell X Y 0)
    (hs : ∀ n (h : n + 1 < 64), acc (n + 1) h = fun _ => acc n (Nat.lt_of_succ_lt h) (ix2 0 0) + cell X Y (n + 1)) :
    acc 63 (by decide) = fun _ => pairSum X Y := by
  rw [running X Y acc h0 hs 63 (by decide), sum_cells]

/-- THE FIRST KERNEL: its running value after the last grid point is the pair sum. -/
theorem total0 (X Y : Cert.PairSpec.Rows) (A B : (n : ℕ) → n < 64 → Vec Ideal S1024x64 .f32)
    (acc : (n : ℕ) → n < 64 → Vec Ideal S1x1 .f32)
    (hA : ∀ n (h : n < 64), A n h = rowsBlock X ⟨n / 8, by omega⟩)
    (hB : ∀ n (h : n < 64), B n h = rowsBlock Y ⟨n % 8, by omega⟩)
    (h0 : acc 0 (by decide) = k0_pay1 (F := Ideal) (k0_pay3 (F := Ideal) (A 0 (by decide)) (B 0 (by decide)) (k0_pay2 (F := Ideal))))
    (hs : ∀ n (h : n + 1 < 64), acc (n + 1) h
      = k0_pay1 (F := Ideal) (k0_pay3 (F := Ideal) (A (n + 1) h) (B (n + 1) h) (acc n (Nat.lt_of_succ_lt h)))) :
    acc 63 (by decide) = fun _ => Cert.PairSpec.pairSum X Y := by
  refine running_last X Y acc ?_ fun n h => ?_
  · rw [h0, pay_id, pay0, pay_zero0, hA, hB, cell_of_lt X Y 0 (by decide)]
    funext _
    exact zero_add _
  · rw [hs n h, pay_id, pay0, hA, hB, cell_of_lt X Y (n + 1) h]

/-- THE SECOND KERNEL: its running value after the last grid point is the pair sum. -/
theorem total1 (X Y : Cert.PairSpec.Rows) (A B : (n : ℕ) → n < 64 → Vec Ideal S1024x64 .f32)
    (acc : (n : ℕ) → n < 64 → Vec Ideal S1x1 .f32)
    (hA : ∀ n (h : n < 64), A n h = rowsBlock X ⟨n / 8, by omega⟩)
    (hB : ∀ n (h : n < 64), B n h = rowsBlock Y ⟨n % 8, by omega⟩)
    (h0 : acc 0 (by decide) = k1_pay2 (F := Ideal) (A 0 (by decide)) (B 0 (by decide)) (k1_pay1 (F := Ideal)))
    (hs : ∀ n (h : n + 1 < 64), acc (n + 1) h
      = k1_pay2 (F := Ideal) (A (n + 1) h) (B (n + 1) h) (acc n (Nat.lt_of_succ_lt h))) :
    acc 63 (by decide) = fun _ => Cert.PairSpec.pairSum X Y := by
  refine running_last X Y acc ?_ fun n h => ?_
  · rw [h0, pay1, pay_zero1, hA, hB, cell_of_lt X Y 0 (by decide)]
    funext _
    exact zero_add _
  · rw [hs n h, pay1, hA, hB, cell_of_lt X Y (n + 1) h]

/-- THE THIRD KERNEL: its running value after the last grid point is the pair sum. -/
theorem total2 (X Y : Cert.PairSpec.Rows) (A B : (n : ℕ) → n < 64 → Vec Ideal S1024x64 .f32)
    (acc : (n : ℕ) → n < 64 → Vec Ideal S1x1 .f32)
    (hA : ∀ n (h : n < 64), A n h = rowsBlock X ⟨n / 8, by omega⟩)
    (hB : ∀ n (h : n < 64), B n h = rowsBlock Y ⟨n % 8, by omega⟩)
    (h0 : acc 0 (by decide) = k2_pay2 (F := Ideal) (A 0 (by decide)) (B 0 (by decide)) (k2_pay1 (F := Ideal)))
    (hs : ∀ n (h : n + 1 < 64), acc (n + 1) h
      = k2_pay2 (F := Ideal) (A (n + 1) h) (B (n + 1) h) (acc n (Nat.lt_of_succ_lt h))) :
    acc 63 (by decide) = fun _ => Cert.PairSpec.pairSum X Y := by
  refine running_last X Y acc ?_ fun n h => ?_
  · rw [h0, pay2, pay_zero2, hA, hB, cell_of_lt X Y 0 (by decide)]
    funext _
    exact zero_add _
  · rw [hs n h, pay2, hA, hB, cell_of_lt X Y (n + 1) h]

end Cert.KernelIdeal.Accumulate

end
-- ==== Proof.IdealBlockReads.lean ====
/-
  What a window's block at a grid point reads of its array.

  Each region runs over an 8 × 8 grid in row-major order: point `t` has coordinates (t / 8, t % 8). Its first input
  window moves with the first coordinate and its second with the second, in blocks of 1024 rows of 64 out of the
  8192: row `r` of the first window's block at point `t` is row (t / 8) · 1024 + r of its array, and row `r` of the
  second window's block is row (t % 8) · 1024 + r of its array. The result window's one block is the whole
  one-entry array at every point, so the block written back at the last point covers it.
-/
import proofs.«104297_j12386685682169_1_alg».proof.Proof.Gen.KernelIdeal.Launch
import proofs.«104297_j12386685682169_1_alg».proof.Proof.Gen.KernelIdeal.Points
import Idealize.ShloMosaic.Lib.Pipeline.Value
import Idealize.ShloMosaic.Lib.ValueIdx

noncomputable section

namespace Cert.KernelIdeal.BlockReads

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- A row of a block is a row of the array. -/
theorem row_lt (q r : Nat) (hq : q < 8) (hr : r < 1024) : q * 1024 + r < 8192 := by omega

/-! ## Region 0 -/

/-- The block indices of region 0's windows at every point of the grid. -/
theorem idx0_0 : ∀ t : Fin grid0.N, win0_0.index t (0 : Fin 2) = t.val / 8 ∧ win0_0.index t (1 : Fin 2) = 0 := by decide +kernel
theorem idx0_1 : ∀ t : Fin grid0.N, win0_1.index t (0 : Fin 2) = t.val % 8 ∧ win0_1.index t (1 : Fin 2) = 0 := by decide +kernel
theorem idx0_2 : ∀ t : Fin grid0.N, win0_2.index t (0 : Fin 2) = 0 ∧ win0_2.index t (1 : Fin 2) = 0 := by decide +kernel

/-- Window 0's block at point `t`, read at `y`, is the array at any index with row (t / 8) · 1024 + y₀ and column y₁. -/
theorem blk0_0_at (X : S8192x64.Idx → Elt F .f32) (t : Fin cfg0.N) (y : S1024x64.Idx) (i : S8192x64.Idx)
    (h0 : (i 0).val = t.val / 8 * 1024 + (y 0).val) (h1 : (i 1).val = (y 1).val) :
    ((cfg0.win 0).blk t).view.read (Elt F) X y = X i := by
  obtain ⟨e0, e1⟩ := idx0_0 t
  rw [View.read_apply]
  show X (((cfg0.win 0).blk t).view.emb y) = X i
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 64 + 1 * (y 1).val = (i 1).val; rw [e1, h1]; omega

/-- Window 1's block at point `t`, read at `y`, is the array at any index with row (t % 8) · 1024 + y₀ and column y₁. -/
theorem blk0_1_at (X : S8192x64.Idx → Elt F .f32) (t : Fin cfg0.N) (y : S1024x64.Idx) (i : S8192x64.Idx)
    (h0 : (i 0).val = t.val % 8 * 1024 + (y 0).val) (h1 : (i 1).val = (y 1).val) :
    ((cfg0.win 1).blk t).view.read (Elt F) X y = X i := by
  obtain ⟨e0, e1⟩ := idx0_1 t
  rw [View.read_apply]
  show X (((cfg0.win 1).blk t).view.emb y) = X i
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 64 + 1 * (y 1).val = (i 1).val; rw [e1, h1]; omega

/-- The same at a row `r` and a column `k` of the block. -/
theorem blk0_0 (X : S8192x64.Idx → Elt F .f32) (t : Fin cfg0.N) (r : Fin 1024) (k : Fin 64) :
    ((cfg0.win 0).blk t).view.read (Elt F) X (ix2 r k)
      = X (ix2 ⟨t.val / 8 * 1024 + r.val, row_lt _ _ (by have := lt_of_lt_of_eq t.isLt N_0; omega) r.isLt⟩ k) :=
  blk0_0_at X t (ix2 r k) _ rfl rfl
theorem blk0_1 (X : S8192x64.Idx → Elt F .f32) (t : Fin cfg0.N) (r : Fin 1024) (k : Fin 64) :
    ((cfg0.win 1).blk t).view.read (Elt F) X (ix2 r k)
      = X (ix2 ⟨t.val % 8 * 1024 + r.val, row_lt _ _ (Nat.mod_lt _ (by decide)) r.isLt⟩ k) :=
  blk0_1_at X t (ix2 r k) _ rfl rfl

/-- The result window's block at any point is the whole one-entry array. -/
theorem out_blk0 (Y : S1x1.Idx → Elt F .f32) (t : Fin cfg0.N) : ((cfg0.win 2).blk t).view.read (Elt F) Y = Y := by
  obtain ⟨e0, e1⟩ := idx0_2 t
  have hz' : (fun a => win0_2.index t a * main_v2.ty.shape.size a) = fun _ => 0 := funext fun a => by
    match a with
    | ⟨0, _⟩ => show win0_2.index t (0 : Fin 2) * 1 = 0; rw [e0]
    | ⟨1, _⟩ => show win0_2.index t (1 : Fin 2) * 1 = 0; rw [e1]
  exact Memref.read_access_unit_zero (Elt F) main_v2 hz' (fun a => by rw [congrFun hz' a]; simp) Y

/-- The last point of the grid. -/
abbrev last0 : Fin cfg0.N := ⟨63, by rw [show cfg0.N = 64 from N_0]; decide⟩

/-- Every index of the result array lies in the block written back at the last point. -/
theorem out_cover0 (i : S1x1.Idx) : ∃ t : Fin cfg0.N, (cfg0.win 2).flush t = true ∧ i ∈ ((cfg0.win 2).blk t).view.set :=
  ⟨last0, (flush0_2 last0).mpr rfl, by
    show i ∈ ((View.whole main_v2).slice (win0_2.rect last0)).set
    rw [View.set_slice_whole, Rect.mem_set_unit]
    intro a
    have h0 : (i 0 : Nat) < 1 := (i 0).isLt
    have h1 : (i 1 : Nat) < 1 := (i 1).isLt
    match a with
    | ⟨0, _⟩ => show win0_2.index last0 0 * win0_2.size 0 ≤ (i 0 : Nat) ∧ (i 0 : Nat) < win0_2.index last0 0 * win0_2.size 0 + win0_2.xsize (grid0.coords last0) 0
                rw [show win0_2.index last0 0 * win0_2.size 0 = 0 from by decide +kernel, show win0_2.xsize (grid0.coords last0) 0 = 1 from by decide +kernel]; omega
    | ⟨1, _⟩ => show win0_2.index last0 1 * win0_2.size 1 ≤ (i 1 : Nat) ∧ (i 1 : Nat) < win0_2.index last0 1 * win0_2.size 1 + win0_2.xsize (grid0.coords last0) 1
                rw [show win0_2.index last0 1 * win0_2.size 1 = 0 from by decide +kernel, show win0_2.xsize (grid0.coords last0) 1 = 1 from by decide +kernel]; omega⟩

/-! ## Region 1 -/

/-- The block indices of region 1's windows at every point of the grid. -/
theorem idx1_0 : ∀ t : Fin grid1.N, win1_0.index t (0 : Fin 2) = t.val / 8 ∧ win1_0.index t (1 : Fin 2) = 0 := by decide +kernel
theorem idx1_1 : ∀ t : Fin grid1.N, win1_1.index t (0 : Fin 2) = t.val % 8 ∧ win1_1.index t (1 : Fin 2) = 0 := by decide +kernel
theorem idx1_2 : ∀ t : Fin grid1.N, win1_2.index t (0 : Fin 2) = 0 ∧ win1_2.index t (1 : Fin 2) = 0 := by decide +kernel

/-- Window 0's block at point `t`, read at `y`, is the array at any index with row (t / 8) · 1024 + y₀ and column y₁. -/
theorem blk1_0_at (X : S8192x64.Idx → Elt F .f32) (t : Fin cfg1.N) (y : S1024x64.Idx) (i : S8192x64.Idx)
    (h0 : (i 0).val = t.val / 8 * 1024 + (y 0).val) (h1 : (i 1).val = (y 1).val) :
    ((cfg1.win 0).blk t).view.read (Elt F) X y = X i := by
  obtain ⟨e0, e1⟩ := idx1_0 t
  rw [View.read_apply]
  show X (((cfg1.win 0).blk t).view.emb y) = X i
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 64 + 1 * (y 1).val = (i 1).val; rw [e1, h1]; omega

/-- Window 1's block at point `t`, read at `y`, is the array at any index with row (t % 8) · 1024 + y₀ and column y₁. -/
theorem blk1_1_at (X : S8192x64.Idx → Elt F .f32) (t : Fin cfg1.N) (y : S1024x64.Idx) (i : S8192x64.Idx)
    (h0 : (i 0).val = t.val % 8 * 1024 + (y 0).val) (h1 : (i 1).val = (y 1).val) :
    ((cfg1.win 1).blk t).view.read (Elt F) X y = X i := by
  obtain ⟨e0, e1⟩ := idx1_1 t
  rw [View.read_apply]
  show X (((cfg1.win 1).blk t).view.emb y) = X i
  congr 1
  funext a
  apply Fin.ext
  match a with
  | ⟨0, _⟩ => show win1_1.index t (0 : Fin 2) * 1024 + 1 * (y 0).val = (i 0).val; rw [e0, h0]; omega
  | ⟨1, _⟩ => show win1_1.index t (1 : Fin 2) * 64 + 1 * (y 1).val = (i 1).val; rw [e1, h1]; omega

/-- The same at a row `r` and a column `k` of the block. -/
theorem blk1_0 (X : S8192x64.Idx → Elt F .f32) (t : Fin cfg1.N) (r : Fin 1024) (k : Fin 64) :
    ((cfg1.win 0).blk t).view.read (Elt F) X (ix2 r k)
      = X (ix2 ⟨t.val / 8 * 1024 + r.val, row_lt _ _ (by have := lt_of_lt_of_eq t.isLt N_1; omega) r.isLt⟩ k) :=
  blk1_0_at X t (ix2 r k) _ rfl rfl
theorem blk1_1 (X : S8192x64.Idx → Elt F .f32) (t : Fin cfg1.N) (r : Fin 1024) (k : Fin 64) :
    ((cfg1.win 1).blk t).view.read (Elt F) X (ix2 r k)
      = X (ix2 ⟨t.val % 8 * 1024 + r.val, row_lt _ _ (Nat.mod_lt _ (by decide)) r.isLt⟩ k) :=
  blk1_1_at X t (ix2 r k) _ rfl rfl

/-- The result window's block at any point is the whole one-entry array. -/
theorem out_blk1 (Y : S1x1.Idx → Elt F .f32) (t : Fin cfg1.N) : ((cfg1.win 2).blk t).view.read (Elt F) Y = Y := by
  obtain ⟨e0, e1⟩ := idx1_2 t
  have hz' : (fun a => win1_2.index t a * main_v4.ty.shape.size a) = fun _ => 0 := funext fun a => by
    match a with
    | ⟨0, _⟩ => show win1_2.index t (0 : Fin 2) * 1 = 0; rw [e0]
    | ⟨1, _⟩ => show win1_2.index t (1 : Fin 2) * 1 = 0; rw [e1]
  exact Memref.read_access_unit_zero (Elt F) main_v4 hz' (fun a => by rw [congrFun hz' a]; simp) Y

/-- The last point of the grid. -/
abbrev last1 : Fin cfg1.N := ⟨63, by rw [show cfg1.N = 64 from N_1]; decide⟩

/-- Every index of the result array lies in the block written back at the last point. -/
theorem out_cover1 (i : S1x1.Idx) : ∃ t : Fin cfg1.N, (cfg1.win 2).flush t = true ∧ i ∈ ((cfg1.win 2).blk t).view.set :=
  ⟨last1, (flush1_2 last1).mpr rfl, by
    show i ∈ ((View.whole main_v4).slice (win1_2.rect last1)).set
    rw [View.set_slice_whole, Rect.mem_set_unit]
    intro a
    have h0 : (i 0 : Nat) < 1 := (i 0).isLt
    have h1 : (i 1 : Nat) < 1 := (i 1).isLt
    match a with
    | ⟨0, _⟩ => show win1_2.index last1 0 * win1_2.size 0 ≤ (i 0 : Nat) ∧ (i 0 : Nat) < win1_2.index last1 0 * win1_2.size 0 + win1_2.xsize (grid1.coords last1) 0
                rw [show win1_2.index last1 0 * win1_2.size 0 = 0 from by decide +kernel, show win1_2.xsize (grid1.coords last1) 0 = 1 from by decide +kernel]; omega
    | ⟨1, _⟩ => show win1_2.index last1 1 * win1_2.size 1 ≤ (i 1 : Nat) ∧ (i 1 : Nat) < win1_2.index last1 1 * win1_2.size 1 + win1_2.xsize (grid1.coords last1) 1
                rw [show win1_2.index last1 1 * win1_2.size 1 = 0 from by decide +kernel, show win1_2.xsize (grid1.coords last1) 1 = 1 from by decide +kernel]; omega⟩

/-! ## Region 2 -/

/-- The block indices of region 2's windows at every point of the grid. -/
theorem idx2_0 : ∀ t : Fin grid2.N, win2_0.index t (0 : Fin 2) = t.val / 8 ∧ win2_0.index t (1 : Fin 2) = 0 := by decide +kernel
theorem idx2_1 : ∀ t : Fin grid2.N, win2_1.index t (0 : Fin 2) = t.val % 8 ∧ win2_1.index t (1 : Fin 2) = 0 := by decide +kernel
theorem idx2_2 : ∀ t : Fin grid2.N, win2_2.index t (0 : Fin 2) = 0 ∧ win2_2.index t (1 : Fin 2) = 0 := by decide +kernel

/-- Window 0's block at point `t`, read at `y`, is the array at any index with row (t / 8) · 1024 + y₀ and column y₁. -/
theorem blk2_0_at (X : S8192x64.Idx → Elt F .f32) (t : Fin cfg2.N) (y : S1024x64.Idx) (i : S8192x64.Idx)
    (h0 : (i 0).val = t.val / 8 * 1024 + (y 0).val) (h1 : (i 1).val = (y 1).val) :
    ((cfg2.win 0).blk t).view.read (Elt F) X y = X i := by
  obtain ⟨e0, e1⟩ := idx2_0 t
  rw [View.read_apply]
  show X (((cfg2.win 0).blk t).view.emb y) = X i
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 64 + 1 * (y 1).val = (i 1).val; rw [e1, h1]; omega

/-- Window 1's block at point `t`, read at `y`, is the array at any index with row (t % 8) · 1024 + y₀ and column y₁. -/
theorem blk2_1_at (X : S8192x64.Idx → Elt F .f32) (t : Fin cfg2.N) (y : S1024x64.Idx) (i : S8192x64.Idx)
    (h0 : (i 0).val = t.val % 8 * 1024 + (y 0).val) (h1 : (i 1).val = (y 1).val) :
    ((cfg2.win 1).blk t).view.read (Elt F) X y = X i := by
  obtain ⟨e0, e1⟩ := idx2_1 t
  rw [View.read_apply]
  show X (((cfg2.win 1).blk t).view.emb y) = X i
  congr 1
  funext a
  apply Fin.ext
  match a with
  | ⟨0, _⟩ => show win2_1.index t (0 : Fin 2) * 1024 + 1 * (y 0).val = (i 0).val; rw [e0, h0]; omega
  | ⟨1, _⟩ => show win2_1.index t (1 : Fin 2) * 64 + 1 * (y 1).val = (i 1).val; rw [e1, h1]; omega

/-- The same at a row `r` and a column `k` of the block. -/
theorem blk2_0 (X : S8192x64.Idx → Elt F .f32) (t : Fin cfg2.N) (r : Fin 1024) (k : Fin 64) :
    ((cfg2.win 0).blk t).view.read (Elt F) X (ix2 r k)
      = X (ix2 ⟨t.val / 8 * 1024 + r.val, row_lt _ _ (by have := lt_of_lt_of_eq t.isLt N_2; omega) r.isLt⟩ k) :=
  blk2_0_at X t (ix2 r k) _ rfl rfl
theorem blk2_1 (X : S8192x64.Idx → Elt F .f32) (t : Fin cfg2.N) (r : Fin 1024) (k : Fin 64) :
    ((cfg2.win 1).blk t).view.read (Elt F) X (ix2 r k)
      = X (ix2 ⟨t.val % 8 * 1024 + r.val, row_lt _ _ (Nat.mod_lt _ (by decide)) r.isLt⟩ k) :=
  blk2_1_at X t (ix2 r k) _ rfl rfl

/-- The result window's block at any point is the whole one-entry array. -/
theorem out_blk2 (Y : S1x1.Idx → Elt F .f32) (t : Fin cfg2.N) : ((cfg2.win 2).blk t).view.read (Elt F) Y = Y := by
  obtain ⟨e0, e1⟩ := idx2_2 t
  have hz' : (fun a => win2_2.index t a * main_v6.ty.shape.size a) = fun _ => 0 := funext fun a => by
    match a with
    | ⟨0, _⟩ => show win2_2.index t (0 : Fin 2) * 1 = 0; rw [e0]
    | ⟨1, _⟩ => show win2_2.index t (1 : Fin 2) * 1 = 0; rw [e1]
  exact Memref.read_access_unit_zero (Elt F) main_v6 hz' (fun a => by rw [congrFun hz' a]; simp) Y

/-- The last point of the grid. -/
abbrev last2 : Fin cfg2.N := ⟨63, by rw [show cfg2.N = 64 from N_2]; decide⟩

/-- Every index of the result array lies in the block written back at the last point. -/
theorem out_cover2 (i : S1x1.Idx) : ∃ t : Fin cfg2.N, (cfg2.win 2).flush t = true ∧ i ∈ ((cfg2.win 2).blk t).view.set :=
  ⟨last2, (flush2_2 last2).mpr rfl, by
    show i ∈ ((View.whole main_v6).slice (win2_2.rect last2)).set
    rw [View.set_slice_whole, Rect.mem_set_unit]
    intro a
    have h0 : (i 0 : Nat) < 1 := (i 0).isLt
    have h1 : (i 1 : Nat) < 1 := (i 1).isLt
    match a with
    | ⟨0, _⟩ => show win2_2.index last2 0 * win2_2.size 0 ≤ (i 0 : Nat) ∧ (i 0 : Nat) < win2_2.index last2 0 * win2_2.size 0 + win2_2.xsize (grid2.coords last2) 0
                rw [show win2_2.index last2 0 * win2_2.size 0 = 0 from by decide +kernel, show win2_2.xsize (grid2.coords last2) 0 = 1 from by decide +kernel]; omega
    | ⟨1, _⟩ => show win2_2.index last2 1 * win2_2.size 1 ≤ (i 1 : Nat) ∧ (i 1 : Nat) < win2_2.index last2 1 * win2_2.size 1 + win2_2.xsize (grid2.coords last2) 1
                rw [show win2_2.index last2 1 * win2_2.size 1 = 0 from by decide +kernel, show win2_2.xsize (grid2.coords last2) 1 = 1 from by decide +kernel]; omega⟩

end Cert.KernelIdeal.BlockReads

end
-- ==== Proof.IdealRegionValue.lean ====
/-
  What each region leaves in its result array.

  A region visits its 8 × 8 grid in row-major order; at point `t` its two input windows hold block `t / 8` of the
  first array and block `t % 8` of the second, and its running value after the point is the body's payload of the two
  blocks and of the running value before. After the last point the running value is therefore the pair sum of the two
  arrays; that point alone writes the result window back, and the block it writes is the whole one-entry result array.
-/
import proofs.«104297_j12386685682169_1_alg».proof.Proof.IdealDat0
import proofs.«104297_j12386685682169_1_alg».proof.Proof.IdealDat1
import proofs.«104297_j12386685682169_1_alg».proof.Proof.IdealDat2
import proofs.«104297_j12386685682169_1_alg».proof.Proof.IdealAccumulate
import proofs.«104297_j12386685682169_1_alg».proof.Proof.IdealBlockReads
import Idealize.ShloMosaic.Lib.Pipeline.Value

noncomputable section

namespace Cert.KernelIdeal.RegionValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.PairSpec

variable (V : (c : Dev nD) → (b : Ref sig .tc) → Buf (Elt Ideal) ((c : Thread nD τ).loc b))

/-! ## Region 0 -/

/-- The first window's block at point `t` is block `t / 8` of its array. -/
theorem iblk0_0 (c : Dev nD) (t : Fin cfg0.N) :
    (Body0.iblk0 V c 0 t : Vec Ideal S1024x64 .f32)
      = rowsBlock (V c main_v1) ⟨t.val / 8, by have := lt_of_lt_of_eq t.isLt N_0; omega⟩ := by
  funext y
  obtain ⟨r, k, rfl⟩ : ∃ (r : Fin 1024) (k : Fin 64), y = ix2 r k := ⟨y 0, y 1, eq_ix2 y⟩
  exact BlockReads.blk0_0 (F := Ideal) (V c main_v1) t r k

/-- The second window's block at point `t` is block `t % 8` of its array. -/
theorem iblk0_1 (c : Dev nD) (t : Fin cfg0.N) :
    (Body0.iblk0 V c 1 t : Vec Ideal S1024x64 .f32)
      = rowsBlock (V c main_v1) ⟨t.val % 8, Nat.mod_lt _ (by decide)⟩ := by
  funext y
  obtain ⟨r, k, rfl⟩ : ∃ (r : Fin 1024) (k : Fin 64), y = ix2 r k := ⟨y 0, y 1, eq_ix2 y⟩
  exact BlockReads.blk0_1 (F := Ideal) (V c main_v1) t r k

/-- The running value after the last point is the pair sum of the two arrays. -/
theorem acc0_last (c : Dev nD) :
    Body0.acc0 V c 63 (by rw [show cfg0.N = 64 from N_0]; decide)
      = fun _ => Cert.PairSpec.pairSum (V c main_v1) (V c main_v1) :=
  Accumulate.total0 (V c main_v1) (V c main_v1)
    (fun n h => Body0.iblk0 V c 0 ⟨n, lt_of_lt_of_eq h N_0.symm⟩)
    (fun n h => Body0.iblk0 V c 1 ⟨n, lt_of_lt_of_eq h N_0.symm⟩)
    (fun n h => Body0.acc0 V c n (lt_of_lt_of_eq h N_0.symm))
    (fun n h => iblk0_0 V c ⟨n, lt_of_lt_of_eq h N_0.symm⟩)
    (fun n h => iblk0_1 V c ⟨n, lt_of_lt_of_eq h N_0.symm⟩)
    rfl (fun n h => rfl)

/-- The one write-back, at the last point, writes the pair sum. -/
theorem flushed0 (c : Dev nD) (t : Fin cfg0.N) (hf : (cfg0.win 2).flush t = true) :
    (Body0.dat0 (F := Ideal) V c).flushed 2 t
      = ((cfg0.win 2).blk t).view.read (Elt Ideal) (fun _ => Cert.PairSpec.pairSum (V c main_v1) (V c main_v1)) := by
  have h63 : t.val = 63 := by
    have := (flush0_2 t).mp hf
    have := lt_of_lt_of_eq t.isLt N_0
    omega
  obtain rfl : t = BlockReads.last0 := Fin.ext h63
  rw [BlockReads.out_blk0]
  show (cfg0.win 2).cut (grid0.coords BlockReads.last0) ((Body0.dat0 (F := Ideal) V c).after 2 BlockReads.last0) = _
  rw [Body0.after0_2]
  exact acc0_last V c

/-- REGION 0'S RESULT: the result array ends holding the pair sum of the two arrays its windows read. -/
theorem out_value0 (c : Dev nD) :
    (Body0.dat0 (F := Ideal) V c).arrAt 2 cfg0.N
      = fun _ => Cert.PairSpec.pairSum (V c main_v1) (V c main_v1) :=
  (Body0.dat0 (F := Ideal) V c).arrAt_eq_of_cover 2 (fun _ => Cert.PairSpec.pairSum (V c main_v1) (V c main_v1))
    (flushed0 V c) BlockReads.out_cover0

/-! ## Region 1 -/

/-- The first window's block at point `t` is block `t / 8` of its array. -/
theorem iblk1_0 (c : Dev nD) (t : Fin cfg1.N) :
    (Body1.iblk1 V c 0 t : Vec Ideal S1024x64 .f32)
      = rowsBlock (V c main_arg1) ⟨t.val / 8, by have := lt_of_lt_of_eq t.isLt N_1; omega⟩ := by
  funext y
  obtain ⟨r, k, rfl⟩ : ∃ (r : Fin 1024) (k : Fin 64), y = ix2 r k := ⟨y 0, y 1, eq_ix2 y⟩
  exact BlockReads.blk1_0 (F := Ideal) (V c main_arg1) t r k

/-- The second window's block at point `t` is block `t % 8` of its array. -/
theorem iblk1_1 (c : Dev nD) (t : Fin cfg1.N) :
    (Body1.iblk1 V c 1 t : Vec Ideal S1024x64 .f32)
      = rowsBlock (V c main_arg1) ⟨t.val % 8, Nat.mod_lt _ (by decide)⟩ := by
  funext y
  obtain ⟨r, k, rfl⟩ : ∃ (r : Fin 1024) (k : Fin 64), y = ix2 r k := ⟨y 0, y 1, eq_ix2 y⟩
  exact BlockReads.blk1_1 (F := Ideal) (V c main_arg1) t r k

/-- The running value after the last point is the pair sum of the two arrays. -/
theorem acc1_last (c : Dev nD) :
    Body1.acc1 V c 63 (by rw [show cfg1.N = 64 from N_1]; decide)
      = fun _ => Cert.PairSpec.pairSum (V c main_arg1) (V c main_arg1) :=
  Accumulate.total1 (V c main_arg1) (V c main_arg1)
    (fun n h => Body1.iblk1 V c 0 ⟨n, lt_of_lt_of_eq h N_1.symm⟩)
    (fun n h => Body1.iblk1 V c 1 ⟨n, lt_of_lt_of_eq h N_1.symm⟩)
    (fun n h => Body1.acc1 V c n (lt_of_lt_of_eq h N_1.symm))
    (fun n h => iblk1_0 V c ⟨n, lt_of_lt_of_eq h N_1.symm⟩)
    (fun n h => iblk1_1 V c ⟨n, lt_of_lt_of_eq h N_1.symm⟩)
    rfl (fun n h => rfl)

/-- The one write-back, at the last point, writes the pair sum. -/
theorem flushed1 (c : Dev nD) (t : Fin cfg1.N) (hf : (cfg1.win 2).flush t = true) :
    (Body1.dat1 (F := Ideal) V c).flushed 2 t
      = ((cfg1.win 2).blk t).view.read (Elt Ideal) (fun _ => Cert.PairSpec.pairSum (V c main_arg1) (V c main_arg1)) := by
  have h63 : t.val = 63 := by
    have := (flush1_2 t).mp hf
    have := lt_of_lt_of_eq t.isLt N_1
    omega
  obtain rfl : t = BlockReads.last1 := Fin.ext h63
  rw [BlockReads.out_blk1]
  show (cfg1.win 2).cut (grid1.coords BlockReads.last1) ((Body1.dat1 (F := Ideal) V c).after 2 BlockReads.last1) = _
  rw [Body1.after1_2]
  exact acc1_last V c

/-- REGION 1'S RESULT: the result array ends holding the pair sum of the two arrays its windows read. -/
theorem out_value1 (c : Dev nD) :
    (Body1.dat1 (F := Ideal) V c).arrAt 2 cfg1.N
      = fun _ => Cert.PairSpec.pairSum (V c main_arg1) (V c main_arg1) :=
  (Body1.dat1 (F := Ideal) V c).arrAt_eq_of_cover 2 (fun _ => Cert.PairSpec.pairSum (V c main_arg1) (V c main_arg1))
    (flushed1 V c) BlockReads.out_cover1

/-! ## Region 2 -/

/-- The first window's block at point `t` is block `t / 8` of its array. -/
theorem iblk2_0 (c : Dev nD) (t : Fin cfg2.N) :
    (Body2.iblk2 V c 0 t : Vec Ideal S1024x64 .f32)
      = rowsBlock (V c main_v1) ⟨t.val / 8, by have := lt_of_lt_of_eq t.isLt N_2; omega⟩ := by
  funext y
  obtain ⟨r, k, rfl⟩ : ∃ (r : Fin 1024) (k : Fin 64), y = ix2 r k := ⟨y 0, y 1, eq_ix2 y⟩
  exact BlockReads.blk2_0 (F := Ideal) (V c main_v1) t r k

/-- The second window's block at point `t` is block `t % 8` of its array. -/
theorem iblk2_1 (c : Dev nD) (t : Fin cfg2.N) :
    (Body2.iblk2 V c 1 t : Vec Ideal S1024x64 .f32)
      = rowsBlock (V c main_arg1) ⟨t.val % 8, Nat.mod_lt _ (by decide)⟩ := by
  funext y
  obtain ⟨r, k, rfl⟩ : ∃ (r : Fin 1024) (k : Fin 64), y = ix2 r k := ⟨y 0, y 1, eq_ix2 y⟩
  exact BlockReads.blk2_1 (F := Ideal) (V c main_arg1) t r k

/-- The running value after the last point is the pair sum of the two arrays. -/
theorem acc2_last (c : Dev nD) :
    Body2.acc2 V c 63 (by rw [show cfg2.N = 64 from N_2]; decide)
      = fun _ => Cert.PairSpec.pairSum (V c main_v1) (V c main_arg1) :=
  Accumulate.total2 (V c main_v1) (V c main_arg1)
    (fun n h => Body2.iblk2 V c 0 ⟨n, lt_of_lt_of_eq h N_2.symm⟩)
    (fun n h => Body2.iblk2 V c 1 ⟨n, lt_of_lt_of_eq h N_2.symm⟩)
    (fun n h => Body2.acc2 V c n (lt_of_lt_of_eq h N_2.symm))
    (fun n h => iblk2_0 V c ⟨n, lt_of_lt_of_eq h N_2.symm⟩)
    (fun n h => iblk2_1 V c ⟨n, lt_of_lt_of_eq h N_2.symm⟩)
    rfl (fun n h => rfl)

/-- The one write-back, at the last point, writes the pair sum. -/
theorem flushed2 (c : Dev nD) (t : Fin cfg2.N) (hf : (cfg2.win 2).flush t = true) :
    (Body2.dat2 (F := Ideal) V c).flushed 2 t
      = ((cfg2.win 2).blk t).view.read (Elt Ideal) (fun _ => Cert.PairSpec.pairSum (V c main_v1) (V c main_arg1)) := by
  have h63 : t.val = 63 := by
    have := (flush2_2 t).mp hf
    have := lt_of_lt_of_eq t.isLt N_2
    omega
  obtain rfl : t = BlockReads.last2 := Fin.ext h63
  rw [BlockReads.out_blk2]
  show (cfg2.win 2).cut (grid2.coords BlockReads.last2) ((Body2.dat2 (F := Ideal) V c).after 2 BlockReads.last2) = _
  rw [Body2.after2_2]
  exact acc2_last V c

/-- REGION 2'S RESULT: the result array ends holding the pair sum of the two arrays its windows read. -/
theorem out_value2 (c : Dev nD) :
    (Body2.dat2 (F := Ideal) V c).arrAt 2 cfg2.N
      = fun _ => Cert.PairSpec.pairSum (V c main_v1) (V c main_arg1) :=
  (Body2.dat2 (F := Ideal) V c).arrAt_eq_of_cover 2 (fun _ => Cert.PairSpec.pairSum (V c main_v1) (V c main_arg1))
    (flushed2 V c) BlockReads.out_cover2

end Cert.KernelIdeal.RegionValue

end
-- ==== Proof.IdealTailValue.lean ====
/-
  The value of the host operations after the three regions.

  The three regions leave three one-element arrays; the host reshapes each to a scalar, divides it by the number of
  pairs 2²⁶, adds the first two quotients and subtracts twice the third. At the ideal values each operation is the
  extended reals' own, the reshape of a one-element array reads its one element, and the three literals are the
  specification's `count` and `two`: with the three pair sums in the three arrays the result is the discrepancy.
-/
import proofs.«104297_j12386685682169_1_alg».proof.KernelIdeal
import proofs.«104297_j12386685682169_1_alg».proof.Proof.PairSpec
import Idealize.ShloMosaic.PureOps.Ideal
import Idealize.ShloMosaic.Lib.ValueIdx

noncomputable section

namespace Cert.KernelIdeal.TailValue

open Cert.KernelIdeal Idealize.ShloMosaic Idealize.ShloMosaic.ValueIdx

/-- The tail's term over three constant one-element arrays, whatever the proof that `[1, 1]` reshapes to `[]`: the two
    quotients added, minus twice the third. -/
theorem tail_value_of (h : S1x1.ShapeCasts S_) (s0 s1 s2 : EReal) :
    subf (addf (Host.divf (shapeCast S_ (fun _ => s0 : FVec Ideal S1x1 .f32) h) (constant (F := Ideal) S_ .f32 0x4C800000#32))
               (Host.divf (shapeCast S_ (fun _ => s1 : FVec Ideal S1x1 .f32) h) (constant (F := Ideal) S_ .f32 0x4C800000#32)))
         (mulf (constant (F := Ideal) S_ .f32 0x40000000#32)
               (Host.divf (shapeCast S_ (fun _ => s2 : FVec Ideal S1x1 .f32) h) (constant (F := Ideal) S_ .f32 0x4C800000#32)))
      = fun _ => (Ideal.div s0 Cert.PairSpec.count + Ideal.div s1 Cert.PairSpec.count)
          - Cert.PairSpec.two * Ideal.div s2 Cert.PairSpec.count := by
  funext j
  rw [subf_apply, addf_apply, mulf_apply]
  rfl

section
variable [Facts₀]
open Facts₀

/-- THE TAIL'S VALUE over three constant one-element arrays. -/
theorem tail_value (s0 s1 s2 : EReal) :
    subf (addf (Host.divf (shapeCast S_ (fun _ => s0 : FVec Ideal S1x1 .f32) shapeCasts_S1x1_S_) (constant (F := Ideal) S_ .f32 0x4C800000#32))
               (Host.divf (shapeCast S_ (fun _ => s1 : FVec Ideal S1x1 .f32) shapeCasts_S1x1_S_) (constant (F := Ideal) S_ .f32 0x4C800000#32)))
         (mulf (constant (F := Ideal) S_ .f32 0x40000000#32)
               (Host.divf (shapeCast S_ (fun _ => s2 : FVec Ideal S1x1 .f32) shapeCasts_S1x1_S_) (constant (F := Ideal) S_ .f32 0x4C800000#32)))
      = fun _ => (Ideal.div s0 Cert.PairSpec.count + Ideal.div s1 Cert.PairSpec.count)
          - Cert.PairSpec.two * Ideal.div s2 Cert.PairSpec.count :=
  tail_value_of shapeCasts_S1x1_S_ s0 s1 s2

/-- With the three pair sums in the three arrays the tail's value is the discrepancy. -/
theorem tail_mmd (x y : Cert.PairSpec.Rows) :
    subf (addf (Host.divf (shapeCast S_ (fun _ => Cert.PairSpec.pairSum x x : FVec Ideal S1x1 .f32) shapeCasts_S1x1_S_) (constant (F := Ideal) S_ .f32 0x4C800000#32))
               (Host.divf (shapeCast S_ (fun _ => Cert.PairSpec.pairSum y y : FVec Ideal S1x1 .f32) shapeCasts_S1x1_S_) (constant (F := Ideal) S_ .f32 0x4C800000#32)))
         (mulf (constant (F := Ideal) S_ .f32 0x40000000#32)
               (Host.divf (shapeCast S_ (fun _ => Cert.PairSpec.pairSum x y : FVec Ideal S1x1 .f32) shapeCasts_S1x1_S_) (constant (F := Ideal) S_ .f32 0x4C800000#32)))
      = fun _ => Cert.PairSpec.mmd x y :=
  tail_value (Cert.PairSpec.pairSum x x) (Cert.PairSpec.pairSum y y) (Cert.PairSpec.pairSum x y)

end

/-- The same whatever the proof that `[1, 1]` reshapes to `[]`. -/
theorem tail_mmd_of (h : S1x1.ShapeCasts S_) (x y : Cert.PairSpec.Rows) :
    subf (addf (Host.divf (shapeCast S_ (fun _ => Cert.PairSpec.pairSum x x : FVec Ideal S1x1 .f32) h) (constant (F := Ideal) S_ .f32 0x4C800000#32))
               (Host.divf (shapeCast S_ (fun _ => Cert.PairSpec.pairSum y y : FVec Ideal S1x1 .f32) h) (constant (F := Ideal) S_ .f32 0x4C800000#32)))
         (mulf (constant (F := Ideal) S_ .f32 0x40000000#32)
               (Host.divf (shapeCast S_ (fun _ => Cert.PairSpec.pairSum x y : FVec Ideal S1x1 .f32) h) (constant (F := Ideal) S_ .f32 0x4C800000#32)))
      = fun _ => Cert.PairSpec.mmd x y :=
  tail_value_of h (Cert.PairSpec.pairSum x x) (Cert.PairSpec.pairSum y y) (Cert.PairSpec.pairSum x y)

end Cert.KernelIdeal.TailValue

end
-- ==== Proof.IdealKernelValue.lean ====
/-
  The value of the kernel's run over the extended reals.

  Each of the three regions leaves in its one-entry result the pair sum of the two arrays it reads: the first the
  pair sum of x with itself, x being the first argument transposed and reshaped; the second the pair sum of the second
  argument y with itself; the third the pair sum of x and y. No host operation and no region writes x or y between
  the first host stretch and the last region, so each region reads them as the first stretch left them. The host tail
  divides the three sums by 2²⁶, adds the first two quotients and subtracts twice the third: the discrepancy of x
  and y.
-/
import proofs.«104297_j12386685682169_1_alg».proof.Proof.IdealWhole
import proofs.«104297_j12386685682169_1_alg».proof.Proof.IdealHostTail
import proofs.«104297_j12386685682169_1_alg».proof.Proof.IdealRegionValue
import proofs.«104297_j12386685682169_1_alg».proof.Proof.IdealTailValue

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairSpec

local notation "𝕄" => MT nD τ sig Unit (Elt Ideal) ℕ (UR sig nD τ) ℕ

variable (m : (ℓ : Loc nD τ sig) → Buf (Elt Ideal) ℓ)

/-! ## What the three regions leave -/

/-- The first region leaves the pair sum of the transposed and reshaped first argument with itself. -/
theorem outs2 (c : Dev nD) :
    Whole.outs m 2 main_v2 c = fun _ => pairSum (V1 m c main_v1) (V1 m c main_v1) := by
  show Whole.W2 m c main_v2 = _
  rw [Whole.W2_self]
  unfold Whole.o2
  exact RegionValue.out_value0 (fun c b => Whole.W1 m c b) c

/-- The second argument is still as launched when the second region reads it. -/
theorem W3_main_arg1 (c : Dev nD) : Whole.W3 m c main_arg1 = m ((c : Thread nD τ).loc main_arg1) := by
  rw [← Whole.V3_eq, HostTail.V3_main_arg1, HostTail.V1_main_arg1]

/-- The second region leaves the pair sum of the second argument with itself. -/
theorem outs4 (c : Dev nD) :
    Whole.outs m 4 main_v4 c = fun _ => pairSum (m ((c : Thread nD τ).loc main_arg1)) (m ((c : Thread nD τ).loc main_arg1)) := by
  show Whole.W4 m c main_v4 = _
  rw [Whole.W4_self]
  unfold Whole.o4
  refine (RegionValue.out_value1 (fun c b => Whole.W3 m c b) c).trans ?_
  show (fun _ => pairSum (Whole.W3 m c main_arg1) (Whole.W3 m c main_arg1)) = _
  rw [W3_main_arg1]

/-- Both arrays are still what they were when the third region reads them. -/
theorem W5_main_v1 (c : Dev nD) : Whole.W5 m c main_v1 = V1 m c main_v1 := by
  rw [← Whole.V5_eq, HostTail.V5_main_v1]
theorem W5_main_arg1 (c : Dev nD) : Whole.W5 m c main_arg1 = m ((c : Thread nD τ).loc main_arg1) := by
  rw [← Whole.V5_eq, HostTail.V5_main_arg1, HostTail.V1_main_arg1]

/-- The third region leaves the pair sum of the two. -/
theorem outs6 (c : Dev nD) :
    Whole.outs m 6 main_v6 c = fun _ => pairSum (V1 m c main_v1) (m ((c : Thread nD τ).loc main_arg1)) := by
  show Whole.W6 m c main_v6 = _
  rw [Whole.W6_self]
  unfold Whole.o6
  refine (RegionValue.out_value2 (fun c b => Whole.W5 m c b) c).trans ?_
  show (fun _ => pairSum (Whole.W5 m c main_v1) (Whole.W5 m c main_arg1)) = _
  rw [W5_main_v1, W5_main_arg1]

/-! ## The result buffer -/

/-- At the end the result buffer holds the discrepancy of the transposed and reshaped first argument and the second. -/
theorem kernel_value (c : Dev nD) :
    V7 m (Whole.outs m) c main_v13 = fun _ => mmd (V1 m c main_v1) (m ((c : Thread nD τ).loc main_arg1)) := by
  rw [HostTail.V7_main_v13, outs2, outs4, outs6]
  generalize V1 m c main_v1 = x
  exact TailValue.tail_mmd_of _ x (m ((c : Thread nD τ).loc main_arg1))

set_option backward.isDefEq.respectTransparency.types false in
/-- THE RUN'S VALUE: every weakly fair execution of @main terminates with the discrepancy in the result buffer and
    both arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v13) = (fun _ => mmd (V1 m c main_v1) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (kernel_value m c), (h c).2⟩)
    (HostTail.run_cond m emb₁ () Whole.𝒱₀ Whole.L Whole.lv (fun _ _ => rfl) ρ (Whole.outs m) (Whole.pdats m) (0 : Dev nD → CellTallies nD τ sig Unit) (fun _ => (BI.emp : sProp 𝕄))
      (initOf (Pipeline.cells cfgs cellOf_inj) (Pipeline.launchToks cfgs cellOf_inj)) Whole.hu₀
      (fun _ c => Whole.R c) (Whole.hE0 ρ) (fun c => by iintro ⟨-, HO⟩; iexact HO)
      (Whole.reg0 m) (fun c => by rw [show V1 m c = Whole.W1 m c from rfl]; exact .rfl) (fun c => by rw [Whole.V2_eq]; exact .rfl)
      (Whole.reg1 m) (fun c => by rw [Whole.V3_eq]; exact .rfl) (fun c => by rw [Whole.V4_eq]; exact .rfl)
      (Whole.reg2 m) (fun c => by rw [Whole.V5_eq]; exact .rfl) (fun c => by rw [Whole.V6_eq]; exact .rfl))

end Cert.KernelIdeal.KernelValue

end
-- ==== Proof.BitsConds0.lean ====
/-
  The first of the program's three kernel launches (the rearranged first argument against itself): a grid of 8 × 8 points, each adding
  the sum of a 1024 × 1024 block of pair values to a one-element accumulator that lives across the points. The
  accumulator is reset at the first point (both coordinates zero) and copied into the one-element result block at the
  last point (both coordinates seven); the result block is written back to its array at the last point only.
  Here: those two conditions decided over the grid, where the result window is idle, and the names of the buffers a
  point's body is handed.
-/
import proofs.«104297_j12386685682169_1_alg».proof.Proof.Gen.Kernel.Launch
import proofs.«104297_j12386685682169_1_alg».proof.Proof.Gen.Kernel.Skeleton
import proofs.«104297_j12386685682169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first condition: both grid coordinates are zero (the accumulator is reset there). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The body's second condition: both grid coordinates are the last (the accumulator is copied out there). -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-- The input windows are never idle; the output window is idle exactly off the last point, and written back at the last point only. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The windows' current staging memrefs at a point, as the pipeline passes them, and the scratch accumulator. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0
abbrev VS0 : View sig .tc .vmem S1x1 .f32 := scM0.view
abbrev VO0 : View sig .tc .vmem S1x1 .f32 := (Memref.whole cc0_stg2_0 : Memref sig .tc .vmem S1x1 .f32).view

end Cert.Kernel.Body0

end
-- ==== Proof.BitsRuns0.lean ====
/-
  The body of launch 0 run symbolically, once for each way its two conditions can fall on the grid: at the first point
  (reset, then accumulate), at the last point (accumulate, then copy out), and at every other point (accumulate).
  Each run leaves every buffer it stores into written with a list of pieces (a rectangle and the value stored there);
  on these one-element buffers every piece covers the buffer.
-/
import proofs.«104297_j12386685682169_1_alg».proof.Proof.BitsConds0

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once per case of its two conditions

Each run leaves the accumulator written with the pieces it finds; the two input blocks come back as found, and the
output block either comes back untouched (off the last point) or written with the pieces found (at the last point). -/

set_option maxHeartbeats 4000000 in
/-- The first point: the accumulator, found at anything, is reset and the point's block sum added. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S1024x64 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_sum_kernel i arg2 harg2 arg3 harg3 arg4 harg4 arg5 harg5) K } := by
  refine ⟨?_, fun xi2 E K => ?run⟩
  case run =>
    simp only [cc0__pairwise_sum_kernel_eq_skeleton]; unfold cc0__pairwise_sum_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A point that is neither the first nor the last: the point's block sum is added to the accumulator found at `xs0`. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S1024x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_sum_kernel i arg2 harg2 arg3 harg3 arg4 harg4 arg5 harg5) K } := by
  refine ⟨?_, fun xi2 E K => ?run⟩
  case run =>
    simp only [cc0__pairwise_sum_kernel_eq_skeleton]; unfold cc0__pairwise_sum_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The last point: the block sum is added to the accumulator found at `xs0`, and the accumulator copied into the output block. -/
noncomputable def kernelRun0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S1024x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_sum_kernel i arg2 harg2 arg3 harg3 arg4 harg4 arg5 harg5) K } := by
  refine ⟨?_, ?_, fun E K => ?run⟩
  case run =>
    simp only [cc0__pairwise_sum_kernel_eq_skeleton]; unfold cc0__pairwise_sum_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces cover the one-element buffers -/

theorem scover0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x64 .f32) (y : S1x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1.size (by sl_kernel_rfl) y
theorem scover0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xs0 : Vec F S1x1 .f32) (y : S1x1.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1x1.size (by sl_kernel_rfl) y
theorem scover0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1.size (by sl_kernel_rfl) y
theorem cover0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) (y : S1x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1.size (by sl_kernel_rfl) y

end Cert.Kernel.Body0

end
-- ==== Proof.BitsVals0.lean ====
/-
  What the runs of launch 0 leave, as values: the accumulator ends at ONE STEP `step0 a b p` — the body's arithmetic
  applied to the point's two input blocks `a`, `b` and to what the accumulator held, `p` (the zero `zero0` at the
  first point) —, and at the last point the result block receives that same value.
-/
import proofs.«104297_j12386685682169_1_alg».proof.Proof.BitsRuns0
import Idealize.ShloMosaic.Lib.Pipeline.Value

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces read back as values

On a one-element buffer every store covers it, so what a run leaves is its last store's payload; the loads inside that
payload read whole buffers, so they are the contents the buffers were found at. -/

/-- One point's step of the accumulator: the body's payload of the point's two blocks and of what the accumulator held. -/
abbrev step0 (a b : Vec F S1024x64 .f32) (p : Vec F S1x1 .f32) : FVec F S1x1 .f32 := k0_pay1 (k0_pay3 a b p)
/-- The zero the accumulator is reset to at the first point. -/
abbrev zero0 : FVec F S1x1 .f32 := k0_pay2

theorem hz : (![0, 0] : Fin 2 → Nat) = fun _ => 0 := funext fun a => by fin_cases a <;> rfl

/-- Off the first point the accumulator ends at the payload of the two blocks and of what it held. -/
theorem sval0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x64 .f32) (xs0 : Vec F S1x1 .f32) :
    arg5.view.read (Elt F) (arg5.view.writes (Elt F) arg5.view.junk (kernelRun0_B c i arg2 harg2 arg3 harg3 arg4 harg4 arg5 harg5 hc0 hc1 x0 x1 xs0).1) = step0 x0 x1 xs0 := by
  rw [View.read_writes_eq_canon _ _ _ (scover0_B c i arg2 harg2 arg3 harg3 arg4 harg4 arg5 harg5 hc0 hc1 x0 x1 xs0)]
  unfold kernelRun0_B
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- At the first point the accumulator ends at the payload of the two blocks and of the zero it was reset to. -/
theorem sval0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x64 .f32) :
    arg5.view.read (Elt F) (arg5.view.writes (Elt F) arg5.view.junk (kernelRun0_A c i arg2 harg2 arg3 harg3 arg4 harg4 arg5 harg5 hc0 hc1 x0 x1).1) = step0 x0 x1 zero0 := by
  rw [View.read_writes_eq_canon _ _ _ (scover0_A c i arg2 harg2 arg3 harg3 arg4 harg4 arg5 harg5 hc0 hc1 x0 x1)]
  unfold kernelRun0_A
  dsimp only
  try sl_unfold_words
  try dsimp only
  rw [View.canon_cons_unit_zero (S := S1x1) hz, View.readCov_unit_zero (S := S1x1) _ hz]
  simp only [View.readAt_eq_ld, harg2.read_unread, harg3.read_unread, View.ld_unit_zero (S := S1024x64) hz, View.ld_unit_zero (S := S1x1) hz]

/-- At the last point the accumulator ends as off the first point, -/
theorem sval0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) :
    arg5.view.read (Elt F) (arg5.view.writes (Elt F) arg5.view.junk (kernelRun0_C c i arg2 harg2 arg3 harg3 arg4 harg4 arg5 harg5 hc0 hc1 x0 x1 xs0).2.1) = step0 x0 x1 xs0 := by
  rw [View.read_writes_eq_canon _ _ _ (scover0_C c i arg2 harg2 arg3 harg3 arg4 harg4 arg5 harg5 hc0 hc1 x0 x1 xs0)]
  unfold kernelRun0_C
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- and the output block receives the accumulator's new value. -/
theorem oval0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x64 .f32) (xs0 : Vec F S1x1 .f32) :
    arg4.view.read (Elt F) (arg4.view.writes (Elt F) arg4.view.junk (kernelRun0_C c i arg2 harg2 arg3 harg3 arg4 harg4 arg5 harg5 hc0 hc1 x0 x1 xs0).1) = step0 x0 x1 xs0 := by
  rw [View.read_writes_eq_canon _ _ _ (cover0_C c i arg2 harg2 arg3 harg3 arg4 harg4 arg5 harg5 hc0 hc1 x0 x1 xs0)]
  unfold kernelRun0_C
  dsimp only
  try sl_unfold_words
  try dsimp only
  rw [View.canon_unit_zero hz, View.readCov_unit_zero (S := S1x1) _ hz]
  simp only [View.readAt_eq_ld, harg2.read_unread, harg3.read_unread, harg5.read_unread, View.ld_unit_zero (S := S1024x64) hz, View.ld_unit_zero (S := S1x1) hz]

end Cert.Kernel.Body0

end
-- ==== Proof.BitsDat0.lean ====
/-
  Launch 0 over its whole grid. The accumulator after point `n` is the fold of the steps over the points `0 … n` in
  grid order, starting from zero; an input window's buffer holds the window's block of its array at every point; the
  result window's buffer is touched at the last point only, where it receives the accumulator. This is stated as the
  pipeline's proof data, with the invariant "the accumulator holds the fold so far", and the body's obligation at a
  generic point is discharged by cases on the point (first / last / neither) from the three runs.
-/
import proofs.«104297_j12386685682169_1_alg».proof.Proof.BitsVals0

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, at the contents `V` the region is entered with -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running accumulator -/

/-- What the accumulator holds after point `n`: the first point's payload over the zero it is reset to, then each
    point's payload over what the point before left. -/
def acc0 (c : Dev nD) : (n : ℕ) → n < cfg0.N → Vec F S1x1 .f32
  | 0, h => step0 (iblk0 V c 0 ⟨0, h⟩) (iblk0 V c 1 ⟨0, h⟩) zero0
  | n + 1, h => step0 (iblk0 V c 0 ⟨n + 1, h⟩) (iblk0 V c 1 ⟨n + 1, h⟩) (acc0 c n (Nat.lt_of_succ_lt h))

theorem acc0_zero (c : Dev nD) (t : Fin cfg0.N) (h : t.val = 0) :
    acc0 V c t.val t.isLt = step0 (iblk0 V c 0 t) (iblk0 V c 1 t) zero0 := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-! ## The region's invariant -/

/-- The scoped buffers that are neither a staging buffer of this call nor its accumulator: carried unopened. -/
abbrev others0 (c : Dev nD) : sProp 𝕄 :=
  Pipeline.scopedRestBut (Ix := Unit) (Name := ℕ) (U := UR sig nD τ) (Lvl := ℕ) (Val := Elt F) spec0 c [cc0_scratch0]

/-- The invariant before position `n`: before the first point every scoped buffer at anything; afterwards the
    accumulator at what the point before left, the other scoped buffers at anything, the generator at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-- The invariant the region is entered with, the accumulator split off. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list (win := spec0) (c := c) [cc0_scratch0] (by decide) (by decide)]
  simp only [scM0, owns_whole]
  rfl

/-! ## The proof data -/

/-- The proof data of this call on core `c`: the arrays as the region finds them; after the body each input's buffer
    at its block and the output's at the accumulator; the two input windows, which read one array, hold half of it
    each; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point is the first, the last or neither, and that
    case's run applies; the invariant hands the body the accumulator at what the point before left (at anything, at the
    first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 63 := by omega
    have hc1 : ¬cond0_1 (grid0.coords t) := fun h => h1 ((hcond0_1 t).mp h)
    rw [Dat.leavesExact_idle (dat0 V c) 2 t (idleAt0_2 t hc1) (noFlush0_2 t hc1)]
    rw [acc0_zero V c t h0]
    rw [PhiS0_castSucc V c t, PhiS0_zero V c _ _ h0, PhiA0_eq]
    iintro ⟨⟨⟨HS0, Hoth⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0 (Memref.isWhole_whole _) ((hcond0_0 t).mpr h0) hc1 (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover0_A c (grid0.coords t) (ms0_0 t) (hs0_0 t) (ms0_1 t) (hs0_1 t) (ms0_2 t) (hs0_2 t) scM0 (Memref.isWhole_whole _) _ _ _ _)).trans (sval0_A c (grid0.coords t) (ms0_0 t) (hs0_0 t) (ms0_1 t) (hs0_1 t) (ms0_2 t) (hs0_2 t) scM0 (Memref.isWhole_whole _) _ _ _ _)
        iexact Hoth
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    rw [acc0_pos V c t h0]
    rw [PhiS0_castSucc V c t, PhiS0_pos V c _ _ h0]
    by_cases h1 : t.val = 63
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, acc0_pos V c t h0]
      iintro ⟨⟨⟨HS0, Hoth⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover0_C c (grid0.coords t) (ms0_0 t) (hs0_0 t) (ms0_1 t) (hs0_1 t) (ms0_2 t) (hs0_2 t) scM0 (Memref.isWhole_whole _) _ _ _ _ _)).trans (sval0_C c (grid0.coords t) (ms0_0 t) (hs0_0 t) (ms0_1 t) (hs0_1 t) (ms0_2 t) (hs0_2 t) scM0 (Memref.isWhole_whole _) _ _ _ _ _)
          iexact Hoth
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_C c (grid0.coords t) (ms0_0 t) (hs0_0 t) (ms0_1 t) (hs0_1 t) (ms0_2 t) (hs0_2 t) scM0 (Memref.isWhole_whole _) _ _ _ _ _)).trans (oval0_C c (grid0.coords t) (ms0_0 t) (hs0_0 t) (ms0_1 t) (hs0_1 t) (ms0_2 t) (hs0_2 t) scM0 (Memref.isWhole_whole _) _ _ _ _ _)
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover0_B c (grid0.coords t) (ms0_0 t) (hs0_0 t) (ms0_1 t) (hs0_1 t) (ms0_2 t) (hs0_2 t) scM0 (Memref.isWhole_whole _) _ _ _ _ _)).trans (sval0_B c (grid0.coords t) (ms0_0 t) (hs0_0 t) (ms0_1 t) (hs0_1 t) (ms0_2 t) (hs0_2 t) scM0 (Memref.isWhole_whole _) _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body0

end
-- ==== Proof.BitsConds1.lean ====
/-
  The second of the program's three kernel launches (the second argument against itself): a grid of 8 × 8 points, each adding
  the sum of a 1024 × 1024 block of pair values to a one-element accumulator that lives across the points. The
  accumulator is reset at the first point (both coordinates zero) and copied into the one-element result block at the
  last point (both coordinates seven); the result block is written back to its array at the last point only.
  Here: those two conditions decided over the grid, where the result window is idle, and the names of the buffers a
  point's body is handed.
-/
import proofs.«104297_j12386685682169_1_alg».proof.Proof.Gen.Kernel.Launch
import proofs.«104297_j12386685682169_1_alg».proof.Proof.Gen.Kernel.Skeleton
import proofs.«104297_j12386685682169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first condition: both grid coordinates are zero (the accumulator is reset there). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The body's second condition: both grid coordinates are the last (the accumulator is copied out there). -/
abbrev cond1_1 (i : grid1.Coords) : Prop := k1_cond2 i = 1#1
/-- It holds at the last point only. -/
theorem hcond1_1 : ∀ t : Fin cfg1.N, cond1_1 (grid1.coords t) ↔ t.val = 63 :=
  (by decide +kernel : ∀ t : Fin grid1.N, cond1_1 (grid1.coords t) ↔ t.val = 63)

/-- The input windows are never idle; the output window is idle exactly off the last point, and written back at the last point only. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The windows' current staging memrefs at a point, as the pipeline passes them, and the scratch accumulator. -/
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0
abbrev VS1 : View sig .tc .vmem S1x1 .f32 := scM1.view
abbrev VO1 : View sig .tc .vmem S1x1 .f32 := (Memref.whole cc1_stg2_0 : Memref sig .tc .vmem S1x1 .f32).view

end Cert.Kernel.Body1

end
-- ==== Proof.BitsRuns1.lean ====
/-
  The body of launch 1 run symbolically, once for each way its two conditions can fall on the grid: at the first point
  (reset, then accumulate), at the last point (accumulate, then copy out), and at every other point (accumulate).
  Each run leaves every buffer it stores into written with a list of pieces (a rectangle and the value stored there);
  on these one-element buffers every piece covers the buffer.
-/
import proofs.«104297_j12386685682169_1_alg».proof.Proof.BitsConds1

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once per case of its two conditions

Each run leaves the accumulator written with the pieces it finds; the two input blocks come back as found, and the
output block either comes back untouched (off the last point) or written with the pieces found (at the last point). -/

set_option maxHeartbeats 4000000 in
/-- The first point: the accumulator, found at anything, is reset and the point's block sum added. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 : Vec F S1024x64 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_sum_kernel i arg2 harg2 arg3 harg3 arg4 harg4 arg5 harg5) K } := by
  refine ⟨?_, fun xi2 E K => ?run⟩
  case run =>
    simp only [cc1__pairwise_sum_kernel_eq_skeleton]; unfold cc1__pairwise_sum_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A point that is neither the first nor the last: the point's block sum is added to the accumulator found at `xs0`. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 : Vec F S1024x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_sum_kernel i arg2 harg2 arg3 harg3 arg4 harg4 arg5 harg5) K } := by
  refine ⟨?_, fun xi2 E K => ?run⟩
  case run =>
    simp only [cc1__pairwise_sum_kernel_eq_skeleton]; unfold cc1__pairwise_sum_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The last point: the block sum is added to the accumulator found at `xs0`, and the accumulator copied into the output block. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 : Vec F S1024x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_sum_kernel i arg2 harg2 arg3 harg3 arg4 harg4 arg5 harg5) K } := by
  refine ⟨?_, ?_, fun E K => ?run⟩
  case run =>
    simp only [cc1__pairwise_sum_kernel_eq_skeleton]; unfold cc1__pairwise_sum_kernel_skel
    simp only [k1_part1_eq_skeleton]; unfold k1_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces cover the one-element buffers -/

theorem scover1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x64 .f32) (y : S1x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x1.size (by sl_kernel_rfl) y
theorem scover1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xs0 : Vec F S1x1 .f32) (y : S1x1.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1x1.size (by sl_kernel_rfl) y
theorem scover1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) (y : S1x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x1.size (by sl_kernel_rfl) y
theorem cover1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) (y : S1x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1.size (by sl_kernel_rfl) y

end Cert.Kernel.Body1

end
-- ==== Proof.BitsVals1.lean ====
/-
  What the runs of launch 1 leave, as values: the accumulator ends at ONE STEP `step1 a b p` — the body's arithmetic
  applied to the point's two input blocks `a`, `b` and to what the accumulator held, `p` (the zero `zero1` at the
  first point) —, and at the last point the result block receives that same value.
-/
import proofs.«104297_j12386685682169_1_alg».proof.Proof.BitsRuns1
import Idealize.ShloMosaic.Lib.Pipeline.Value

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces read back as values

On a one-element buffer every store covers it, so what a run leaves is its last store's payload; the loads inside that
payload read whole buffers, so they are the contents the buffers were found at. -/

/-- One point's step of the accumulator: the body's payload of the point's two blocks and of what the accumulator held. -/
abbrev step1 (a b : Vec F S1024x64 .f32) (p : Vec F S1x1 .f32) : FVec F S1x1 .f32 := k1_pay2 a b p
/-- The zero the accumulator is reset to at the first point. -/
abbrev zero1 : FVec F S1x1 .f32 := k1_pay1

theorem hz : (![0, 0] : Fin 2 → Nat) = fun _ => 0 := funext fun a => by fin_cases a <;> rfl

/-- Off the first point the accumulator ends at the payload of the two blocks and of what it held. -/
theorem sval1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x64 .f32) (xs0 : Vec F S1x1 .f32) :
    arg5.view.read (Elt F) (arg5.view.writes (Elt F) arg5.view.junk (kernelRun1_B c i arg2 harg2 arg3 harg3 arg4 harg4 arg5 harg5 hc0 hc1 x0 x1 xs0).1) = step1 x0 x1 xs0 := by
  rw [View.read_writes_eq_canon _ _ _ (scover1_B c i arg2 harg2 arg3 harg3 arg4 harg4 arg5 harg5 hc0 hc1 x0 x1 xs0)]
  unfold kernelRun1_B
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- At the first point the accumulator ends at the payload of the two blocks and of the zero it was reset to. -/
theorem sval1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x64 .f32) :
    arg5.view.read (Elt F) (arg5.view.writes (Elt F) arg5.view.junk (kernelRun1_A c i arg2 harg2 arg3 harg3 arg4 harg4 arg5 harg5 hc0 hc1 x0 x1).1) = step1 x0 x1 zero1 := by
  rw [View.read_writes_eq_canon _ _ _ (scover1_A c i arg2 harg2 arg3 harg3 arg4 harg4 arg5 harg5 hc0 hc1 x0 x1)]
  unfold kernelRun1_A
  dsimp only
  try sl_unfold_words
  try dsimp only
  rw [View.canon_cons_unit_zero (S := S1x1) hz, View.readCov_unit_zero (S := S1x1) _ hz]
  simp only [View.readAt_eq_ld, harg2.read_unread, harg3.read_unread, View.ld_unit_zero (S := S1024x64) hz, View.ld_unit_zero (S := S1x1) hz]

/-- At the last point the accumulator ends as off the first point, -/
theorem sval1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) :
    arg5.view.read (Elt F) (arg5.view.writes (Elt F) arg5.view.junk (kernelRun1_C c i arg2 harg2 arg3 harg3 arg4 harg4 arg5 harg5 hc0 hc1 x0 x1 xs0).2.1) = step1 x0 x1 xs0 := by
  rw [View.read_writes_eq_canon _ _ _ (scover1_C c i arg2 harg2 arg3 harg3 arg4 harg4 arg5 harg5 hc0 hc1 x0 x1 xs0)]
  unfold kernelRun1_C
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- and the output block receives the accumulator's new value. -/
theorem oval1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x64 .f32) (xs0 : Vec F S1x1 .f32) :
    arg4.view.read (Elt F) (arg4.view.writes (Elt F) arg4.view.junk (kernelRun1_C c i arg2 harg2 arg3 harg3 arg4 harg4 arg5 harg5 hc0 hc1 x0 x1 xs0).1) = step1 x0 x1 xs0 := by
  rw [View.read_writes_eq_canon _ _ _ (cover1_C c i arg2 harg2 arg3 harg3 arg4 harg4 arg5 harg5 hc0 hc1 x0 x1 xs0)]
  unfold kernelRun1_C
  dsimp only
  try sl_unfold_words
  try dsimp only
  rw [View.canon_unit_zero hz, View.readCov_unit_zero (S := S1x1) _ hz]
  simp only [View.readAt_eq_ld, harg2.read_unread, harg3.read_unread, harg5.read_unread, View.ld_unit_zero (S := S1024x64) hz, View.ld_unit_zero (S := S1x1) hz]

end Cert.Kernel.Body1

end
-- ==== Proof.BitsDat1.lean ====
/-
  Launch 1 over its whole grid. The accumulator after point `n` is the fold of the steps over the points `0 … n` in
  grid order, starting from zero; an input window's buffer holds the window's block of its array at every point; the
  result window's buffer is touched at the last point only, where it receives the accumulator. This is stated as the
  pipeline's proof data, with the invariant "the accumulator holds the fold so far", and the body's obligation at a
  generic point is discharged by cases on the point (first / last / neither) from the three runs.
-/
import proofs.«104297_j12386685682169_1_alg».proof.Proof.BitsVals1

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, at the contents `V` the region is entered with -/

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running accumulator -/

/-- What the accumulator holds after point `n`: the first point's payload over the zero it is reset to, then each
    point's payload over what the point before left. -/
def acc1 (c : Dev nD) : (n : ℕ) → n < cfg1.N → Vec F S1x1 .f32
  | 0, h => step1 (iblk1 V c 0 ⟨0, h⟩) (iblk1 V c 1 ⟨0, h⟩) zero1
  | n + 1, h => step1 (iblk1 V c 0 ⟨n + 1, h⟩) (iblk1 V c 1 ⟨n + 1, h⟩) (acc1 c n (Nat.lt_of_succ_lt h))

theorem acc1_zero (c : Dev nD) (t : Fin cfg1.N) (h : t.val = 0) :
    acc1 V c t.val t.isLt = step1 (iblk1 V c 0 t) (iblk1 V c 1 t) zero1 := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = step1 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-! ## The region's invariant -/

/-- The scoped buffers that are neither a staging buffer of this call nor its accumulator: carried unopened. -/
abbrev others1 (c : Dev nD) : sProp 𝕄 :=
  Pipeline.scopedRestBut (Ix := Unit) (Name := ℕ) (U := UR sig nD τ) (Lvl := ℕ) (Val := Elt F) spec1 c [cc1_scratch0]

/-- The invariant before position `n`: before the first point every scoped buffer at anything; afterwards the
    accumulator at what the point before left, the other scoped buffers at anything, the generator at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-- The invariant the region is entered with, the accumulator split off. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list (win := spec1) (c := c) [cc1_scratch0] (by decide) (by decide)]
  simp only [scM1, owns_whole]
  rfl

/-! ## The proof data -/

/-- The proof data of this call on core `c`: the arrays as the region finds them; after the body each input's buffer
    at its block and the output's at the accumulator; the two input windows, which read one array, hold half of it
    each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point is the first, the last or neither, and that
    case's run applies; the invariant hands the body the accumulator at what the point before left (at anything, at the
    first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 63 := by omega
    have hc1 : ¬cond1_1 (grid1.coords t) := fun h => h1 ((hcond1_1 t).mp h)
    rw [Dat.leavesExact_idle (dat1 V c) 2 t (idleAt1_2 t hc1) (noFlush1_2 t hc1)]
    rw [acc1_zero V c t h0]
    rw [PhiS1_castSucc V c t, PhiS1_zero V c _ _ h0, PhiA1_eq]
    iintro ⟨⟨⟨HS0, Hoth⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1 (Memref.isWhole_whole _) ((hcond1_0 t).mpr h0) hc1 (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover1_A c (grid1.coords t) (ms1_0 t) (hs1_0 t) (ms1_1 t) (hs1_1 t) (ms1_2 t) (hs1_2 t) scM1 (Memref.isWhole_whole _) _ _ _ _)).trans (sval1_A c (grid1.coords t) (ms1_0 t) (hs1_0 t) (ms1_1 t) (hs1_1 t) (ms1_2 t) (hs1_2 t) scM1 (Memref.isWhole_whole _) _ _ _ _)
        iexact Hoth
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    rw [acc1_pos V c t h0]
    rw [PhiS1_castSucc V c t, PhiS1_pos V c _ _ h0]
    by_cases h1 : t.val = 63
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_pos V c t h0]
      iintro ⟨⟨⟨HS0, Hoth⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover1_C c (grid1.coords t) (ms1_0 t) (hs1_0 t) (ms1_1 t) (hs1_1 t) (ms1_2 t) (hs1_2 t) scM1 (Memref.isWhole_whole _) _ _ _ _ _)).trans (sval1_C c (grid1.coords t) (ms1_0 t) (hs1_0 t) (ms1_1 t) (hs1_1 t) (ms1_2 t) (hs1_2 t) scM1 (Memref.isWhole_whole _) _ _ _ _ _)
          iexact Hoth
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover1_C c (grid1.coords t) (ms1_0 t) (hs1_0 t) (ms1_1 t) (hs1_1 t) (ms1_2 t) (hs1_2 t) scM1 (Memref.isWhole_whole _) _ _ _ _ _)).trans (oval1_C c (grid1.coords t) (ms1_0 t) (hs1_0 t) (ms1_1 t) (hs1_1 t) (ms1_2 t) (hs1_2 t) scM1 (Memref.isWhole_whole _) _ _ _ _ _)
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hoth⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) hc0 hc1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover1_B c (grid1.coords t) (ms1_0 t) (hs1_0 t) (ms1_1 t) (hs1_1 t) (ms1_2 t) (hs1_2 t) scM1 (Memref.isWhole_whole _) _ _ _ _ _)).trans (sval1_B c (grid1.coords t) (ms1_0 t) (hs1_0 t) (ms1_1 t) (hs1_1 t) (ms1_2 t) (hs1_2 t) scM1 (Memref.isWhole_whole _) _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body1

end
-- ==== Proof.BitsConds2.lean ====
/-
  The third of the program's three kernel launches (the rearranged first argument against the second argument): a grid of 8 × 8 points, each adding
  the sum of a 1024 × 1024 block of pair values to a one-element accumulator that lives across the points. The
  accumulator is reset at the first point (both coordinates zero) and copied into the one-element result block at the
  last point (both coordinates seven); the result block is written back to its array at the last point only.
  Here: those two conditions decided over the grid, where the result window is idle, and the names of the buffers a
  point's body is handed.
-/
import proofs.«104297_j12386685682169_1_alg».proof.Proof.Gen.Kernel.Launch
import proofs.«104297_j12386685682169_1_alg».proof.Proof.Gen.Kernel.Skeleton
import proofs.«104297_j12386685682169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first condition: both grid coordinates are zero (the accumulator is reset there). -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The body's second condition: both grid coordinates are the last (the accumulator is copied out there). -/
abbrev cond2_1 (i : grid2.Coords) : Prop := k2_cond2 i = 1#1
/-- It holds at the last point only. -/
theorem hcond2_1 : ∀ t : Fin cfg2.N, cond2_1 (grid2.coords t) ↔ t.val = 63 :=
  (by decide +kernel : ∀ t : Fin grid2.N, cond2_1 (grid2.coords t) ↔ t.val = 63)

/-- The input windows are never idle; the output window is idle exactly off the last point, and written back at the last point only. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The windows' current staging memrefs at a point, as the pipeline passes them, and the scratch accumulator. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0
abbrev VS2 : View sig .tc .vmem S1x1 .f32 := scM2.view
abbrev VO2 : View sig .tc .vmem S1x1 .f32 := (Memref.whole cc2_stg2_0 : Memref sig .tc .vmem S1x1 .f32).view

end Cert.Kernel.Body2

end
-- ==== Proof.BitsRuns2.lean ====
/-
  The body of launch 2 run symbolically, once for each way its two conditions can fall on the grid: at the first point
  (reset, then accumulate), at the last point (accumulate, then copy out), and at every other point (accumulate).
  Each run leaves every buffer it stores into written with a list of pieces (a rectangle and the value stored there);
  on these one-element buffers every piece covers the buffer.
-/
import proofs.«104297_j12386685682169_1_alg».proof.Proof.BitsConds2

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body run once per case of its two conditions

Each run leaves the accumulator written with the pieces it finds; the two input blocks come back as found, and the
output block either comes back untouched (off the last point) or written with the pieces found (at the last point). -/

set_option maxHeartbeats 4000000 in
/-- The first point: the accumulator, found at anything, is reset and the point's block sum added. -/
noncomputable def kernelRun2_A (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i)
    (x0 x1 : Vec F S1024x64 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__pairwise_sum_kernel i arg2 harg2 arg3 harg3 arg4 harg4 arg5 harg5) K } := by
  refine ⟨?_, fun xi2 E K => ?run⟩
  case run =>
    simp only [cc2__pairwise_sum_kernel_eq_skeleton]; unfold cc2__pairwise_sum_kernel_skel
    simp only [k2_part1_eq_skeleton]; unfold k2_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A point that is neither the first nor the last: the point's block sum is added to the accumulator found at `xs0`. -/
noncomputable def kernelRun2_B (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i)
    (x0 x1 : Vec F S1024x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__pairwise_sum_kernel i arg2 harg2 arg3 harg3 arg4 harg4 arg5 harg5) K } := by
  refine ⟨?_, fun xi2 E K => ?run⟩
  case run =>
    simp only [cc2__pairwise_sum_kernel_eq_skeleton]; unfold cc2__pairwise_sum_kernel_skel
    simp only [k2_part1_eq_skeleton]; unfold k2_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The last point: the block sum is added to the accumulator found at `xs0`, and the accumulator copied into the output block. -/
noncomputable def kernelRun2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i)
    (x0 x1 : Vec F S1024x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__pairwise_sum_kernel i arg2 harg2 arg3 harg3 arg4 harg4 arg5 harg5) K } := by
  refine ⟨?_, ?_, fun E K => ?run⟩
  case run =>
    simp only [cc2__pairwise_sum_kernel_eq_skeleton]; unfold cc2__pairwise_sum_kernel_skel
    simp only [k2_part1_eq_skeleton]; unfold k2_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces cover the one-element buffers -/

theorem scover2_A (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x64 .f32) (y : S1x1.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1x1.size (by sl_kernel_rfl) y
theorem scover2_B (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x64 .f32) (xs0 : Vec F S1x1 .f32) (y : S1x1.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1x1.size (by sl_kernel_rfl) y
theorem scover2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) (y : S1x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1.size (by sl_kernel_rfl) y
theorem cover2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) (y : S1x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x1.size (by sl_kernel_rfl) y

end Cert.Kernel.Body2

end
-- ==== Proof.BitsVals2.lean ====
/-
  What the runs of launch 2 leave, as values: the accumulator ends at ONE STEP `step2 a b p` — the body's arithmetic
  applied to the point's two input blocks `a`, `b` and to what the accumulator held, `p` (the zero `zero2` at the
  first point) —, and at the last point the result block receives that same value.
-/
import proofs.«104297_j12386685682169_1_alg».proof.Proof.BitsRuns2
import Idealize.ShloMosaic.Lib.Pipeline.Value

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces read back as values

On a one-element buffer every store covers it, so what a run leaves is its last store's payload; the loads inside that
payload read whole buffers, so they are the contents the buffers were found at. -/

/-- One point's step of the accumulator: the body's payload of the point's two blocks and of what the accumulator held. -/
abbrev step2 (a b : Vec F S1024x64 .f32) (p : Vec F S1x1 .f32) : FVec F S1x1 .f32 := k2_pay2 a b p
/-- The zero the accumulator is reset to at the first point. -/
abbrev zero2 : FVec F S1x1 .f32 := k2_pay1

theorem hz : (![0, 0] : Fin 2 → Nat) = fun _ => 0 := funext fun a => by fin_cases a <;> rfl

/-- Off the first point the accumulator ends at the payload of the two blocks and of what it held. -/
theorem sval2_B (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x64 .f32) (xs0 : Vec F S1x1 .f32) :
    arg5.view.read (Elt F) (arg5.view.writes (Elt F) arg5.view.junk (kernelRun2_B c i arg2 harg2 arg3 harg3 arg4 harg4 arg5 harg5 hc0 hc1 x0 x1 xs0).1) = step2 x0 x1 xs0 := by
  rw [View.read_writes_eq_canon _ _ _ (scover2_B c i arg2 harg2 arg3 harg3 arg4 harg4 arg5 harg5 hc0 hc1 x0 x1 xs0)]
  unfold kernelRun2_B
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- At the first point the accumulator ends at the payload of the two blocks and of the zero it was reset to. -/
theorem sval2_A (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x64 .f32) :
    arg5.view.read (Elt F) (arg5.view.writes (Elt F) arg5.view.junk (kernelRun2_A c i arg2 harg2 arg3 harg3 arg4 harg4 arg5 harg5 hc0 hc1 x0 x1).1) = step2 x0 x1 zero2 := by
  rw [View.read_writes_eq_canon _ _ _ (scover2_A c i arg2 harg2 arg3 harg3 arg4 harg4 arg5 harg5 hc0 hc1 x0 x1)]
  unfold kernelRun2_A
  dsimp only
  try sl_unfold_words
  try dsimp only
  rw [View.canon_cons_unit_zero (S := S1x1) hz, View.readCov_unit_zero (S := S1x1) _ hz]
  simp only [View.readAt_eq_ld, harg2.read_unread, harg3.read_unread, View.ld_unit_zero (S := S1024x64) hz, View.ld_unit_zero (S := S1x1) hz]

/-- At the last point the accumulator ends as off the first point, -/
theorem sval2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) :
    arg5.view.read (Elt F) (arg5.view.writes (Elt F) arg5.view.junk (kernelRun2_C c i arg2 harg2 arg3 harg3 arg4 harg4 arg5 harg5 hc0 hc1 x0 x1 xs0).2.1) = step2 x0 x1 xs0 := by
  rw [View.read_writes_eq_canon _ _ _ (scover2_C c i arg2 harg2 arg3 harg3 arg4 harg4 arg5 harg5 hc0 hc1 x0 x1 xs0)]
  unfold kernelRun2_C
  dsimp only
  try sl_unfold_words
  try dsimp only
  rw [View.canon_unit_zero hz]
  simp only [View.readAt_eq_ld, harg2.read_unread, harg3.read_unread, harg5.read_unread, View.ld_unit_zero (S := S1024x64) hz, View.ld_unit_zero (S := S1x1) hz]

/-- and the output block receives the accumulator's new value. -/
theorem oval2_C (c : Dev nD) (i : grid2.Coords) (arg2 : Memref sig .tc .vmem S1024x64 .f32) (harg2 : arg2.IsWhole) (arg3 : Memref sig .tc .vmem S1024x64 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x64 .f32) (xs0 : Vec F S1x1 .f32) :
    arg4.view.read (Elt F) (arg4.view.writes (Elt F) arg4.view.junk (kernelRun2_C c i arg2 harg2 arg3 harg3 arg4 harg4 arg5 harg5 hc0 hc1 x0 x1 xs0).1) = step2 x0 x1 xs0 := by
  rw [View.read_writes_eq_canon _ _ _ (cover2_C c i arg2 harg2 arg3 harg3 arg4 harg4 arg5 harg5 hc0 hc1 x0 x1 xs0)]
  unfold kernelRun2_C
  dsimp only
  try sl_unfold_words
  try dsimp only
  rw [View.canon_unit_zero hz, View.readCov_unit_zero (S := S1x1) _ hz]
  simp only [View.readAt_eq_ld, harg2.read_unread, harg3.read_unread, harg5.read_unread, View.ld_unit_zero (S := S1024x64) hz, View.ld_unit_zero (S := S1x1) hz]

end Cert.Kernel.Body2

end
-- ==== Proof.BitsDat2.lean ====
/-
  Launch 2 over its whole grid. The accumulator after point `n` is the fold of the steps over the points `0 … n` in
  grid order, starting from zero; an input window's buffer holds the window's block of its array at every point; the
  result window's buffer is touched at the last point only, where it receives the accumulator. This is stated as the
  pipeline's proof data, with the invariant "the accumulator holds the fold so far", and the body's obligation at a
  generic point is discharged by cases on the point (first / last / neither) from the three runs.
-/
import proofs.«104297_j12386685682169_1_alg».proof.Proof.BitsVals2

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, at the contents `V` the region is entered with -/

/-- Window `w`'s block at point `t`, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The running accumulator -/

/-- What the accumulator holds after point `n`: the first point's payload over the zero it is reset to, then each
    point's payload over what the point before left. -/
def acc2 (c : Dev nD) : (n : ℕ) → n < cfg2.N → Vec F S1x1 .f32
  | 0, h => step2 (iblk2 V c 0 ⟨0, h⟩) (iblk2 V c 1 ⟨0, h⟩) zero2
  | n + 1, h => step2 (iblk2 V c 0 ⟨n + 1, h⟩) (iblk2 V c 1 ⟨n + 1, h⟩) (acc2 c n (Nat.lt_of_succ_lt h))

theorem acc2_zero (c : Dev nD) (t : Fin cfg2.N) (h : t.val = 0) :
    acc2 V c t.val t.isLt = step2 (iblk2 V c 0 t) (iblk2 V c 1 t) zero2 := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = step2 (iblk2 V c 0 t) (iblk2 V c 1 t) (acc2 V c (t.val - 1) (Nat.lt_of_le_of_lt (Nat.sub_le _ _) t.isLt)) := by
  obtain ⟨n, hn⟩ := t
  cases n with
  | zero => exact absurd rfl h
  | succ n => rfl

/-! ## The region's invariant -/

/-- The scoped buffers that are neither a staging buffer of this call nor its accumulator: carried unopened. -/
abbrev others2 (c : Dev nD) : sProp 𝕄 :=
  Pipeline.scopedRestBut (Ix := Unit) (Name := ℕ) (U := UR sig nD τ) (Lvl := ℕ) (Val := Elt F) spec2 c [cc2_scratch0]

/-- The invariant before position `n`: before the first point every scoped buffer at anything; afterwards the
    accumulator at what the point before left, the other scoped buffers at anything, the generator at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ others2 c) ∗ (∃ r, prngReg c r)) := by
  cases n with
  | zero => exact absurd rfl hz
  | succ n => rfl

/-- The invariant the region is entered with, the accumulator split off. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list (win := spec2) (c := c) [cc2_scratch0] (by decide) (by decide)]
  simp only [scM2, owns_whole]
  rfl

/-! ## The proof data -/

/-- The proof data of this call on core `c`: the arrays as the region finds them; after the body each input's buffer
    at its block and the output's at the accumulator; every array held whole; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point is the first, the last or neither, and that
    case's run applies; the invariant hands the body the accumulator at what the point before left (at anything, at the
    first point) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val = 0
  · have h1 : ¬t.val = 63 := by omega
    have hc1 : ¬cond2_1 (grid2.coords t) := fun h => h1 ((hcond2_1 t).mp h)
    rw [Dat.leavesExact_idle (dat2 V c) 2 t (idleAt2_2 t hc1) (noFlush2_2 t hc1)]
    rw [acc2_zero V c t h0]
    rw [PhiS2_castSucc V c t, PhiS2_zero V c _ _ h0, PhiA2_eq]
    iintro ⟨⟨⟨HS0, Hoth⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2 (Memref.isWhole_whole _) ((hcond2_0 t).mpr h0) hc1 (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover2_A c (grid2.coords t) (ms2_0 t) (hs2_0 t) (ms2_1 t) (hs2_1 t) (ms2_2 t) (hs2_2 t) scM2 (Memref.isWhole_whole _) _ _ _ _)).trans (sval2_A c (grid2.coords t) (ms2_0 t) (hs2_0 t) (ms2_1 t) (hs2_1 t) (ms2_2 t) (hs2_2 t) scM2 (Memref.isWhole_whole _) _ _ _ _)
        iexact Hoth
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    rw [acc2_pos V c t h0]
    rw [PhiS2_castSucc V c t, PhiS2_pos V c _ _ h0]
    by_cases h1 : t.val = 63
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2, acc2_pos V c t h0]
      iintro ⟨⟨⟨HS0, Hoth⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2 (Memref.isWhole_whole _) hc0 hc1 (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover2_C c (grid2.coords t) (ms2_0 t) (hs2_0 t) (ms2_1 t) (hs2_1 t) (ms2_2 t) (hs2_2 t) scM2 (Memref.isWhole_whole _) _ _ _ _ _)).trans (sval2_C c (grid2.coords t) (ms2_0 t) (hs2_0 t) (ms2_1 t) (hs2_1 t) (ms2_2 t) (hs2_2 t) scM2 (Memref.isWhole_whole _) _ _ _ _ _)
          iexact Hoth
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover2_C c (grid2.coords t) (ms2_0 t) (hs2_0 t) (ms2_1 t) (hs2_1 t) (ms2_2 t) (hs2_2 t) scM2 (Memref.isWhole_whole _) _ _ _ _ _)).trans (oval2_C c (grid2.coords t) (ms2_0 t) (hs2_0 t) (ms2_1 t) (hs2_1 t) (ms2_2 t) (hs2_2 t) scM2 (Memref.isWhole_whole _) _ _ _ _ _)
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS0, Hoth⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) hc0 hc1 (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover2_B c (grid2.coords t) (ms2_0 t) (hs2_0 t) (ms2_1 t) (hs2_1 t) (ms2_2 t) (hs2_2 t) scM2 (Memref.isWhole_whole _) _ _ _ _ _)).trans (sval2_B c (grid2.coords t) (ms2_0 t) (hs2_0 t) (ms2_1 t) (hs2_1 t) (ms2_2 t) (hs2_2 t) scM2 (Memref.isWhole_whole _) _ _ _ _ _)
          iexact Hoth
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Body2

end
-- ==== Proof.BitsSharedArrays.lean ====
/-
  Two windows on one array.

  The first region hands one array to both of its input windows, and so does the second. The core holds such an
  array whole at the full share; the pipeline holds it once per window, the first window's copy at the left half of
  the full share and the second window's at the right half. At a region's entry the full share splits into its two
  halves; at its exit both halves come back at the same contents and join into the full share again. The result
  window's array is a buffer of its own, held at the full share throughout.
-/
import proofs.«104297_j12386685682169_1_alg».proof.Proof.Gen.Kernel.Launch
import Idealize.ShloMosaic.Lib.Pipeline.Regions
import Idealize.ShloMosaic.Lib.Pipeline.RegionsLoop

noncomputable section

namespace Cert.Kernel.Shared

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.Pipeline (Dat Cfg Window)

variable {F : FTy → Type} [FloatOps F]

local notation "𝕄" => MT nD τ sig Unit (Elt F) ℕ (UR sig nD τ) ℕ

/-! ## Region 0: `main_v1` read through windows 0 and 1, `main_v2` written through window 2 -/

/-- The buffers behind region 0's windows. -/
theorem arrImage0 : Finset.univ.image (Pipeline.arrRef spec0) = {main_v1, main_v2} := by decide

/-- A core's unscoped buffers are those two, each whole at the full share, and the rest. -/
theorem split0 (c : Dev nD) (V : (b : Ref sig .tc) → Buf (Elt F) ((c : Thread nD τ).loc b)) :
    (unscopedBufs c V : sProp 𝕄)
      = iprop((((c : Thread nD τ).loc main_v1 ↦{fullShare} V main_v1) ∗ ((c : Thread nD τ).loc main_v2 ↦{fullShare} V main_v2))
          ∗ Pipeline.unscopedRest (Ix := Unit) (Name := ℕ) (U := UR sig nD τ) (Lvl := ℕ) spec0 c V) := by
  classical
  have hsub : Finset.univ.image (Pipeline.arrRef spec0) ⊆ Finset.univ.filter fun b : Ref sig .tc => ¬ b.isScoped := by decide
  unfold unscopedBufs Pipeline.unscopedRest
  rw [bigSep_sdiff_split hsub, arrImage0, bigSep_insert (by decide), bigSep_singleton]
  rfl

/-- The pipeline's arrays: the shared array once at each half of the full share, the result's at the full share. -/
theorem arrays0 {c : Dev nD} (dat : Dat τ (Elt F) Unit ℕ (UR sig nD τ) ℕ cfg0 c) (hq0 : dat.q 0 = fullShare.left) (hq1 : dat.q 1 = fullShare.right)
    (Fn : (w : Fin cfg0.W) → Buf (Elt F) ((cfg0.win w).arr.view.loc (c : Thread nD τ))) :
    (dat.arrays Fn : sProp 𝕄)
      = iprop(((c : Thread nD τ).loc main_v1 ↦{fullShare.left} Fn 0) ∗ ((c : Thread nD τ).loc main_v1 ↦{fullShare.right} Fn 1)
          ∗ ((c : Thread nD τ).loc main_v2 ↦{fullShare} Fn 2)) := by
  have s0 : dat.share 0 = fullShare.left := (show dat.share 0 = dat.q 0 from rfl).trans hq0
  have s1 : dat.share 1 = fullShare.right := (show dat.share 1 = dat.q 1 from rfl).trans hq1
  have s2 : dat.share 2 = fullShare := rfl
  unfold Dat.arrays
  rw [bigSep_W0, (arr_whole0 0).set_eq_univ, (arr_whole0 2).set_eq_univ, s0, s1, s2]

/-- ENTRY: the core's unscoped buffers at `V` are the pipeline's arrays at their entry contents, read off `V`,
    and the unscoped rest: the shared array's full share splits into its halves. -/
theorem entry_arrays0 {c : Dev nD} (dat : Dat τ (Elt F) Unit ℕ (UR sig nD τ) ℕ cfg0 c) (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄)
      ⊢ iprop(dat.arrays (dat.arrAt · 0) ∗ Pipeline.unscopedRest (Ix := Unit) (Name := ℕ) (U := UR sig nD τ) (Lvl := ℕ) spec0 c V) := by
  rw [split0 c V, arrays0 dat hq0 hq1, show dat.arrAt 0 0 = V main_v1 from hA 0, show dat.arrAt 1 0 = V main_v1 from hA 1,
    show dat.arrAt 2 0 = V main_v2 from hA 2]
  exact sep_mono ((sep_mono (pointsTo_share (PosShare.mem_left_op_right fullShare)).1 .rfl).trans sep_assoc.1) .rfl

/-- EXIT: the pipeline's arrays at `Fn` and the unscoped rest at `V` are the core's unscoped buffers at any `V'` that
    has the arrays at `Fn` and agrees with `V` off them: both halves of the shared array come back at one contents
    and join. -/
theorem exit_arrays0 {c : Dev nD} (dat : Dat τ (Elt F) Unit ℕ (UR sig nD τ) ℕ cfg0 c) (hq0 : dat.q 0 = fullShare.left) (hq1 : dat.q 1 = fullShare.right)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest (Ix := Unit) (Name := ℕ) (U := UR sig nD τ) (Lvl := ℕ) spec0 c V)
      ⊢ (unscopedBufs c V' : sProp 𝕄) := by
  rw [split0 c V', arrays0 dat hq0 hq1, show Fn 0 = V' main_v1 from hF 0, show Fn 1 = V' main_v1 from hF 1,
    show Fn 2 = V' main_v2 from hF 2]
  refine sep_mono ?_ (Entails.of_eq ?_)
  · exact sep_assoc.2.trans (sep_mono (pointsTo_share (PosShare.mem_left_op_right fullShare)).2 .rfl)
  · unfold Pipeline.unscopedRest
    exact bigSep_congr fun b hb => by rw [hrest b (Finset.mem_sdiff.mp hb).2]

/-! ## Region 1: `main_arg1` read through windows 0 and 1, `main_v4` written through window 2 -/

/-- The buffers behind region 1's windows. -/
theorem arrImage1 : Finset.univ.image (Pipeline.arrRef spec1) = {main_arg1, main_v4} := by decide

/-- A core's unscoped buffers are those two, each whole at the full share, and the rest. -/
theorem split1 (c : Dev nD) (V : (b : Ref sig .tc) → Buf (Elt F) ((c : Thread nD τ).loc b)) :
    (unscopedBufs c V : sProp 𝕄)
      = iprop((((c : Thread nD τ).loc main_arg1 ↦{fullShare} V main_arg1) ∗ ((c : Thread nD τ).loc main_v4 ↦{fullShare} V main_v4))
          ∗ Pipeline.unscopedRest (Ix := Unit) (Name := ℕ) (U := UR sig nD τ) (Lvl := ℕ) spec1 c V) := by
  classical
  have hsub : Finset.univ.image (Pipeline.arrRef spec1) ⊆ Finset.univ.filter fun b : Ref sig .tc => ¬ b.isScoped := by decide
  unfold unscopedBufs Pipeline.unscopedRest
  rw [bigSep_sdiff_split hsub, arrImage1, bigSep_insert (by decide), bigSep_singleton]
  rfl

/-- The pipeline's arrays: the shared array once at each half of the full share, the result's at the full share. -/
theorem arrays1 {c : Dev nD} (dat : Dat τ (Elt F) Unit ℕ (UR sig nD τ) ℕ cfg1 c) (hq0 : dat.q 0 = fullShare.left) (hq1 : dat.q 1 = fullShare.right)
    (Fn : (w : Fin cfg1.W) → Buf (Elt F) ((cfg1.win w).arr.view.loc (c : Thread nD τ))) :
    (dat.arrays Fn : sProp 𝕄)
      = iprop(((c : Thread nD τ).loc main_arg1 ↦{fullShare.left} Fn 0) ∗ ((c : Thread nD τ).loc main_arg1 ↦{fullShare.right} Fn 1)
          ∗ ((c : Thread nD τ).loc main_v4 ↦{fullShare} Fn 2)) := by
  have s0 : dat.share 0 = fullShare.left := (show dat.share 0 = dat.q 0 from rfl).trans hq0
  have s1 : dat.share 1 = fullShare.right := (show dat.share 1 = dat.q 1 from rfl).trans hq1
  have s2 : dat.share 2 = fullShare := rfl
  unfold Dat.arrays
  rw [bigSep_W1, (arr_whole1 0).set_eq_univ, (arr_whole1 2).set_eq_univ, s0, s1, s2]

/-- ENTRY: the core's unscoped buffers at `V` are the pipeline's arrays at their entry contents, read off `V`,
    and the unscoped rest: the shared array's full share splits into its halves. -/
theorem entry_arrays1 {c : Dev nD} (dat : Dat τ (Elt F) Unit ℕ (UR sig nD τ) ℕ cfg1 c) (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄)
      ⊢ iprop(dat.arrays (dat.arrAt · 0) ∗ Pipeline.unscopedRest (Ix := Unit) (Name := ℕ) (U := UR sig nD τ) (Lvl := ℕ) spec1 c V) := by
  rw [split1 c V, arrays1 dat hq0 hq1, show dat.arrAt 0 0 = V main_arg1 from hA 0, show dat.arrAt 1 0 = V main_arg1 from hA 1,
    show dat.arrAt 2 0 = V main_v4 from hA 2]
  exact sep_mono ((sep_mono (pointsTo_share (PosShare.mem_left_op_right fullShare)).1 .rfl).trans sep_assoc.1) .rfl

/-- EXIT: the pipeline's arrays at `Fn` and the unscoped rest at `V` are the core's unscoped buffers at any `V'` that
    has the arrays at `Fn` and agrees with `V` off them: both halves of the shared array come back at one contents
    and join. -/
theorem exit_arrays1 {c : Dev nD} (dat : Dat τ (Elt F) Unit ℕ (UR sig nD τ) ℕ cfg1 c) (hq0 : dat.q 0 = fullShare.left) (hq1 : dat.q 1 = fullShare.right)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest (Ix := Unit) (Name := ℕ) (U := UR sig nD τ) (Lvl := ℕ) spec1 c V)
      ⊢ (unscopedBufs c V' : sProp 𝕄) := by
  rw [split1 c V', arrays1 dat hq0 hq1, show Fn 0 = V' main_arg1 from hF 0, show Fn 1 = V' main_arg1 from hF 1,
    show Fn 2 = V' main_v4 from hF 2]
  refine sep_mono ?_ (Entails.of_eq ?_)
  · exact sep_assoc.2.trans (sep_mono (pointsTo_share (PosShare.mem_left_op_right fullShare)).2 .rfl)
  · unfold Pipeline.unscopedRest
    exact bigSep_congr fun b hb => by rw [hrest b (Finset.mem_sdiff.mp hb).2]

end Cert.Kernel.Shared

end
-- ==== Proof.BitsWhole.lean ====
/-
  The whole program: three host stretches and three kernel launches in turn. Between two items every unscoped buffer
  holds a known value: the launch memory folded through the host operations so far, with each launch's one-element
  result array replaced by what that launch's write-back leaves. Each launch is entered from, and left at, such a
  state; its two input windows may read ONE array, whose ownership is then split in halves between them at entry and
  joined at exit. Composing the seven items gives the frame: every execution ends, nothing faults, and the two
  argument arrays end as launched (no item writes them).
-/
import proofs.«104297_j12386685682169_1_alg».proof.Proof.BitsDat0
import proofs.«104297_j12386685682169_1_alg».proof.Proof.BitsDat1
import proofs.«104297_j12386685682169_1_alg».proof.Proof.BitsDat2
import proofs.«104297_j12386685682169_1_alg».proof.Proof.BitsSharedArrays
import proofs.«104297_j12386685682169_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What rides beside the buffers, and the launch's parameters -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers every segment carries the core's generator register at some state and its `owes`, at nothing. -/
abbrev R (c : Dev nD) : sProp 𝕄 := iprop((∃ r, prngReg c r) ∗ ∃ W, owes (c : Thread nD τ) (0 : CellTallies nD τ sig Unit) W)

/-- After the last point the region's invariant gives back the scoped rest it was entered with: what the accumulator holds is forgotten. -/
theorem Phi_out0 (V : (c : Dev nD) → (b : Ref sig .tc) → Buf (Elt F) ((c : Thread nD τ).loc b)) (c : Dev nD) :
    (Body0.dat0 V c).Φ (Fin.last cfg0.N) ⊢ (Pipeline.ΦA spec0 c : sProp 𝕄) := by
  rw [show (Body0.dat0 V c).Φ (Fin.last cfg0.N) = Body0.PhiS0 V c (Fin.last cfg0.N).val (Nat.le_of_lt_succ (Fin.last cfg0.N).isLt) from rfl,
    Body0.PhiS0_pos V c _ _ (by rw [Fin.val_last]; have : cfg0.N = 64 := N_0; omega), Body0.PhiA0_eq]
  iintro ⟨⟨HS0, Hoth⟩, Hg⟩
  isplitl [HS0 Hoth]
  · isplitl [HS0]; · iexists _; iexact HS0
    iexact Hoth
  iexact Hg

/-- After the last point the region's invariant gives back the scoped rest it was entered with: what the accumulator holds is forgotten. -/
theorem Phi_out1 (V : (c : Dev nD) → (b : Ref sig .tc) → Buf (Elt F) ((c : Thread nD τ).loc b)) (c : Dev nD) :
    (Body1.dat1 V c).Φ (Fin.last cfg1.N) ⊢ (Pipeline.ΦA spec1 c : sProp 𝕄) := by
  rw [show (Body1.dat1 V c).Φ (Fin.last cfg1.N) = Body1.PhiS1 V c (Fin.last cfg1.N).val (Nat.le_of_lt_succ (Fin.last cfg1.N).isLt) from rfl,
    Body1.PhiS1_pos V c _ _ (by rw [Fin.val_last]; have : cfg1.N = 64 := N_1; omega), Body1.PhiA1_eq]
  iintro ⟨⟨HS0, Hoth⟩, Hg⟩
  isplitl [HS0 Hoth]
  · isplitl [HS0]; · iexists _; iexact HS0
    iexact Hoth
  iexact Hg

/-- After the last point the region's invariant gives back the scoped rest it was entered with: what the accumulator holds is forgotten. -/
theorem Phi_out2 (V : (c : Dev nD) → (b : Ref sig .tc) → Buf (Elt F) ((c : Thread nD τ).loc b)) (c : Dev nD) :
    (Body2.dat2 V c).Φ (Fin.last cfg2.N) ⊢ (Pipeline.ΦA spec2 c : sProp 𝕄) := by
  rw [show (Body2.dat2 V c).Φ (Fin.last cfg2.N) = Body2.PhiS2 V c (Fin.last cfg2.N).val (Nat.le_of_lt_succ (Fin.last cfg2.N).isLt) from rfl,
    Body2.PhiS2_pos V c _ _ (by rw [Fin.val_last]; have : cfg2.N = 64 := N_2; omega), Body2.PhiA2_eq]
  iintro ⟨⟨HS0, Hoth⟩, Hg⟩
  isplitl [HS0 Hoth]
  · isplitl [HS0]; · iexists _; iexact HS0
    iexact Hoth
  iexact Hg

/-! ## The buffers' contents between @main's items

After the first host stretch the contents are a fold of the launch memory; each region then changes its one result
array, to what its write-backs leave, and each later host stretch folds on. -/

abbrev W1 (c : Dev nD) : Valuation τ sig (Elt F) := V1 m c
/-- What region 0 leaves in its result array. -/
def o2 (c : Dev nD) : Buf (Elt F) ((c : Thread nD τ).loc main_v2) := (Body0.dat0 (fun c b => W1 m c b) c).arrAt 2 cfg0.N
def W2 (c : Dev nD) : Valuation τ sig (Elt F) := Function.update (W1 m c) main_v2 (o2 m c)
abbrev W3 (c : Dev nD) : Valuation τ sig (Elt F) := StableHlo.after hostOps1 (W2 m c)
/-- What region 1 leaves in its result array. -/
def o4 (c : Dev nD) : Buf (Elt F) ((c : Thread nD τ).loc main_v4) := (Body1.dat1 (fun c b => W3 m c b) c).arrAt 2 cfg1.N
def W4 (c : Dev nD) : Valuation τ sig (Elt F) := Function.update (W3 m c) main_v4 (o4 m c)
abbrev W5 (c : Dev nD) : Valuation τ sig (Elt F) := StableHlo.after hostOps2 (W4 m c)
/-- What region 2 leaves in its result array. -/
def o6 (c : Dev nD) : Buf (Elt F) ((c : Thread nD τ).loc main_v6) := (Body2.dat2 (fun c b => W5 m c b) c).arrAt 2 cfg2.N
def W6 (c : Dev nD) : Valuation τ sig (Elt F) := Function.update (W5 m c) main_v6 (o6 m c)

theorem W2_self (c : Dev nD) : W2 m c main_v2 = o2 m c := by unfold W2; exact Function.update_self ..
theorem W4_self (c : Dev nD) : W4 m c main_v4 = o4 m c := by unfold W4; exact Function.update_self ..
theorem W6_self (c : Dev nD) : W6 m c main_v6 = o6 m c := by unfold W6; exact Function.update_self ..
theorem W2_of (c : Dev nD) (r : Ref sig .tc) (h : r ≠ main_v2) : W2 m c r = W1 m c r := by
  unfold W2; exact Function.update_of_ne (StableHlo.devRef_ne_of_ne h : (Proc.devRef .tc r : DevRef τ sig) ≠ Proc.devRef .tc main_v2) _ _
theorem W4_of (c : Dev nD) (r : Ref sig .tc) (h : r ≠ main_v4) : W4 m c r = W3 m c r := by
  unfold W4; exact Function.update_of_ne (StableHlo.devRef_ne_of_ne h : (Proc.devRef .tc r : DevRef τ sig) ≠ Proc.devRef .tc main_v4) _ _
theorem W6_of (c : Dev nD) (r : Ref sig .tc) (h : r ≠ main_v6) : W6 m c r = W5 m c r := by
  unfold W6; exact Function.update_of_ne (StableHlo.devRef_ne_of_ne h : (Proc.devRef .tc r : DevRef τ sig) ≠ Proc.devRef .tc main_v6) _ _

/-- The contents the regions leave, as the conditional frame's unknowns. -/
def outs : Outs (F := F) := fun J r c => match J with
  | 2 => W2 m c r
  | 4 => W4 m c r
  | _ => W6 m c r

theorem V2_eq (c : Dev nD) : V2 m (outs m) c = W2 m c := by
  show Function.update (V1 m c) main_v2 (W2 m c main_v2) = W2 m c
  rw [W2_self]; rfl
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v4 (W4 m c main_v4) = W4 m c
  rw [V3_eq, W4_self]; rfl
theorem V5_eq (c : Dev nD) : V5 m (outs m) c = W5 m c := by
  show StableHlo.after hostOps2 (V4 m (outs m) c) = _
  rw [V4_eq]
theorem V6_eq (c : Dev nD) : V6 m (outs m) c = W6 m c := by
  show Function.update (V5 m (outs m) c) main_v6 (W6 m c main_v6) = W6 m c
  rw [V5_eq, W6_self]; rfl

/-! ## The proof data family -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Body0.dat0 (fun c b => W1 m c b) c
  | ⟨1, _⟩ => fun c => Body1.dat1 (fun c b => W3 m c b) c
  | ⟨2, _⟩ => fun c => Body2.dat2 (fun c b => W5 m c b) c

/-! ## Each region's arrays at its exit -/

theorem hF0 (c : Dev nD) : ∀ w, (pdats m 0 c).arrAt w cfg0.N = W2 m c (Pipeline.arrRef spec0 w)
  | ⟨0, _⟩ => ((Body0.dat0 (fun c b => W1 m c b) c).arrAt_in 0 rfl _).trans ((Body0.A_eq0 _ c 0).trans (W2_of m c main_v1 (by decide)).symm)
  | ⟨1, _⟩ => ((Body0.dat0 (fun c b => W1 m c b) c).arrAt_in 1 rfl _).trans ((Body0.A_eq0 _ c 1).trans (W2_of m c main_v1 (by decide)).symm)
  | ⟨2, _⟩ => (W2_self m c).symm
theorem hrest0 (c : Dev nD) : ∀ b, b ∉ Finset.univ.image (Pipeline.arrRef spec0) → W2 m c b = W1 m c b :=
  fun b hb => W2_of m c b fun e => hb (Finset.mem_image.mpr ⟨2, Finset.mem_univ _, e.symm⟩)
theorem hF1 (c : Dev nD) : ∀ w, (pdats m 1 c).arrAt w cfg1.N = W4 m c (Pipeline.arrRef spec1 w)
  | ⟨0, _⟩ => ((Body1.dat1 (fun c b => W3 m c b) c).arrAt_in 0 rfl _).trans ((Body1.A_eq1 _ c 0).trans (W4_of m c main_arg1 (by decide)).symm)
  | ⟨1, _⟩ => ((Body1.dat1 (fun c b => W3 m c b) c).arrAt_in 1 rfl _).trans ((Body1.A_eq1 _ c 1).trans (W4_of m c main_arg1 (by decide)).symm)
  | ⟨2, _⟩ => (W4_self m c).symm
theorem hrest1 (c : Dev nD) : ∀ b, b ∉ Finset.univ.image (Pipeline.arrRef spec1) → W4 m c b = W3 m c b :=
  fun b hb => W4_of m c b fun e => hb (Finset.mem_image.mpr ⟨2, Finset.mem_univ _, e.symm⟩)
theorem hF2 (c : Dev nD) : ∀ w, (pdats m 2 c).arrAt w cfg2.N = W6 m c (Pipeline.arrRef spec2 w)
  | ⟨0, _⟩ => ((Body2.dat2 (fun c b => W5 m c b) c).arrAt_in 0 rfl _).trans ((Body2.A_eq2 _ c 0).trans (W6_of m c main_v1 (by decide)).symm)
  | ⟨1, _⟩ => ((Body2.dat2 (fun c b => W5 m c b) c).arrAt_in 1 rfl _).trans ((Body2.A_eq2 _ c 1).trans (W6_of m c main_arg1 (by decide)).symm)
  | ⟨2, _⟩ => (W6_self m c).symm
theorem hrest2 (c : Dev nD) : ∀ b, b ∉ Finset.univ.image (Pipeline.arrRef spec2) → W6 m c b = W5 m c b :=
  fun b hb => W6_of m c b fun e => hb (Finset.mem_image.mpr ⟨2, Finset.mem_univ _, e.symm⟩)

/-! ## The regions as segments -/

set_option backward.isDefEq.respectTransparency.types false in
/-- Region 0 over the thread state: entered with every unscoped buffer at `W1`, left with them at `W2`. Its
    arrays are split out of the unscoped buffers and put back at the exit contents; the generator register and the
    scoped rest go into the region's invariant and come back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Body0.body_obligation0 (fun c b => W1 m c b) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit := Shared.entry_arrays0 (Body0.dat0 (fun c b => W1 m c b) c) rfl rfl (fun b => W1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (fun c b => W1 m c b) c).trans ?_
    unfold Pipeline.ΦA
    iintro ⟨Hr, Hp⟩
    isplitl [Hp]; · iexact Hp
    isplitr; · iempintro
    iexact Hr
  hexit c := by
    have hjoin := Shared.exit_arrays0 (Body0.dat0 (fun c b => W1 m c b) c) rfl rfl (fun b => W1 m c b) (fun b => W2 m c b)
      ((pdats m 0 c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the exit contents; the generator register and the
    scoped rest go into the region's invariant and come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Body1.body_obligation1 (fun c b => W3 m c b) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := by
    rw [Pipeline.ownSems0_none]
    have hsplit := Shared.entry_arrays1 (Body1.dat1 (fun c b => W3 m c b) c) rfl rfl (fun b => W3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (fun c b => W3 m c b) c).trans ?_
    unfold Pipeline.ΦA
    iintro ⟨Hr, Hp⟩
    isplitl [Hp]; · iexact Hp
    isplitr; · iempintro
    iexact Hr
  hexit c := by
    have hjoin := Shared.exit_arrays1 (Body1.dat1 (fun c b => W3 m c b) c) rfl rfl (fun b => W3 m c b) (fun b => W4 m c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at the exit contents; the generator register and the
    scoped rest go into the region's invariant and come back; nothing is owed; the kernel has no semaphore of its own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (Body2.body_obligation2 (fun c b => W5 m c b) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (fun b => W5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi_out2 (fun c b => W5 m c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => W5 m c b) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The whole run -/

/-- What the conditional run needs besides the regions' records: the launch element, the rest states, the chaining. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0_core (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp) : sProp 𝕄)
      ⊢ (R c : sProp 𝕄) := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  iintro ⟨H, -⟩
  imodintro
  iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) from bigSep_mono fun c _ => hE0_core ρ c)
  iexact H

set_option backward.isDefEq.respectTransparency.types false in
/-- THE FRAME at any float values: every weakly fair execution of @main terminates, nothing faults, and the two
    argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀
    (fun _ c => R c) (hE0 ρ) (fun c => by iintro ⟨-, HO⟩; iexact HO)
    (reg0 m) (fun c => by rw [show V1 m c = W1 m c from rfl]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

end Cert.Kernel.Whole

end
-- ==== Proof.lean ====
/-
  The kernel and the reference compute one number: the discrepancy of two sets of 8192 rows of 64.

  Both programs first transpose and reshape the first argument into an array x of 8192 rows of 64; the second
  argument y is read as it is. For rows a_n, b_m the pair value is exp(-(|a_n|² + |b_m|² - 2⟨a_n, b_m⟩) / 4096), the
  pair sum of two arrays is the sum of the pair values over all 8192 × 8192 pairs of rows, and the discrepancy is
  pairSum x x / 2²⁶ + pairSum y y / 2²⁶ - 2 · (pairSum x y / 2²⁶).

  The reference forms each 8192 × 8192 table of pair values whole, sums it over all its entries, divides by 2²⁶ and
  combines the three quotients. The kernel runs three regions, one per pair of arrays, each over an 8 × 8 grid of
  blocks of 1024 rows: at a grid point it forms the 1024 × 1024 table of pair values of the two blocks, sums it and
  adds the sum onto an accumulator, which the last point writes to the region's one-entry result; the host then
  divides the three results by 2²⁶ and combines them as the reference does.

  Over the extended reals every operation is exact, so the entry of a table is the same pair value in both
  programs, and the kernel's sum over 64 blocks of sums over 1024 × 1024 entries is the reference's sum over
  8192 × 8192 entries re-associated: addition there is commutative and associative with no side condition. Hence
  both result buffers hold the discrepancy of x and y, and the arguments end as launched.
-/
import proofs.«104297_j12386685682169_1_alg».proof.Defs
import proofs.«104297_j12386685682169_1_alg».proof.Proof.Gen.Kernel
import proofs.«104297_j12386685682169_1_alg».proof.Proof.Gen.KernelIdeal
import proofs.«104297_j12386685682169_1_alg».proof.Proof.Gen.ReferenceIdeal
import proofs.«104297_j12386685682169_1_alg».proof.Proof.Gen.Pre_finite_inputs
import proofs.«104297_j12386685682169_1_alg».proof.Proof.Gen.ReferenceIdeal.Run
import proofs.«104297_j12386685682169_1_alg».proof.Proof.Gen.ReferenceIdeal.Read
import proofs.«104297_j12386685682169_1_alg».proof.Proof.RefValue
import proofs.«104297_j12386685682169_1_alg».proof.Proof.IdealHostTail
import proofs.«104297_j12386685682169_1_alg».proof.Proof.IdealWhole
import proofs.«104297_j12386685682169_1_alg».proof.Proof.IdealKernelValue
import proofs.«104297_j12386685682169_1_alg».proof.Proof.BitsWhole
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Whole.frame (F := Bits) m ρ
/-- So does the kernel read over the extended reals. -/
theorem frame_ki : Cert.frame_KernelIdeal := fun m ρ _ => Cert.KernelIdeal.Whole.frame (F := Ideal) m ρ
/-- So does the reference. -/
theorem frame_ri : Cert.frame_ReferenceIdeal := fun m ρ _ =>
  (θ_run Cert.ReferenceIdeal.defs _ _).mono (fun _ h c => (h c).2) (Cert.ReferenceIdeal.Value.run (F := Ideal) m ρ)

/-- Both programs transpose and reshape the first argument the same way. -/
theorem ref_x_eq (m : (ℓ : Loc Cert.KernelIdeal.nD Cert.KernelIdeal.τ Cert.KernelIdeal.sig) → Buf (Elt Ideal) ℓ) (c : Dev Cert.KernelIdeal.nD) :
    Cert.ReferenceIdeal.Read.val_main_v1 (F := Ideal) (m ((c.tc : Thread Cert.KernelIdeal.nD Cert.KernelIdeal.τ).loc Cert.KernelIdeal.main_arg0))
      = Cert.KernelIdeal.Gen.V1 m c Cert.KernelIdeal.main_v1 := by
  rw [Cert.KernelIdeal.HostTail.V1_main_v1]
  rfl

/-- From memories that agree on the arguments both programs end with the discrepancy of the transposed and
    reshaped first argument and the second in their result buffers, and with their arguments as launched. -/
theorem algebraic : Cert.algebraic_KernelIdeal_ReferenceIdeal := by
  intro m ρ m' ρ' _ hagree
  refine ⟨fun c => fun _ => Cert.PairSpec.mmd (Cert.KernelIdeal.Gen.V1 m c Cert.KernelIdeal.main_v1)
      (m ((c.tc : Thread Cert.KernelIdeal.nD Cert.KernelIdeal.τ).loc Cert.KernelIdeal.main_arg1)),
    Cert.KernelIdeal.KernelValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.RefValue.ref_value, (hagree c).1, (hagree c).2, ref_x_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
